-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_50" .f32 0x3CA3D70A#32 ((1 / 50 : ℝ) : EReal)
  ∧ IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x128 : Shape := ⟨4, ![2, 16, 2048, 128]⟩
abbrev S2x16x128x2048 : Shape := ⟨4, ![2, 16, 128, 2048]⟩
abbrev S_ : Shape := ⟨0, ![]⟩

class Facts : Prop where
  bcast_S_S2x16x2048x128 : S_.BroadcastsInDim S2x16x2048x128 (![] : Fin 0 → Fin S2x16x2048x128.rank)
  reducesTo_S2x16x2048x128_S_d0_1_2_3 : S2x16x2048x128.ReducesTo [0, 1, 2, 3] S_
  h_S_ : 0 < S_.numel
  bcast_S_S2x16x128x2048 : S_.BroadcastsInDim S2x16x128x2048 (![] : Fin 0 → Fin S2x16x128x2048.rank)
  reducesTo_S2x16x128x2048_S_d0_1_2_3 : S2x16x128x2048.ReducesTo [0, 1, 2, 3] S_

variable [Facts]

def fn {F : FTy → Type} [FloatOps F] (main_arg0 : FVec F S2x16x2048x128 .f32) (main_arg1 : FVec F S2x16x128x2048 .f32) (main_arg2 : FVec F S2x16x2048x128 .f32) : IVec S_ 1 :=
  let main_v0 : FVec F S2x16x2048x128 .f32 := Host.absf main_arg0
  let main_cst : FVec F S_ .f32 := constant S_ .f32 0x7F800000#32
  let main_v1 : FVec F S2x16x2048x128 .f32 := broadcastInDim S2x16x2048x128 ![] bcast_S_S2x16x2048x128 main_cst
  let main_v2 : IVec S2x16x2048x128 1 := cmpf .olt main_v0 main_v1
  let main_c : IVec S_ 1 := constantI S_ 1 1#1
  let main_v3 : IVec S_ 1 := (fun x v => Host.reduce IntOp.andi x v reducesTo_S2x16x2048x128_S_d0_1_2_3 h_S_) main_v2 main_c
  let main_v4 : FVec F S2x16x128x2048 .f32 := Host.absf main_arg1
  let main_cst_0 : FVec F S_ .f32 := constant S_ .f32 0x7F800000#32
  let main_v5 : FVec F S2x16x128x2048 .f32 := broadcastInDim S2x16x128x2048 ![] bcast_S_S2x16x128x2048 main_cst_0
  let main_v6 : IVec S2x16x128x2048 1 := cmpf .olt main_v4 main_v5
  let main_c_1 : IVec S_ 1 := constantI S_ 1 1#1
  let main_v7 : IVec S_ 1 := (fun x v => Host.reduce IntOp.andi x v reducesTo_S2x16x128x2048_S_d0_1_2_3 h_S_) main_v6 main_c_1
  let main_v8 : IVec S_ 1 := andi main_v3 main_v7
  let main_v9 : FVec F S2x16x2048x128 .f32 := Host.absf main_arg2
  let main_cst_2 : FVec F S_ .f32 := constant S_ .f32 0x7F800000#32
  let main_v10 : FVec F S2x16x2048x128 .f32 := broadcastInDim S2x16x2048x128 ![] bcast_S_S2x16x2048x128 main_cst_2
  let main_v11 : IVec S2x16x2048x128 1 := cmpf .olt main_v9 main_v10
  let main_c_3 : IVec S_ 1 := constantI S_ 1 1#1
  let main_v12 : IVec S_ 1 := (fun x v => Host.reduce IntOp.andi x v reducesTo_S2x16x2048x128_S_d0_1_2_3 h_S_) main_v11 main_c_3
  let main_v13 : IVec S_ 1 := andi main_v8 main_v12
  main_v13
-- ==== Kernel.lean ====
abbrev S2x16x2048x128 : Shape := ⟨4, ![2, 16, 2048, 128]⟩
abbrev S2x16x128x2048 : Shape := ⟨4, ![2, 16, 128, 2048]⟩
abbrev S32x2048x128 : Shape := ⟨3, ![32, 2048, 128]⟩
abbrev S32x128x2048 : Shape := ⟨3, ![32, 128, 2048]⟩
abbrev S1x1024x128 : Shape := ⟨3, ![1, 1024, 128]⟩
abbrev S1x128x512 : Shape := ⟨3, ![1, 128, 512]⟩
abbrev S1x512x128 : Shape := ⟨3, ![1, 512, 128]⟩
abbrev S1024x1 : Shape := ⟨2, ![1024, 1]⟩
abbrev S1024x128 : Shape := ⟨2, ![1024, 128]⟩
abbrev S128x512 : Shape := ⟨2, ![128, 512]⟩
abbrev S512x128 : Shape := ⟨2, ![512, 128]⟩
abbrev S1024x512 : Shape := ⟨2, ![1024, 512]⟩
abbrev S1024 : Shape := ⟨1, ![1024]⟩

abbrev nBuf : Space → Nat
  | .hbm => 11
  | .vmem => 10
  | .smem => 0
  | _ => 0

abbrev bufTy : (tb : Table) → Fin (tcTables nBuf tb) → BufTy
  | .hbm, ⟨0, _⟩ => ⟨S2x16x2048x128, .f32⟩
  | .hbm, ⟨1, _⟩ => ⟨S2x16x128x2048, .f32⟩
  | .hbm, ⟨2, _⟩ => ⟨S2x16x2048x128, .f32⟩
  | .hbm, ⟨3, _⟩ => ⟨S32x2048x128, .f32⟩
  | .hbm, ⟨4, _⟩ => ⟨S32x2048x128, .bf16⟩
  | .hbm, ⟨5, _⟩ => ⟨S32x128x2048, .f32⟩
  | .hbm, ⟨6, _⟩ => ⟨S32x128x2048, .bf16⟩
  | .hbm, ⟨7, _⟩ => ⟨S32x2048x128, .f32⟩
  | .hbm, ⟨8, _⟩ => ⟨S32x2048x128, .bf16⟩
  | .hbm, ⟨9, _⟩ => ⟨S32x2048x128, .f32⟩
  | .hbm, ⟨10, _⟩ => ⟨S2x16x2048x128, .f32⟩
  | .local _ .vmem, ⟨0, _⟩ => ⟨S1x1024x128, .bf16⟩
  | .local _ .vmem, ⟨1, _⟩ => ⟨S1x1024x128, .bf16⟩
  | .local _ .vmem, ⟨2, _⟩ => ⟨S1x128x512, .bf16⟩
  | .local _ .vmem, ⟨3, _⟩ => ⟨S1x128x512, .bf16⟩
  | .local _ .vmem, ⟨4, _⟩ => ⟨S1x512x128, .bf16⟩
  | .local _ .vmem, ⟨5, _⟩ => ⟨S1x512x128, .bf16⟩
  | .local _ .vmem, ⟨6, _⟩ => ⟨S1x1024x128, .f32⟩
  | .local _ .vmem, ⟨7, _⟩ => ⟨S1x1024x128, .f32⟩
  | .local _ .vmem, ⟨8, _⟩ => ⟨S1024x1, .f32⟩
  | .local _ .vmem, ⟨9, _⟩ => ⟨S1024x128, .f32⟩
  | _, _ => ⟨S2x16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![32, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_2 : BitVec 32 := 0#32
  let v11 : BitVec 1 := Scalar.cmpi .ne v10 c0_i32_2
  v11

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c2_i32 : BitVec 32 := 2#32
  let v1 : BitVec 32 := Scalar.muli c2_i32 v0
  let c1_i32_0 : BitVec 32 := 1#32
  let v2 : BitVec 32 := Scalar.subi v1 c1_i32_0
  let v3 : BitVec 32 := Scalar.minsi arg2 v2
  let c0_i32 : BitVec 32 := 0#32
  let c0_i32_1 : BitVec 32 := 0#32
  ![arg0.toNat, c0_i32.toNat, v3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c2_i32 : BitVec 32 := 2#32
  let v1 : BitVec 32 := Scalar.muli c2_i32 v0
  let c1_i32_0 : BitVec 32 := 1#32
  let v2 : BitVec 32 := Scalar.subi v1 c1_i32_0
  let v3 : BitVec 32 := Scalar.minsi arg2 v2
  let c0_i32 : BitVec 32 := 0#32
  let c0_i32_1 : BitVec 32 := 0#32
  ![arg0.toNat, v3.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S2x16x2048x128_S32x2048x128 : S2x16x2048x128.ShapeCasts S32x2048x128
  bitsLt_bf16_f32 : FTy.bits .bf16 < FTy.bits .f32
  shapeCasts_S2x16x128x2048_S32x128x2048 : S2x16x128x2048.ShapeCasts S32x128x2048
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  iota_S1024x512_d0_w32 : S1024x512.Iotas .tc 32 [0]
  iota_S1024x512_d1_w32 : S1024x512.Iotas .tc 32 [1]
  reduces_S1024x512_S1024 : S1024x512.Reduces [1] S1024
  shapeCasts_S1024_S1024x1 : S1024.ShapeCasts S1024x1
  broadcasts_S1024x1_S1024x128 : S1024x1.Broadcasts S1024x128
  shapeCasts_S1024x128_S1x1024x128 : S1024x128.ShapeCasts S1x1024x128
  shapeCasts_S32x2048x128_S2x16x2048x128 : S32x2048x128.ShapeCasts S2x16x2048x128
  dot_S1024x128_S128x512_S1024x512_1_0_0_1_n_n_wf : DotDims.WF S1024x128 S128x512 S1024x512 [1] [0] [0] [1] [] []
  dot_S1024x512_S512x128_S1024x128_1_0_0_1_n_n_wf : DotDims.WF S1024x512 S512x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S32x2048x128.size a
  hwx0_0 : ∀ i : grid0.Coords, EltTy.bits .bf16 = 32 ∨ (Rect.block (s := S32x2048x128) S1x1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x512.size a ≤ S32x128x2048.size a
  hwx0_1 : ∀ i : grid0.Coords, EltTy.bits .bf16 = 32 ∨ (Rect.block (s := S32x128x2048) S1x128x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x128.size a ≤ S32x2048x128.size a
  hwx0_2 : ∀ i : grid0.Coords, EltTy.bits .bf16 = 32 ∨ (Rect.block (s := S32x2048x128) S1x512x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x128.size a ≤ S32x2048x128.size a
  hwx0_3 : ∀ i : grid0.Coords, EltTy.bits .f32 = 32 ∨ (Rect.block (s := S32x2048x128) S1x1024x128.size (cc0_transform_3 i) (hinb0_3 i)).WholeWords (EltTy.packing .f32)

variable [Facts₀]

def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf

abbrev win0_0 : Pipeline.Window sig grid0 :=
  Pipeline.Window.ofSpec (Memref.whole main_v1) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond3 i == 1#1) | ⟨_ + 4, h⟩ => absurd h (Nat.not_lt.2 (Nat.le_add_left _ _))

class Facts : Prop extends Facts₀ where

variable [Facts]
-- ==== ReferenceIdeal.lean ====
abbrev S2x16x2048x128 : Shape := ⟨4, ![2, 16, 2048, 128]⟩
abbrev S2x16x128x2048 : Shape := ⟨4, ![2, 16, 128, 2048]⟩
abbrev S_ : Shape := ⟨0, ![]⟩
abbrev S2048x2048 : Shape := ⟨2, ![2048, 2048]⟩
abbrev S2x16x2048x2048 : Shape := ⟨4, ![2, 16, 2048, 2048]⟩
abbrev S1x1x2048x2048 : Shape := ⟨4, ![1, 1, 2048, 2048]⟩
abbrev S2x16x2048 : Shape := ⟨3, ![2, 16, 2048]⟩
abbrev S2x16x2048x1 : Shape := ⟨4, ![2, 16, 2048, 1]⟩

abbrev nBuf : Space → Nat
  | .hbm => 48
  | .vmem => 0
  | .smem => 0
  | _ => 0

abbrev bufTy : (tb : Table) → Fin (tcTables nBuf tb) → BufTy
  | .hbm, ⟨0, _⟩ => ⟨S2x16x2048x128, .f32⟩
  | .hbm, ⟨1, _⟩ => ⟨S2x16x128x2048, .f32⟩
  | .hbm, ⟨2, _⟩ => ⟨S2x16x2048x128, .f32⟩
  | .hbm, ⟨3, _⟩ => ⟨S_, .i1⟩
  | .hbm, ⟨4, _⟩ => ⟨S2048x2048, .i1⟩
  | .hbm, ⟨5, _⟩ => ⟨S2048x2048, .i32⟩
  | .hbm, ⟨6, _⟩ => ⟨S_, .i32⟩
  | .hbm, ⟨7, _⟩ => ⟨S2048x2048, .i32⟩
  | .hbm, ⟨8, _⟩ => ⟨S2048x2048, .i32⟩
  | .hbm, ⟨9, _⟩ => ⟨S2048x2048, .i32⟩
  | .hbm, ⟨10, _⟩ => ⟨S2048x2048, .i1⟩
  | .hbm, ⟨11, _⟩ => ⟨S_, .i1⟩
  | .hbm, ⟨12, _⟩ => ⟨S2048x2048, .i1⟩
  | .hbm, ⟨13, _⟩ => ⟨S2048x2048, .i1⟩
  | .hbm, ⟨14, _⟩ => ⟨S_, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2x16x2048x2048, .f32⟩
  | .hbm, ⟨20, _⟩ => ⟨S_, .f32⟩
  | .hbm, ⟨21, _⟩ => ⟨S2x16x2048x2048, .f32⟩
  | .hbm, ⟨22, _⟩ => ⟨S2x16x2048x2048, .f32⟩
  | .hbm, ⟨23, _⟩ => ⟨S_, .f32⟩
  | .hbm, ⟨24, _⟩ => ⟨S2x16x2048x2048, .f32⟩
  | .hbm, ⟨25, _⟩ => ⟨S2x16x2048x2048, .f32⟩
  | .hbm, ⟨26, _⟩ => ⟨S2x16x2048x2048, .f32⟩
  | .hbm, ⟨27, _⟩ => ⟨S_, .f32⟩
  | .hbm, ⟨28, _⟩ => ⟨S2x16x2048x2048, .f32⟩
  | .hbm, ⟨29, _⟩ => ⟨S2x16x2048x2048, .f32⟩
  | .hbm, ⟨30, _⟩ => ⟨S1x1x2048x2048, .f32⟩
  | .hbm, ⟨31, _⟩ => ⟨S2x16x2048x2048, .f32⟩
  | .hbm, ⟨32, _⟩ => ⟨S2x16x2048x2048, .f32⟩
  | .hbm, ⟨33, _⟩ => ⟨S_, .f32⟩
  | .hbm, ⟨34, _⟩ => ⟨S2x16x2048, .f32⟩
  | .hbm, ⟨35, _⟩ => ⟨S_, .f32⟩
  | .hbm, ⟨36, _⟩ => ⟨S2x16x2048, .f32⟩
  | .hbm, ⟨37, _⟩ => ⟨S2x16x2048, .f32⟩
  | .hbm, ⟨38, _⟩ => ⟨S2x16x2048x1, .f32⟩
  | .hbm, ⟨39, _⟩ => ⟨S2x16x2048x2048, .f32⟩
  | .hbm, ⟨40, _⟩ => ⟨S2x16x2048x2048, .f32⟩
  | .hbm, ⟨41, _⟩ => ⟨S2x16x2048x2048, .f32⟩
  | .hbm, ⟨42, _⟩ => ⟨S_, .f32⟩
  | .hbm, ⟨43, _⟩ => ⟨S2x16x2048, .f32⟩
  | .hbm, ⟨44, _⟩ => ⟨S2x16x2048x1, .f32⟩
  | .hbm, ⟨45, _⟩ => ⟨S2x16x2048x2048, .f32⟩
  | .hbm, ⟨46, _⟩ => ⟨S2x16x2048x2048, .f32⟩
  | .hbm, ⟨47, _⟩ => ⟨S2x16x2048x128, .f32⟩
  | _, _ => ⟨S2x16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_c_0 : Ref sig .tc := ⟨.hbm, 11, rfl⟩
abbrev main_call0_v5 : Ref sig .tc := ⟨.hbm, 12, rfl⟩
abbrev main_v1 : Ref sig .tc := ⟨.hbm, 13, rfl⟩
abbrev main_cst : Ref sig .tc := ⟨.hbm, 14, rfl⟩
abbrev main_cst_0 : Ref sig .tc := ⟨.hbm, 15, rfl⟩
abbrev main_call1_v0 : Ref sig .tc := ⟨.hbm, 16, rfl⟩
abbrev main_call1_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_v4 : Ref sig .tc := ⟨.hbm, 21, rfl⟩
abbrev main_v5 : Ref sig .tc := ⟨.hbm, 22, rfl⟩
abbrev main_cst_2 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_3 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_4 : Ref sig .tc := ⟨.hbm, 33, rfl⟩
abbrev main_v14 : Ref sig .tc := ⟨.hbm, 34, rfl⟩
abbrev main_cst_5 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_6 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  bcast_S_S2x16x2048x2048 : S_.BroadcastsInDim S2x16x2048x2048 (![] : Fin 0 → Fin S2x16x2048x2048.rank)
  bcast_S2048x2048_S1x1x2048x2048_2_3 : S2048x2048.BroadcastsInDim S1x1x2048x2048 (![2, 3] : Fin 2 → Fin S1x1x2048x2048.rank)
  bcast_S1x1x2048x2048_S2x16x2048x2048_0_1_2_3 : S1x1x2048x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x128_S2x16x128x2048_S2x16x2048x2048_3_2_2_3_01_01_wf : DotDims.WF S2x16x2048x128 S2x16x128x2048 S2x16x2048x2048 [3] [2] [2] [3] [0, 1] [0, 1]
  dot_S2x16x2048x2048_S2x16x2048x128_S2x16x2048x128_3_2_2_3_01_01_wf : DotDims.WF S2x16x2048x2048 S2x16x2048x128 S2x16x2048x128 [3] [2] [2] [3] [0, 1] [0, 1]

variable [Facts₀]

def dot_S2x16x2048x128_S2x16x128x2048_S2x16x2048x2048_3_2_2_3_01_01 : DotDims S2x16x2048x128 S2x16x128x2048 S2x16x2048x2048 where
  lhsContracting := [3]
  rhsContracting := [2]
  lhsNonContracting := [2]
  rhsNonContracting := [3]
  lhsBatch := [0, 1]
  rhsBatch := [0, 1]
  wf := dot_S2x16x2048x128_S2x16x128x2048_S2x16x2048x2048_3_2_2_3_01_01_wf
def dot_S2x16x2048x2048_S2x16x2048x128_S2x16x2048x128_3_2_2_3_01_01 : DotDims S2x16x2048x2048 S2x16x2048x128 S2x16x2048x128 where
  lhsContracting := [3]
  rhsContracting := [2]
  lhsNonContracting := [2]
  rhsNonContracting := [3]
  lhsBatch := [0, 1]
  rhsBatch := [0, 1]
  wf := dot_S2x16x2048x2048_S2x16x2048x128_S2x16x2048x128_3_2_2_3_01_01_wf

class Facts : Prop extends Facts₀ where

variable [Facts]
-- ==== Proof.StepIdeal.lean ====
/-
  The attention body as a transition of the state it carries from one grid point to the next, and the
  pipeline's proof data built on it.

  A grid point is (batch·head, query tile, key tile).  Between the key tiles of one query tile the body
  keeps two buffers: the running sum of the softmax weights (one per query row) and the running weighted
  sum of the values (one row of 128 features per query row).  At a point it (1) clears both when the key
  tile is the first, (2) adds this tile's weights and weighted values when the tile can hold a key at or
  below the diagonal of the query tile (key tile start < query tile end), and (3) divides the second by
  the first into the output block when the key tile is the last.  `step` is that transition over the
  body's named payloads; `outsAt0` iterates it along the grid in the order the points run.
-/
import proofs.«125762_j22883585753583_2_alg».proof.Proof.Gen.KernelIdeal.Skeleton
import proofs.«125762_j22883585753583_2_alg».proof.Proof.Gen.KernelIdeal.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

/-! ## The three conditions, on the grid coordinates -/

/-- The key tile is the first of its query tile. -/
abbrev isFirst (i : grid0.Coords) : Prop := (i 2).val = 0
/-- The key tile starts before the query tile ends: it can hold a key at or below the diagonal. -/
abbrev isValid (i : grid0.Coords) : Prop := 512 * (i 2).val < 1024 * ((i 1).val + 1)
/-- The key tile is the last of its query tile. -/
abbrev isLast (i : grid0.Coords) : Prop := (i 2).val = 3

/-! ## The transition -/

/-- What is carried: the output block's buffer, the running weight sums, the running weighted values. -/
abbrev St (F : FTy → Type) : Type := Vec F S1x1024x128 .f32 × Vec F S1024x1 .f32 × Vec F S1024x128 .f32

/-- The running weight sums after the clearing step. -/
def lCleared (i : grid0.Coords) (p : St F) : Vec F S1024x1 .f32 := if isFirst i then k0_pay1 (F := F) else p.2.1
/-- The running weighted values after the clearing step. -/
def aCleared (i : grid0.Coords) (p : St F) : Vec F S1024x128 .f32 := if isFirst i then k0_pay2 (F := F) else p.2.2
/-- The running weight sums after the point. -/
def lNext (i : grid0.Coords) (x0 : Vec F S1x1024x128 .bf16) (x1 : Vec F S1x128x512 .bf16) (p : St F) : Vec F S1024x1 .f32 :=
  if isValid i then k0_pay7 (BitVec.ofNat 32 (i 1).val) (BitVec.ofNat 32 (i 2).val) x0 x1 (lCleared i p) else lCleared i p
/-- The running weighted values after the point. -/
def aNext (i : grid0.Coords) (x0 : Vec F S1x1024x128 .bf16) (x1 : Vec F S1x128x512 .bf16) (x2 : Vec F S1x512x128 .bf16) (p : St F) : Vec F S1024x128 .f32 :=
  if isValid i then
    k0_pay3 (k0_pay5 x2) (aCleared i p) (k0_pay8 (BitVec.ofNat 32 (i 1).val) (BitVec.ofNat 32 (i 2).val) x0 x1) (constant S1024x128 .f32 0x00000000#32)
  else aCleared i p
/-- The output block's buffer after the point: the quotient at the last key tile, untouched elsewhere. -/
def oNext (i : grid0.Coords) (x0 : Vec F S1x1024x128 .bf16) (x1 : Vec F S1x128x512 .bf16) (x2 : Vec F S1x512x128 .bf16) (p : St F) : Vec F S1x1024x128 .f32 :=
  if isLast i then k0_pay4 (aNext i x0 x1 x2 p) (lNext i x0 x1 p) else p.1

/-- One grid point: the state after it from the point's input blocks and the state before it. -/
def step (i : grid0.Coords) (x0 : Vec F S1x1024x128 .bf16) (x1 : Vec F S1x128x512 .bf16) (x2 : Vec F S1x512x128 .bf16) (p : St F) : St F :=
  (oNext i x0 x1 x2 p, lNext i x0 x1 p, aNext i x0 x1 x2 p)

/-- A state nothing reads: the first point clears the sums, and the output buffer is read only where it was just stored. -/
def junk : St F := (k0_pay4 (k0_pay2 (F := F)) (k0_pay1 (F := F)), k0_pay1 (F := F), k0_pay2 (F := F))

/-- The state after the point at position `n`, the points taken in the order they run. -/
def outsAt0 (c : Dev nD) : (n : ℕ) → n < cfg0.N → St F
  | 0, hn => step (grid0.coords ⟨0, hn⟩) (iblk m c 0 ⟨0, hn⟩) (iblk m c 1 ⟨0, hn⟩) (iblk m c 2 ⟨0, hn⟩) junk
  | n + 1, hn => step (grid0.coords ⟨n + 1, hn⟩) (iblk m c 0 ⟨n + 1, hn⟩) (iblk m c 1 ⟨n + 1, hn⟩) (iblk m c 2 ⟨n + 1, hn⟩)
      (outsAt0 c n (Nat.lt_of_succ_lt hn))

theorem outsAt0_zero (c : Dev nD) (hn : 0 < cfg0.N) :
    outsAt0 m c 0 hn = step (grid0.coords ⟨0, hn⟩) (iblk m c 0 ⟨0, hn⟩) (iblk m c 1 ⟨0, hn⟩) (iblk m c 2 ⟨0, hn⟩) junk := rfl

theorem outsAt0_succ (c : Dev nD) (n : ℕ) (hn : n + 1 < cfg0.N) :
    outsAt0 m c (n + 1) hn = step (grid0.coords ⟨n + 1, hn⟩) (iblk m c 0 ⟨n + 1, hn⟩) (iblk m c 1 ⟨n + 1, hn⟩) (iblk m c 2 ⟨n + 1, hn⟩)
      (outsAt0 m c n (Nat.lt_of_succ_lt hn)) := rfl

/-- At a point that is not the first: the transition from the state the point before left. -/
theorem outsAt0_pos (c : Dev nD) (t : Fin cfg0.N) (hz : t.val ≠ 0) :
    outsAt0 m c t.val t.isLt = step (grid0.coords t) (iblk m c 0 t) (iblk m c 1 t) (iblk m c 2 t)
      (outsAt0 m c (t.val - 1) (Nat.lt_of_le_of_lt (Nat.sub_le _ _) t.isLt)) := by
  obtain ⟨n, hn⟩ := t
  cases n with
  | zero => exact absurd rfl hz
  | succ n => rfl

/-! ## The scratch operands and the invariant -/

/-- The two scratch operands: whole scoped buffers of the kernel's own. -/
abbrev scM0_0 : Memref sig .tc .vmem S1024x1 .f32 := Memref.whole cc0_scratch0
abbrev scM0_1 : Memref sig .tc .vmem S1024x128 .f32 := Memref.whole cc0_scratch1

/-- The region invariant before position `n`: before the first point the class's (every scratch at anything);
    afterwards both scratch buffers at what the point before left in them, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1)
      ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1)
      ∗ owns (c : Thread nD τ) scM0_1 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1)
      ∗ owns (c : Thread nD τ) scM0_1 fullShare ((outsAt0 m c (n - 1) (by omega)).2.2)) ∗ (∃ r, prngReg c r)) := by
  cases n with
  | zero => exact absurd rfl hz
  | succ n => rfl

/-! ## The pipeline's proof data -/

/-- The proof data of the one pipeline on core `c`: the arrays as the region finds them; after the body at point
    `t` each input's buffer at its block and the output's at `outsAt0`'s first component; the invariant `PhiS`;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

end Cert.KernelIdeal.Hand

end
-- ==== Proof.RunsIdeal.lean ====
/-
  What the runs of the attention body share: its three branch conditions as the body computes them,
  decided over the grid against their arithmetic meaning; where the output window is idle; the staging
  and scratch memrefs a point is called with; and the class invariant with the two scratch buffers named.
-/
import proofs.«125762_j22883585753583_2_alg».proof.Proof.StepIdeal
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## The body's branch conditions -/

/-- The first `scf.if`: the key-tile coordinate compared with 0, as the body's scalar chain. -/
abbrev cond0_0 (i : grid0.Coords) : Prop :=
  (Scalar.cmpi .ne (Scalar.extui (Scalar.cmpi .eq (BitVec.ofNat 32 (i 2).val) 0#32)) 0#32) = 1#1
/-- The second: key-tile start (signed) below query-tile end, as the body's scalar chain. -/
abbrev cond0_1 (i : grid0.Coords) : Prop :=
  (Scalar.cmpi .ne (Scalar.extui (Scalar.cmpi .slt (Scalar.muli (BitVec.ofNat 32 (i 2).val) 512#32)
    (Scalar.muli (Scalar.addi (BitVec.ofNat 32 (i 1).val) 1#32) 1024#32))) 0#32) = 1#1
/-- The third: the key-tile coordinate compared with 3 (the printed condition function). -/
abbrev cond0_2 (i : grid0.Coords) : Prop := k0_cond3 i = 1#1

/-- Each chain decides what it means, at every point of the grid. -/
theorem hcond0_0 : ∀ t : Fin cfg0.N, cond0_0 (grid0.coords t) ↔ isFirst (grid0.coords t) :=
  (by decide +kernel : ∀ t : Fin grid0.N, cond0_0 (grid0.coords t) ↔ isFirst (grid0.coords t))
theorem hcond0_1 : ∀ t : Fin cfg0.N, cond0_1 (grid0.coords t) ↔ isValid (grid0.coords t) :=
  (by decide +kernel : ∀ t : Fin grid0.N, cond0_1 (grid0.coords t) ↔ isValid (grid0.coords t))
theorem hcond0_2 : ∀ t : Fin cfg0.N, cond0_2 (grid0.coords t) ↔ isLast (grid0.coords t) :=
  (by decide +kernel : ∀ t : Fin grid0.N, cond0_2 (grid0.coords t) ↔ isLast (grid0.coords t))

/-- The first key tile is always visited, and is never the last. -/
theorem first_valid : ∀ t : Fin cfg0.N, isFirst (grid0.coords t) → isValid (grid0.coords t) ∧ ¬isLast (grid0.coords t) :=
  (by decide +kernel : ∀ t : Fin grid0.N, isFirst (grid0.coords t) → isValid (grid0.coords t) ∧ ¬isLast (grid0.coords t))
/-- The first key tile is the key tile of the points ≡ 0 (mod 4); in particular of point 0, and a point that is
    not the first of its query tile is not point 0. -/
theorem first_iff : ∀ t : Fin cfg0.N, isFirst (grid0.coords t) ↔ t.val % 4 = 0 :=
  (by decide +kernel : ∀ t : Fin grid0.N, isFirst (grid0.coords t) ↔ t.val % 4 = 0)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where the last branch is not taken the output window is idle and is not written back. -/
theorem idleAt0_3 : ∀ t : Fin cfg0.N, ¬cond0_2 (grid0.coords t) → cfg0.idle 3 (grid0.coords t) = true := by decide +kernel
theorem noFlush0_3 : ∀ t : Fin cfg0.N, ¬cond0_2 (grid0.coords t) → (cfg0.win 3).flush t = false := by decide +kernel
/-- Where it is taken the window is live. -/
theorem liveAt0_3 : ∀ t : Fin cfg0.N, cond0_2 (grid0.coords t) → cfg0.idle 3 (grid0.coords t) = false := by decide +kernel

/-! ## The memrefs a point is called with -/

abbrev ms0_0 (t : Fin cfg0.N) : Memref sig .tc .vmem S1x1024x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x128 .f32 := win0_3.stage (cfg0.slots t 3)
abbrev hs0_3 (t : Fin cfg0.N) : (ms0_3 t).IsWhole := hstage0_3 ((cfg0.slots t 3).cast nbuf0_3)

/-- The class invariant with the two scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The offsets of a whole-buffer store or load are zero. -/
theorem off2_zero : (![0, 0] : Fin 2 → ℕ) = fun _ => 0 := by funext a; fin_cases a <;> rfl
theorem off3_zero : (![0, 0, 0] : Fin 3 → ℕ) = fun _ => 0 := by funext a; fin_cases a <;> rfl

end Cert.KernelIdeal.Hand

end
-- ==== Proof.LibWholeStore.lean ====
/-
  Reading back a buffer after a list of stores whose newest store covers the whole buffer: the newest store's value,
  whatever the buffer held before and whatever the earlier stores were. And a block loaded through a unit-stride
  rectangle of a named offset does not depend on how the offset is spelled.
-/
import Idealize.ShloMosaic.Lib.WritesUnit
import Idealize.ShloMosaic.Lib.Pipeline.Value

namespace Cert.LibWholeStore

open Idealize.ShloMosaic

variable {sig : RefSig} {κ : Kind} {sp : Space} {S : Shape} {e : EltTy} {Val : EltTy → Type}

/-- The newest piece covers the whole shape (offsets zero, the shape's own sizes): the buffer reads its payload. -/
theorem read_writes_cons_whole (v : View sig κ sp S e) (f : v.ty.Contents Val) {off : Fin S.rank → ℕ}
    (h : off = fun _ => 0) (inb : ∀ a, off a + S.size a ≤ S.size a)
    (w : (Rect.unit off S.size inb).shape.Idx → Val e) (L : List (View.Piece Val S e)) :
    v.read Val (v.writes Val f ((⟨Rect.unit off S.size inb, w⟩ : View.Piece Val S e) :: L)) = w := by
  funext y
  exact View.read_writes_cons_unit_of_mem v f inb w L y y h fun a => (Nat.zero_add _).symm

/-- A block loaded through a unit-stride rectangle, the offsets given up to an equation. -/
theorem ld_unit_congr {T : Shape} (X : T.Idx → Val e) {off off' : Fin T.rank → ℕ} {size : Fin T.rank → ℕ}
    (h : off = off') (inb : ∀ a, off a + size a ≤ T.size a) (inb' : ∀ a, off' a + size a ≤ T.size a) :
    View.ld X (Rect.unit off size inb) = View.ld X (Rect.unit off' size inb') := by
  subst h; rfl

end Cert.LibWholeStore
-- ==== Proof.LibReadCovWhole.lean ====
/-
  A load through the whole shape of a buffer after a list of stores whose NEWEST store covers the whole shape (offsets
  zero, the shape's own sizes) reads that store's value, whatever the earlier stores were: a scratch row rewritten
  whole at every step and read back whole.
-/
import Idealize.ShloMosaic.Lib.Pipeline.Value

namespace Cert.LibReadCovWhole

open Idealize.ShloMosaic

variable {S : Shape} {e : EltTy} {Val : EltTy → Type}

/-- The newest piece covers the whole shape: the covered load through the whole shape reads its payload. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl,
    View.ld_unit_zero rfl]

end Cert.LibReadCovWhole
-- ==== Proof.RunAIdeal.lean ====
import proofs.«125762_j22883585753583_2_alg».proof.Proof.RunsIdeal
import proofs.«125762_j22883585753583_2_alg».proof.Proof.LibWholeStore
import proofs.«125762_j22883585753583_2_alg».proof.Proof.LibReadCovWhole

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 2000000 in
/-- The body run on whole staging and scratch memrefs at given contents, at a point of the first key tile: both running sums are cleared, then this tile is added. -/
theorem runA (c : Dev nD) (i : grid0.Coords) (arg3 : Memref sig .tc .vmem S1x1024x128 .bf16) (harg3 : arg3.IsWhole) (arg4 : Memref sig .tc .vmem S1x128x512 .bf16) (harg4 : arg4.IsWhole) (arg5 : Memref sig .tc .vmem S1x512x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x128 .f32) (harg8 : arg8.IsWhole)
    (hc0 : cond0_0 i) (hc1 : cond0_1 i) (hc2 : ¬cond0_2 i)
    (x0 : Vec F S1x1024x128 .bf16) (x1 : Vec F S1x128x512 .bf16) (x2 : Vec F S1x512x128 .bf16)
    (xo : Vec F S1x1024x128 .f32) (xs0 : Vec F S1024x1 .f32) (xs1 : Vec F S1024x128 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xo ∗ owns (c : Thread nD τ) arg7 fullShare xs0 ∗ owns (c : Thread nD τ) arg8 fullShare xs1
        ∗ (iprop(owns (c : Thread nD τ) arg3 fullShare x0 ∗ owns (c : Thread nD τ) arg4 fullShare x1 ∗ owns (c : Thread nD τ) arg5 fullShare x2
            ∗ owns (c : Thread nD τ) arg6 fullShare (xo)
            ∗ owns (c : Thread nD τ) arg7 fullShare (k0_pay7 (BitVec.ofNat 32 (i 1).val) (BitVec.ofNat 32 (i 2).val) x0 x1 (k0_pay1 (F := F)))
            ∗ owns (c : Thread nD τ) arg8 fullShare (k0_pay3 (k0_pay5 x2) (k0_pay2 (F := F)) (k0_pay8 (BitVec.ofNat 32 (i 1).val) (BitVec.ofNat 32 (i 2).val) x0 x1) (constant S1024x128 .f32 0x00000000#32))) -∗ K ⟨⟩))
      ⊢ wp frame (wpE (defs₀ (F := F)) Variants.none c none) E (cc0__attn_kernel i arg3 harg3 arg4 harg4 arg5 harg5 arg6 harg6 arg7 harg7 arg8 harg8) K := by
  simp only [cc0__attn_kernel_eq_skeleton]; unfold cc0__attn_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg3.eq_unread hf0; obtain rfl := harg4.eq_unread hf1; obtain rfl := harg5.eq_unread hf2
  obtain rfl := harg6.eq_unread hf3; obtain rfl := harg7.eq_unread hfs0; obtain rfl := harg8.eq_unread hfs1
  sl_exec (disch := first | exact hc0 | exact hc1 | exact hc2)
  sl_step
  iapply Hk
  isplitl [H0]
  · iexists _; isplitr
    · ipureintro; exact harg3.read_unread _
    iexact H0
  isplitl [H1]
  · iexists _; isplitr
    · ipureintro; exact harg4.read_unread _
    iexact H1
  isplitl [H2]
  · iexists _; isplitr
    · ipureintro; exact harg5.read_unread _
    iexact H2
  isplitl [H3]
  · iexists _; isplitr
    · ipureintro; exact harg6.read_unread _
    iexact H3
  isplitl [HS0]
  · iexists _; isplitr
    swap; · iexact HS0
    ipureintro
    refine (Cert.LibWholeStore.read_writes_cons_whole _ _ off2_zero _ _ _).trans ?_
    sl_unfold_run_names
    simp only [Cert.LibReadCovWhole.readCov_cons_unit_zero arg7.view off2_zero, Cert.LibReadCovWhole.readCov_cons_unit_zero arg8.view off2_zero,
      View.readAt_eq_ld, harg3.read_unread, harg4.read_unread, harg5.read_unread, harg6.read_unread, harg7.read_unread, harg8.read_unread,
      View.ld_unit_zero (S := S1x1024x128) off3_zero, View.ld_unit_zero (S := S1x128x512) off3_zero, View.ld_unit_zero (S := S1x512x128) off3_zero,
      View.ld_unit_zero (S := S1024x1) off2_zero, View.ld_unit_zero (S := S1024x128) off2_zero]
  iexists _; isplitr
  swap; · iexact HS1
  ipureintro
  refine (Cert.LibWholeStore.read_writes_cons_whole _ _ off2_zero _ _ _).trans ?_
  sl_unfold_run_names
  simp only [Cert.LibReadCovWhole.readCov_cons_unit_zero arg7.view off2_zero, Cert.LibReadCovWhole.readCov_cons_unit_zero arg8.view off2_zero,
      View.readAt_eq_ld, harg3.read_unread, harg4.read_unread, harg5.read_unread, harg6.read_unread, harg7.read_unread, harg8.read_unread,
      View.ld_unit_zero (S := S1x1024x128) off3_zero, View.ld_unit_zero (S := S1x128x512) off3_zero, View.ld_unit_zero (S := S1x512x128) off3_zero,
      View.ld_unit_zero (S := S1024x1) off2_zero, View.ld_unit_zero (S := S1024x128) off2_zero]

end Cert.KernelIdeal.Hand

end
-- ==== Proof.RunBIdeal.lean ====
import proofs.«125762_j22883585753583_2_alg».proof.Proof.RunsIdeal
import proofs.«125762_j22883585753583_2_alg».proof.Proof.LibWholeStore
import proofs.«125762_j22883585753583_2_alg».proof.Proof.LibReadCovWhole

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 2000000 in
/-- The body run on whole staging and scratch memrefs at given contents, at a point of a middle key tile that is visited: this tile is added to both running sums. -/
theorem runB (c : Dev nD) (i : grid0.Coords) (arg3 : Memref sig .tc .vmem S1x1024x128 .bf16) (harg3 : arg3.IsWhole) (arg4 : Memref sig .tc .vmem S1x128x512 .bf16) (harg4 : arg4.IsWhole) (arg5 : Memref sig .tc .vmem S1x512x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x128 .f32) (harg8 : arg8.IsWhole)
    (hc0 : ¬cond0_0 i) (hc1 : cond0_1 i) (hc2 : ¬cond0_2 i)
    (x0 : Vec F S1x1024x128 .bf16) (x1 : Vec F S1x128x512 .bf16) (x2 : Vec F S1x512x128 .bf16)
    (xo : Vec F S1x1024x128 .f32) (xs0 : Vec F S1024x1 .f32) (xs1 : Vec F S1024x128 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xo ∗ owns (c : Thread nD τ) arg7 fullShare xs0 ∗ owns (c : Thread nD τ) arg8 fullShare xs1
        ∗ (iprop(owns (c : Thread nD τ) arg3 fullShare x0 ∗ owns (c : Thread nD τ) arg4 fullShare x1 ∗ owns (c : Thread nD τ) arg5 fullShare x2
            ∗ owns (c : Thread nD τ) arg6 fullShare (xo)
            ∗ owns (c : Thread nD τ) arg7 fullShare (k0_pay7 (BitVec.ofNat 32 (i 1).val) (BitVec.ofNat 32 (i 2).val) x0 x1 (xs0))
            ∗ owns (c : Thread nD τ) arg8 fullShare (k0_pay3 (k0_pay5 x2) (xs1) (k0_pay8 (BitVec.ofNat 32 (i 1).val) (BitVec.ofNat 32 (i 2).val) x0 x1) (constant S1024x128 .f32 0x00000000#32))) -∗ K ⟨⟩))
      ⊢ wp frame (wpE (defs₀ (F := F)) Variants.none c none) E (cc0__attn_kernel i arg3 harg3 arg4 harg4 arg5 harg5 arg6 harg6 arg7 harg7 arg8 harg8) K := by
  simp only [cc0__attn_kernel_eq_skeleton]; unfold cc0__attn_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg3.eq_unread hf0; obtain rfl := harg4.eq_unread hf1; obtain rfl := harg5.eq_unread hf2
  obtain rfl := harg6.eq_unread hf3; obtain rfl := harg7.eq_unread hfs0; obtain rfl := harg8.eq_unread hfs1
  sl_exec (disch := first | exact hc0 | exact hc1 | exact hc2)
  sl_step
  iapply Hk
  isplitl [H0]
  · iexists _; isplitr
    · ipureintro; exact harg3.read_unread _
    iexact H0
  isplitl [H1]
  · iexists _; isplitr
    · ipureintro; exact harg4.read_unread _
    iexact H1
  isplitl [H2]
  · iexists _; isplitr
    · ipureintro; exact harg5.read_unread _
    iexact H2
  isplitl [H3]
  · iexists _; isplitr
    · ipureintro; exact harg6.read_unread _
    iexact H3
  isplitl [HS0]
  · iexists _; isplitr
    swap; · iexact HS0
    ipureintro
    refine (Cert.LibWholeStore.read_writes_cons_whole _ _ off2_zero _ _ _).trans ?_
    sl_unfold_run_names
    simp only [View.readAt_eq_ld, harg3.read_unread, harg4.read_unread, harg5.read_unread, harg6.read_unread, harg7.read_unread, harg8.read_unread,
      View.ld_unit_zero (S := S1x1024x128) off3_zero, View.ld_unit_zero (S := S1x128x512) off3_zero, View.ld_unit_zero (S := S1x512x128) off3_zero,
      View.ld_unit_zero (S := S1024x1) off2_zero, View.ld_unit_zero (S := S1024x128) off2_zero]
  iexists _; isplitr
  swap; · iexact HS1
  ipureintro
  refine (Cert.LibWholeStore.read_writes_cons_whole _ _ off2_zero _ _ _).trans ?_
  sl_unfold_run_names
  simp only [View.readAt_eq_ld, harg3.read_unread, harg4.read_unread, harg5.read_unread, harg6.read_unread, harg7.read_unread, harg8.read_unread,
    View.ld_unit_zero (S := S1x1024x128) off3_zero, View.ld_unit_zero (S := S1x128x512) off3_zero, View.ld_unit_zero (S := S1x512x128) off3_zero,
    View.ld_unit_zero (S := S1024x1) off2_zero, View.ld_unit_zero (S := S1024x128) off2_zero]

end Cert.KernelIdeal.Hand

end
-- ==== Proof.RunCIdeal.lean ====
import proofs.«125762_j22883585753583_2_alg».proof.Proof.RunsIdeal
import proofs.«125762_j22883585753583_2_alg».proof.Proof.LibWholeStore
import proofs.«125762_j22883585753583_2_alg».proof.Proof.LibReadCovWhole

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 2000000 in
/-- The body run on whole staging and scratch memrefs at given contents, at a point of a middle key tile wholly above the diagonal: nothing is stored. -/
theorem runC (c : Dev nD) (i : grid0.Coords) (arg3 : Memref sig .tc .vmem S1x1024x128 .bf16) (harg3 : arg3.IsWhole) (arg4 : Memref sig .tc .vmem S1x128x512 .bf16) (harg4 : arg4.IsWhole) (arg5 : Memref sig .tc .vmem S1x512x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x128 .f32) (harg8 : arg8.IsWhole)
    (hc0 : ¬cond0_0 i) (hc1 : ¬cond0_1 i) (hc2 : ¬cond0_2 i)
    (x0 : Vec F S1x1024x128 .bf16) (x1 : Vec F S1x128x512 .bf16) (x2 : Vec F S1x512x128 .bf16)
    (xo : Vec F S1x1024x128 .f32) (xs0 : Vec F S1024x1 .f32) (xs1 : Vec F S1024x128 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xo ∗ owns (c : Thread nD τ) arg7 fullShare xs0 ∗ owns (c : Thread nD τ) arg8 fullShare xs1
        ∗ (iprop(owns (c : Thread nD τ) arg3 fullShare x0 ∗ owns (c : Thread nD τ) arg4 fullShare x1 ∗ owns (c : Thread nD τ) arg5 fullShare x2
            ∗ owns (c : Thread nD τ) arg6 fullShare (xo)
            ∗ owns (c : Thread nD τ) arg7 fullShare (xs0)
            ∗ owns (c : Thread nD τ) arg8 fullShare (xs1)) -∗ K ⟨⟩))
      ⊢ wp frame (wpE (defs₀ (F := F)) Variants.none c none) E (cc0__attn_kernel i arg3 harg3 arg4 harg4 arg5 harg5 arg6 harg6 arg7 harg7 arg8 harg8) K := by
  simp only [cc0__attn_kernel_eq_skeleton]; unfold cc0__attn_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg3.eq_unread hf0; obtain rfl := harg4.eq_unread hf1; obtain rfl := harg5.eq_unread hf2
  obtain rfl := harg6.eq_unread hf3; obtain rfl := harg7.eq_unread hfs0; obtain rfl := harg8.eq_unread hfs1
  sl_exec (disch := first | exact hc0 | exact hc1 | exact hc2)
  sl_step
  iapply Hk
  isplitl [H0]
  · iexists _; isplitr
    · ipureintro; exact harg3.read_unread _
    iexact H0
  isplitl [H1]
  · iexists _; isplitr
    · ipureintro; exact harg4.read_unread _
    iexact H1
  isplitl [H2]
  · iexists _; isplitr
    · ipureintro; exact harg5.read_unread _
    iexact H2
  isplitl [H3]
  · iexists _; isplitr
    · ipureintro; exact harg6.read_unread _
    iexact H3
  isplitl [HS0]
  · iexists _; isplitr
    · ipureintro; exact harg7.read_unread _
    iexact HS0
  iexists _; isplitr
  · ipureintro; exact harg8.read_unread _
  iexact HS1

end Cert.KernelIdeal.Hand

end
-- ==== Proof.RunDIdeal.lean ====
import proofs.«125762_j22883585753583_2_alg».proof.Proof.RunsIdeal
import proofs.«125762_j22883585753583_2_alg».proof.Proof.LibWholeStore
import proofs.«125762_j22883585753583_2_alg».proof.Proof.LibReadCovWhole

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 2000000 in
/-- The body run on whole staging and scratch memrefs at given contents, at a point of the last key tile, visited: this tile is added, then the quotient is stored into the output block. -/
theorem runD (c : Dev nD) (i : grid0.Coords) (arg3 : Memref sig .tc .vmem S1x1024x128 .bf16) (harg3 : arg3.IsWhole) (arg4 : Memref sig .tc .vmem S1x128x512 .bf16) (harg4 : arg4.IsWhole) (arg5 : Memref sig .tc .vmem S1x512x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x128 .f32) (harg8 : arg8.IsWhole)
    (hc0 : ¬cond0_0 i) (hc1 : cond0_1 i) (hc2 : cond0_2 i)
    (x0 : Vec F S1x1024x128 .bf16) (x1 : Vec F S1x128x512 .bf16) (x2 : Vec F S1x512x128 .bf16)
    (xo : Vec F S1x1024x128 .f32) (xs0 : Vec F S1024x1 .f32) (xs1 : Vec F S1024x128 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xo ∗ owns (c : Thread nD τ) arg7 fullShare xs0 ∗ owns (c : Thread nD τ) arg8 fullShare xs1
        ∗ (iprop(owns (c : Thread nD τ) arg3 fullShare x0 ∗ owns (c : Thread nD τ) arg4 fullShare x1 ∗ owns (c : Thread nD τ) arg5 fullShare x2
            ∗ owns (c : Thread nD τ) arg6 fullShare (k0_pay4 (k0_pay3 (k0_pay5 x2) (xs1) (k0_pay8 (BitVec.ofNat 32 (i 1).val) (BitVec.ofNat 32 (i 2).val) x0 x1) (constant S1024x128 .f32 0x00000000#32)) (k0_pay7 (BitVec.ofNat 32 (i 1).val) (BitVec.ofNat 32 (i 2).val) x0 x1 (xs0)))
            ∗ owns (c : Thread nD τ) arg7 fullShare (k0_pay7 (BitVec.ofNat 32 (i 1).val) (BitVec.ofNat 32 (i 2).val) x0 x1 (xs0))
            ∗ owns (c : Thread nD τ) arg8 fullShare (k0_pay3 (k0_pay5 x2) (xs1) (k0_pay8 (BitVec.ofNat 32 (i 1).val) (BitVec.ofNat 32 (i 2).val) x0 x1) (constant S1024x128 .f32 0x00000000#32))) -∗ K ⟨⟩))
      ⊢ wp frame (wpE (defs₀ (F := F)) Variants.none c none) E (cc0__attn_kernel i arg3 harg3 arg4 harg4 arg5 harg5 arg6 harg6 arg7 harg7 arg8 harg8) K := by
  simp only [cc0__attn_kernel_eq_skeleton]; unfold cc0__attn_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg3.eq_unread hf0; obtain rfl := harg4.eq_unread hf1; obtain rfl := harg5.eq_unread hf2
  obtain rfl := harg6.eq_unread hf3; obtain rfl := harg7.eq_unread hfs0; obtain rfl := harg8.eq_unread hfs1
  sl_exec (disch := first | exact hc0 | exact hc1 | exact hc2)
  sl_step
  iapply Hk
  isplitl [H0]
  · iexists _; isplitr
    · ipureintro; exact harg3.read_unread _
    iexact H0
  isplitl [H1]
  · iexists _; isplitr
    · ipureintro; exact harg4.read_unread _
    iexact H1
  isplitl [H2]
  · iexists _; isplitr
    · ipureintro; exact harg5.read_unread _
    iexact H2
  isplitl [H3]
  · iexists _; isplitr
    swap; · iexact H3
    ipureintro
    refine (Cert.LibWholeStore.read_writes_cons_whole _ _ off3_zero _ _ _).trans ?_
    sl_unfold_run_names
    simp only [Cert.LibReadCovWhole.readCov_cons_unit_zero arg7.view off2_zero, Cert.LibReadCovWhole.readCov_cons_unit_zero arg8.view off2_zero,
      View.readAt_eq_ld, harg3.read_unread, harg4.read_unread, harg5.read_unread, harg6.read_unread, harg7.read_unread, harg8.read_unread,
      View.ld_unit_zero (S := S1x1024x128) off3_zero, View.ld_unit_zero (S := S1x128x512) off3_zero, View.ld_unit_zero (S := S1x512x128) off3_zero,
      View.ld_unit_zero (S := S1024x1) off2_zero, View.ld_unit_zero (S := S1024x128) off2_zero]
  isplitl [HS0]
  · iexists _; isplitr
    swap; · iexact HS0
    ipureintro
    refine (Cert.LibWholeStore.read_writes_cons_whole _ _ off2_zero _ _ _).trans ?_
    sl_unfold_run_names
    simp only [Cert.LibReadCovWhole.readCov_cons_unit_zero arg7.view off2_zero, Cert.LibReadCovWhole.readCov_cons_unit_zero arg8.view off2_zero,
      View.readAt_eq_ld, harg3.read_unread, harg4.read_unread, harg5.read_unread, harg6.read_unread, harg7.read_unread, harg8.read_unread,
      View.ld_unit_zero (S := S1x1024x128) off3_zero, View.ld_unit_zero (S := S1x128x512) off3_zero, View.ld_unit_zero (S := S1x512x128) off3_zero,
      View.ld_unit_zero (S := S1024x1) off2_zero, View.ld_unit_zero (S := S1024x128) off2_zero]
  iexists _; isplitr
  swap; · iexact HS1
  ipureintro
  refine (Cert.LibWholeStore.read_writes_cons_whole _ _ off2_zero _ _ _).trans ?_
  sl_unfold_run_names
  simp only [Cert.LibReadCovWhole.readCov_cons_unit_zero arg7.view off2_zero, Cert.LibReadCovWhole.readCov_cons_unit_zero arg8.view off2_zero,
      View.readAt_eq_ld, harg3.read_unread, harg4.read_unread, harg5.read_unread, harg6.read_unread, harg7.read_unread, harg8.read_unread,
      View.ld_unit_zero (S := S1x1024x128) off3_zero, View.ld_unit_zero (S := S1x128x512) off3_zero, View.ld_unit_zero (S := S1x512x128) off3_zero,
      View.ld_unit_zero (S := S1024x1) off2_zero, View.ld_unit_zero (S := S1024x128) off2_zero]

end Cert.KernelIdeal.Hand

end
-- ==== Proof.RunEIdeal.lean ====
import proofs.«125762_j22883585753583_2_alg».proof.Proof.RunsIdeal
import proofs.«125762_j22883585753583_2_alg».proof.Proof.LibWholeStore
import proofs.«125762_j22883585753583_2_alg».proof.Proof.LibReadCovWhole

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 2000000 in
/-- The body run on whole staging and scratch memrefs at given contents, at a point of the last key tile, wholly above the diagonal: only the quotient is stored. -/
theorem runE (c : Dev nD) (i : grid0.Coords) (arg3 : Memref sig .tc .vmem S1x1024x128 .bf16) (harg3 : arg3.IsWhole) (arg4 : Memref sig .tc .vmem S1x128x512 .bf16) (harg4 : arg4.IsWhole) (arg5 : Memref sig .tc .vmem S1x512x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x128 .f32) (harg8 : arg8.IsWhole)
    (hc0 : ¬cond0_0 i) (hc1 : ¬cond0_1 i) (hc2 : cond0_2 i)
    (x0 : Vec F S1x1024x128 .bf16) (x1 : Vec F S1x128x512 .bf16) (x2 : Vec F S1x512x128 .bf16)
    (xo : Vec F S1x1024x128 .f32) (xs0 : Vec F S1024x1 .f32) (xs1 : Vec F S1024x128 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xo ∗ owns (c : Thread nD τ) arg7 fullShare xs0 ∗ owns (c : Thread nD τ) arg8 fullShare xs1
        ∗ (iprop(owns (c : Thread nD τ) arg3 fullShare x0 ∗ owns (c : Thread nD τ) arg4 fullShare x1 ∗ owns (c : Thread nD τ) arg5 fullShare x2
            ∗ owns (c : Thread nD τ) arg6 fullShare (k0_pay4 xs1 xs0)
            ∗ owns (c : Thread nD τ) arg7 fullShare (xs0)
            ∗ owns (c : Thread nD τ) arg8 fullShare (xs1)) -∗ K ⟨⟩))
      ⊢ wp frame (wpE (defs₀ (F := F)) Variants.none c none) E (cc0__attn_kernel i arg3 harg3 arg4 harg4 arg5 harg5 arg6 harg6 arg7 harg7 arg8 harg8) K := by
  simp only [cc0__attn_kernel_eq_skeleton]; unfold cc0__attn_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg3.eq_unread hf0; obtain rfl := harg4.eq_unread hf1; obtain rfl := harg5.eq_unread hf2
  obtain rfl := harg6.eq_unread hf3; obtain rfl := harg7.eq_unread hfs0; obtain rfl := harg8.eq_unread hfs1
  sl_exec (disch := first | exact hc0 | exact hc1 | exact hc2)
  sl_step
  iapply Hk
  isplitl [H0]
  · iexists _; isplitr
    · ipureintro; exact harg3.read_unread _
    iexact H0
  isplitl [H1]
  · iexists _; isplitr
    · ipureintro; exact harg4.read_unread _
    iexact H1
  isplitl [H2]
  · iexists _; isplitr
    · ipureintro; exact harg5.read_unread _
    iexact H2
  isplitl [H3]
  · iexists _; isplitr
    swap; · iexact H3
    ipureintro
    refine (Cert.LibWholeStore.read_writes_cons_whole _ _ off3_zero _ _ _).trans ?_
    sl_unfold_run_names
    simp only [View.readAt_eq_ld, harg3.read_unread, harg4.read_unread, harg5.read_unread, harg6.read_unread, harg7.read_unread, harg8.read_unread,
      View.ld_unit_zero (S := S1x1024x128) off3_zero, View.ld_unit_zero (S := S1x128x512) off3_zero, View.ld_unit_zero (S := S1x512x128) off3_zero,
      View.ld_unit_zero (S := S1024x1) off2_zero, View.ld_unit_zero (S := S1024x128) off2_zero]
  isplitl [HS0]
  · iexists _; isplitr
    · ipureintro; exact harg7.read_unread _
    iexact HS0
  iexists _; isplitr
  · ipureintro; exact harg8.read_unread _
  iexact HS1

end Cert.KernelIdeal.Hand

end
-- ==== Proof.FrameIdeal.lean ====
/-
  The frame of the attention kernel: every weakly fair execution of @main terminates without fault and
  leaves the argument arrays unchanged.

  The body is run at every grid point on the pipeline's staging buffers and the two scratch buffers.
  Which of its three branches a point takes is decided by its coordinates (first key tile, visited key
  tile, last key tile), five combinations occur, and for each the body's run hands every buffer back at
  a stated value.  Those values are the components of the transition `step` from the state the point
  before left, so the region invariant — both scratch buffers at the running sums after the previous
  point — is re-established at every point, and the output window holds the quotient exactly where the
  pipeline writes it back.
-/
import proofs.«125762_j22883585753583_2_alg».proof.Proof.RunAIdeal
import proofs.«125762_j22883585753583_2_alg».proof.Proof.RunBIdeal
import proofs.«125762_j22883585753583_2_alg».proof.Proof.RunCIdeal
import proofs.«125762_j22883585753583_2_alg».proof.Proof.RunDIdeal
import proofs.«125762_j22883585753583_2_alg».proof.Proof.RunEIdeal

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The inputs' staging buffers hold their blocks -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The state after the first point: the transition from a state nothing reads. -/
theorem outsAt0_at_zero (c : Dev nD) (t : Fin cfg0.N) (hz : t.val = 0) :
    outsAt0 m c t.val t.isLt = step (grid0.coords t) (iblk m c 0 t) (iblk m c 1 t) (iblk m c 2 t) junk := by
  obtain ⟨n, hn⟩ := t
  cases n with
  | zero => rfl
  | succ n => exact absurd hz (Nat.succ_ne_zero n)

/-! ## The body obligation, at a generic point -/

/-- What the body is called with at point `t`: the invariant, nothing owed, the four windows' current buffers. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point.  The inputs' buffers hold their blocks; the coordinates say which branches the
    point takes; the invariant hands the body both scratch buffers at what the point before left (at
    anything at the first point, where the body clears them); the matching run applies, and what it
    leaves in the scratch buffers and the output buffer are the components of `step`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  by_cases h0 : isFirst (grid0.coords t)
  · -- the first key tile: visited, and not the last; both sums are cleared, then this tile is added
    obtain ⟨h1, h2⟩ := first_valid t h0
    rw [Dat.leavesExact_idle (dats m 0 c) 3 t (idleAt0_3 t fun h => h2 ((hcond0_2 t).mp h)) (noFlush0_3 t fun h => h2 ((hcond0_2 t).mp h))]
    by_cases hz : t.val = 0
    · -- the grid's first point: the scratch buffers hold anything
      rw [PhiS_castSucc m c t, PhiS_zero m c _ _ hz, PhiA0_eq, outsAt0_at_zero m c t hz]
      simp only [step, lNext, aNext, oNext, lCleared, aCleared, if_pos h0, if_pos h1, if_neg h2]
      iintro ⟨⟨⟨⟨%xs0, HS0⟩, ⟨%xs1, HS1⟩⟩, Hg⟩, Ho, ⟨%d0, H0⟩, ⟨%d1, H1⟩, ⟨%d2, H2⟩, ⟨%d3, H3⟩⟩
      iapply (runA c (grid0.coords t) (ms0_0 t) (hs0_0 t) (ms0_1 t) (hs0_1 t) (ms0_2 t) (hs0_2 t) (ms0_3 t) (hs0_3 t)
        scM0_0 (Memref.isWhole_whole _) scM0_1 (Memref.isWhole_whole _)
        ((hcond0_0 t).mpr h0) ((hcond0_1 t).mpr h1) (fun h => h2 ((hcond0_2 t).mp h))
        (iblk m c 0 t) (iblk m c 1 t) (iblk m c 2 t) _ _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      iexists _; iexact H3
    · -- a later query tile's first point: the scratch buffers hold the previous query tile's sums, which are cleared
      rw [PhiS_castSucc m c t, PhiS_pos m c _ _ hz, outsAt0_pos m c t hz]
      simp only [step, lNext, aNext, oNext, lCleared, aCleared, if_pos h0, if_pos h1, if_neg h2]
      iintro ⟨⟨⟨HS0, HS1⟩, Hg⟩, Ho, ⟨%d0, H0⟩, ⟨%d1, H1⟩, ⟨%d2, H2⟩, ⟨%d3, H3⟩⟩
      iapply (runA c (grid0.coords t) (ms0_0 t) (hs0_0 t) (ms0_1 t) (hs0_1 t) (ms0_2 t) (hs0_2 t) (ms0_3 t) (hs0_3 t)
        scM0_0 (Memref.isWhole_whole _) scM0_1 (Memref.isWhole_whole _)
        ((hcond0_0 t).mpr h0) ((hcond0_1 t).mpr h1) (fun h => h2 ((hcond0_2 t).mp h))
        (iblk m c 0 t) (iblk m c 1 t) (iblk m c 2 t) _ _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      iexists _; iexact H3
  · have hz : t.val ≠ 0 := fun hz => h0 ((first_iff t).mpr (by rw [hz]))
    by_cases h1 : isValid (grid0.coords t)
    · by_cases h2 : isLast (grid0.coords t)
      · -- the last key tile, visited: this tile is added and the quotient is stored
        rw [show (dats m 0 c).leavesExact 3 t = owns (c : Thread nD τ) (ms0_3 t) fullShare ((dats m 0 c).after 3 t) from by
          unfold Dat.leavesExact; rw [liveAt0_3 t ((hcond0_2 t).mpr h2)], after0_3]
        rw [PhiS_castSucc m c t, PhiS_pos m c _ _ hz, outsAt0_pos m c t hz]
        simp only [step, lNext, aNext, oNext, lCleared, aCleared, if_neg h0, if_pos h1, if_pos h2]
        iintro ⟨⟨⟨HS0, HS1⟩, Hg⟩, Ho, ⟨%d0, H0⟩, ⟨%d1, H1⟩, ⟨%d2, H2⟩, ⟨%d3, H3⟩⟩
        iapply (runD c (grid0.coords t) (ms0_0 t) (hs0_0 t) (ms0_1 t) (hs0_1 t) (ms0_2 t) (hs0_2 t) (ms0_3 t) (hs0_3 t)
          scM0_0 (Memref.isWhole_whole _) scM0_1 (Memref.isWhole_whole _)
          (fun h => h0 ((hcond0_0 t).mp h)) ((hcond0_1 t).mpr h1) ((hcond0_2 t).mpr h2)
          (iblk m c 0 t) (iblk m c 1 t) (iblk m c 2 t) _ _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, HS0, HS1⟩
        isplitl [HS0 HS1 Hg]
        · isplitl [HS0 HS1]
          · isplitl [HS0]; · iexact HS0
            iexact HS1
          iexact Hg
        isplitl [Ho]; · iexact Ho
        isplitl [H0]; · iexact H0
        isplitl [H1]; · iexact H1
        isplitl [H2]; · iexact H2
        iexact H3
      · -- a middle key tile, visited: this tile is added
        rw [Dat.leavesExact_idle (dats m 0 c) 3 t (idleAt0_3 t fun h => h2 ((hcond0_2 t).mp h)) (noFlush0_3 t fun h => h2 ((hcond0_2 t).mp h))]
        rw [PhiS_castSucc m c t, PhiS_pos m c _ _ hz, outsAt0_pos m c t hz]
        simp only [step, lNext, aNext, oNext, lCleared, aCleared, if_neg h0, if_pos h1, if_neg h2]
        iintro ⟨⟨⟨HS0, HS1⟩, Hg⟩, Ho, ⟨%d0, H0⟩, ⟨%d1, H1⟩, ⟨%d2, H2⟩, ⟨%d3, H3⟩⟩
        iapply (runB c (grid0.coords t) (ms0_0 t) (hs0_0 t) (ms0_1 t) (hs0_1 t) (ms0_2 t) (hs0_2 t) (ms0_3 t) (hs0_3 t)
          scM0_0 (Memref.isWhole_whole _) scM0_1 (Memref.isWhole_whole _)
          (fun h => h0 ((hcond0_0 t).mp h)) ((hcond0_1 t).mpr h1) (fun h => h2 ((hcond0_2 t).mp h))
          (iblk m c 0 t) (iblk m c 1 t) (iblk m c 2 t) _ _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, HS0, HS1⟩
        isplitl [HS0 HS1 Hg]
        · isplitl [HS0 HS1]
          · isplitl [HS0]; · iexact HS0
            iexact HS1
          iexact Hg
        isplitl [Ho]; · iexact Ho
        isplitl [H0]; · iexact H0
        isplitl [H1]; · iexact H1
        isplitl [H2]; · iexact H2
        iexists _; iexact H3
    · by_cases h2 : isLast (grid0.coords t)
      · -- the last key tile, not visited: the quotient of the sums as they stand is stored
        rw [show (dats m 0 c).leavesExact 3 t = owns (c : Thread nD τ) (ms0_3 t) fullShare ((dats m 0 c).after 3 t) from by
          unfold Dat.leavesExact; rw [liveAt0_3 t ((hcond0_2 t).mpr h2)], after0_3]
        rw [PhiS_castSucc m c t, PhiS_pos m c _ _ hz, outsAt0_pos m c t hz]
        simp only [step, lNext, aNext, oNext, lCleared, aCleared, if_neg h0, if_neg h1, if_pos h2]
        iintro ⟨⟨⟨HS0, HS1⟩, Hg⟩, Ho, ⟨%d0, H0⟩, ⟨%d1, H1⟩, ⟨%d2, H2⟩, ⟨%d3, H3⟩⟩
        iapply (runE c (grid0.coords t) (ms0_0 t) (hs0_0 t) (ms0_1 t) (hs0_1 t) (ms0_2 t) (hs0_2 t) (ms0_3 t) (hs0_3 t)
          scM0_0 (Memref.isWhole_whole _) scM0_1 (Memref.isWhole_whole _)
          (fun h => h0 ((hcond0_0 t).mp h)) (fun h => h1 ((hcond0_1 t).mp h)) ((hcond0_2 t).mpr h2)
          (iblk m c 0 t) (iblk m c 1 t) (iblk m c 2 t) _ _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, HS0, HS1⟩
        isplitl [HS0 HS1 Hg]
        · isplitl [HS0 HS1]
          · isplitl [HS0]; · iexact HS0
            iexact HS1
          iexact Hg
        isplitl [Ho]; · iexact Ho
        isplitl [H0]; · iexact H0
        isplitl [H1]; · iexact H1
        isplitl [H2]; · iexact H2
        iexact H3
      · -- a middle key tile, not visited: nothing changes
        rw [Dat.leavesExact_idle (dats m 0 c) 3 t (idleAt0_3 t fun h => h2 ((hcond0_2 t).mp h)) (noFlush0_3 t fun h => h2 ((hcond0_2 t).mp h))]
        rw [PhiS_castSucc m c t, PhiS_pos m c _ _ hz, outsAt0_pos m c t hz]
        simp only [step, lNext, aNext, oNext, lCleared, aCleared, if_neg h0, if_neg h1, if_neg h2]
        iintro ⟨⟨⟨HS0, HS1⟩, Hg⟩, Ho, ⟨%d0, H0⟩, ⟨%d1, H1⟩, ⟨%d2, H2⟩, ⟨%d3, H3⟩⟩
        iapply (runC c (grid0.coords t) (ms0_0 t) (hs0_0 t) (ms0_1 t) (hs0_1 t) (ms0_2 t) (hs0_2 t) (ms0_3 t) (hs0_3 t)
          scM0_0 (Memref.isWhole_whole _) scM0_1 (Memref.isWhole_whole _)
          (fun h => h0 ((hcond0_0 t).mp h)) (fun h => h1 ((hcond0_1 t).mp h)) (fun h => h2 ((hcond0_2 t).mp h))
          (iblk m c 0 t) (iblk m c 1 t) (iblk m c 2 t) _ _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, HS0, HS1⟩
        isplitl [HS0 HS1 Hg]
        · isplitl [HS0 HS1]
          · isplitl [HS0]; · iexact HS0
            iexact HS1
          iexact Hg
        isplitl [Ho]; · iexact Ho
        isplitl [H0]; · iexact H0
        isplitl [H1]; · iexact H1
        isplitl [H2]; · iexact H2
        iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but none the invariant gives the class's back: what the scratch buffers hold is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 256 := N_0; omega)

/-! ## The run and the frame -/

set_option backward.isDefEq.respectTransparency.types false in
/-- From any memory with zero counters every weakly fair execution of @main on the TensorCores terminates, and
    every final state has every array of the pipeline at what the proof data gives and every other unscoped
    buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: @main runs, terminates without fault, and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Hand

end
-- ==== Proof.StepBits.lean ====
/-
  The attention body as a transition of the state it carries from one grid point to the next, and the
  pipeline's proof data built on it.

  A grid point is (batch·head, query tile, key tile).  Between the key tiles of one query tile the body
  keeps two buffers: the running sum of the softmax weights (one per query row) and the running weighted
  sum of the values (one row of 128 features per query row).  At a point it (1) clears both when the key
  tile is the first, (2) adds this tile's weights and weighted values when the tile can hold a key at or
  below the diagonal of the query tile (key tile start < query tile end), and (3) divides the second by
  the first into the output block when the key tile is the last.  `step` is that transition over the
  body's named payloads; `outsAt0` iterates it along the grid in the order the points run.
-/
import proofs.«125762_j22883585753583_2_alg».proof.Proof.Gen.Kernel.Skeleton
import proofs.«125762_j22883585753583_2_alg».proof.Proof.Gen.Kernel.Frame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The three conditions, on the grid coordinates -/

/-- The key tile is the first of its query tile. -/
abbrev isFirst (i : grid0.Coords) : Prop := (i 2).val = 0
/-- The key tile starts before the query tile ends: it can hold a key at or below the diagonal. -/
abbrev isValid (i : grid0.Coords) : Prop := 512 * (i 2).val < 1024 * ((i 1).val + 1)
/-- The key tile is the last of its query tile. -/
abbrev isLast (i : grid0.Coords) : Prop := (i 2).val = 3

/-! ## The transition -/

/-- What is carried: the output block's buffer, the running weight sums, the running weighted values. -/
abbrev St (F : FTy → Type) : Type := Vec F S1x1024x128 .f32 × Vec F S1024x1 .f32 × Vec F S1024x128 .f32

/-- The running weight sums after the clearing step. -/
def lCleared (i : grid0.Coords) (p : St F) : Vec F S1024x1 .f32 := if isFirst i then k0_pay1 (F := F) else p.2.1
/-- The running weighted values after the clearing step. -/
def aCleared (i : grid0.Coords) (p : St F) : Vec F S1024x128 .f32 := if isFirst i then k0_pay2 (F := F) else p.2.2
/-- The running weight sums after the point. -/
def lNext (i : grid0.Coords) (x0 : Vec F S1x1024x128 .bf16) (x1 : Vec F S1x128x512 .bf16) (p : St F) : Vec F S1024x1 .f32 :=
  if isValid i then k0_pay7 (BitVec.ofNat 32 (i 1).val) (BitVec.ofNat 32 (i 2).val) x0 x1 (lCleared i p) else lCleared i p
/-- The running weighted values after the point. -/
def aNext (i : grid0.Coords) (x0 : Vec F S1x1024x128 .bf16) (x1 : Vec F S1x128x512 .bf16) (x2 : Vec F S1x512x128 .bf16) (p : St F) : Vec F S1024x128 .f32 :=
  if isValid i then
    k0_pay3 (k0_pay5 x2) (aCleared i p) (k0_pay8 (BitVec.ofNat 32 (i 1).val) (BitVec.ofNat 32 (i 2).val) x0 x1) (constant S1024x128 .f32 0x00000000#32)
  else aCleared i p
/-- The output block's buffer after the point: the quotient at the last key tile, untouched elsewhere. -/
def oNext (i : grid0.Coords) (x0 : Vec F S1x1024x128 .bf16) (x1 : Vec F S1x128x512 .bf16) (x2 : Vec F S1x512x128 .bf16) (p : St F) : Vec F S1x1024x128 .f32 :=
  if isLast i then k0_pay4 (aNext i x0 x1 x2 p) (lNext i x0 x1 p) else p.1

/-- One grid point: the state after it from the point's input blocks and the state before it. -/
def step (i : grid0.Coords) (x0 : Vec F S1x1024x128 .bf16) (x1 : Vec F S1x128x512 .bf16) (x2 : Vec F S1x512x128 .bf16) (p : St F) : St F :=
  (oNext i x0 x1 x2 p, lNext i x0 x1 p, aNext i x0 x1 x2 p)

/-- A state nothing reads: the first point clears the sums, and the output buffer is read only where it was just stored. -/
def junk : St F := (k0_pay4 (k0_pay2 (F := F)) (k0_pay1 (F := F)), k0_pay1 (F := F), k0_pay2 (F := F))

/-- The state after the point at position `n`, the points taken in the order they run. -/
def outsAt0 (c : Dev nD) : (n : ℕ) → n < cfg0.N → St F
  | 0, hn => step (grid0.coords ⟨0, hn⟩) (iblk m c 0 ⟨0, hn⟩) (iblk m c 1 ⟨0, hn⟩) (iblk m c 2 ⟨0, hn⟩) junk
  | n + 1, hn => step (grid0.coords ⟨n + 1, hn⟩) (iblk m c 0 ⟨n + 1, hn⟩) (iblk m c 1 ⟨n + 1, hn⟩) (iblk m c 2 ⟨n + 1, hn⟩)
      (outsAt0 c n (Nat.lt_of_succ_lt hn))

theorem outsAt0_zero (c : Dev nD) (hn : 0 < cfg0.N) :
    outsAt0 m c 0 hn = step (grid0.coords ⟨0, hn⟩) (iblk m c 0 ⟨0, hn⟩) (iblk m c 1 ⟨0, hn⟩) (iblk m c 2 ⟨0, hn⟩) junk := rfl

theorem outsAt0_succ (c : Dev nD) (n : ℕ) (hn : n + 1 < cfg0.N) :
    outsAt0 m c (n + 1) hn = step (grid0.coords ⟨n + 1, hn⟩) (iblk m c 0 ⟨n + 1, hn⟩) (iblk m c 1 ⟨n + 1, hn⟩) (iblk m c 2 ⟨n + 1, hn⟩)
      (outsAt0 m c n (Nat.lt_of_succ_lt hn)) := rfl

/-- At a point that is not the first: the transition from the state the point before left. -/
theorem outsAt0_pos (c : Dev nD) (t : Fin cfg0.N) (hz : t.val ≠ 0) :
    outsAt0 m c t.val t.isLt = step (grid0.coords t) (iblk m c 0 t) (iblk m c 1 t) (iblk m c 2 t)
      (outsAt0 m c (t.val - 1) (Nat.lt_of_le_of_lt (Nat.sub_le _ _) t.isLt)) := by
  obtain ⟨n, hn⟩ := t
  cases n with
  | zero => exact absurd rfl hz
  | succ n => rfl

/-! ## The scratch operands and the invariant -/

/-- The two scratch operands: whole scoped buffers of the kernel's own. -/
abbrev scM0_0 : Memref sig .tc .vmem S1024x1 .f32 := Memref.whole cc0_scratch0
abbrev scM0_1 : Memref sig .tc .vmem S1024x128 .f32 := Memref.whole cc0_scratch1

/-- The region invariant before position `n`: before the first point the class's (every scratch at anything);
    afterwards both scratch buffers at what the point before left in them, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1)
      ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1)
      ∗ owns (c : Thread nD τ) scM0_1 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1)
      ∗ owns (c : Thread nD τ) scM0_1 fullShare ((outsAt0 m c (n - 1) (by omega)).2.2)) ∗ (∃ r, prngReg c r)) := by
  cases n with
  | zero => exact absurd rfl hz
  | succ n => rfl

/-! ## The pipeline's proof data -/

/-- The proof data of the one pipeline on core `c`: the arrays as the region finds them; after the body at point
    `t` each input's buffer at its block and the output's at `outsAt0`'s first component; the invariant `PhiS`;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

end Cert.Kernel.Hand

end
-- ==== Proof.RunsBits.lean ====
/-
  What the runs of the attention body share: its three branch conditions as the body computes them,
  decided over the grid against their arithmetic meaning; where the output window is idle; the staging
  and scratch memrefs a point is called with; and the class invariant with the two scratch buffers named.
-/
import proofs.«125762_j22883585753583_2_alg».proof.Proof.StepBits
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's branch conditions -/

/-- The first `scf.if`: the key-tile coordinate compared with 0, as the body's scalar chain. -/
abbrev cond0_0 (i : grid0.Coords) : Prop :=
  (Scalar.cmpi .ne (Scalar.extui (Scalar.cmpi .eq (BitVec.ofNat 32 (i 2).val) 0#32)) 0#32) = 1#1
/-- The second: key-tile start (signed) below query-tile end, as the body's scalar chain. -/
abbrev cond0_1 (i : grid0.Coords) : Prop :=
  (Scalar.cmpi .ne (Scalar.extui (Scalar.cmpi .slt (Scalar.muli (BitVec.ofNat 32 (i 2).val) 512#32)
    (Scalar.muli (Scalar.addi (BitVec.ofNat 32 (i 1).val) 1#32) 1024#32))) 0#32) = 1#1
/-- The third: the key-tile coordinate compared with 3 (the printed condition function). -/
abbrev cond0_2 (i : grid0.Coords) : Prop := k0_cond3 i = 1#1

/-- Each chain decides what it means, at every point of the grid. -/
theorem hcond0_0 : ∀ t : Fin cfg0.N, cond0_0 (grid0.coords t) ↔ isFirst (grid0.coords t) :=
  (by decide +kernel : ∀ t : Fin grid0.N, cond0_0 (grid0.coords t) ↔ isFirst (grid0.coords t))
theorem hcond0_1 : ∀ t : Fin cfg0.N, cond0_1 (grid0.coords t) ↔ isValid (grid0.coords t) :=
  (by decide +kernel : ∀ t : Fin grid0.N, cond0_1 (grid0.coords t) ↔ isValid (grid0.coords t))
theorem hcond0_2 : ∀ t : Fin cfg0.N, cond0_2 (grid0.coords t) ↔ isLast (grid0.coords t) :=
  (by decide +kernel : ∀ t : Fin grid0.N, cond0_2 (grid0.coords t) ↔ isLast (grid0.coords t))

/-- The first key tile is always visited, and is never the last. -/
theorem first_valid : ∀ t : Fin cfg0.N, isFirst (grid0.coords t) → isValid (grid0.coords t) ∧ ¬isLast (grid0.coords t) :=
  (by decide +kernel : ∀ t : Fin grid0.N, isFirst (grid0.coords t) → isValid (grid0.coords t) ∧ ¬isLast (grid0.coords t))
/-- The first key tile is the key tile of the points ≡ 0 (mod 4); in particular of point 0, and a point that is
    not the first of its query tile is not point 0. -/
theorem first_iff : ∀ t : Fin cfg0.N, isFirst (grid0.coords t) ↔ t.val % 4 = 0 :=
  (by decide +kernel : ∀ t : Fin grid0.N, isFirst (grid0.coords t) ↔ t.val % 4 = 0)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where the last branch is not taken the output window is idle and is not written back. -/
theorem idleAt0_3 : ∀ t : Fin cfg0.N, ¬cond0_2 (grid0.coords t) → cfg0.idle 3 (grid0.coords t) = true := by decide +kernel
theorem noFlush0_3 : ∀ t : Fin cfg0.N, ¬cond0_2 (grid0.coords t) → (cfg0.win 3).flush t = false := by decide +kernel
/-- Where it is taken the window is live. -/
theorem liveAt0_3 : ∀ t : Fin cfg0.N, cond0_2 (grid0.coords t) → cfg0.idle 3 (grid0.coords t) = false := by decide +kernel

/-! ## The memrefs a point is called with -/

abbrev ms0_0 (t : Fin cfg0.N) : Memref sig .tc .vmem S1x1024x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x128 .f32 := win0_3.stage (cfg0.slots t 3)
abbrev hs0_3 (t : Fin cfg0.N) : (ms0_3 t).IsWhole := hstage0_3 ((cfg0.slots t 3).cast nbuf0_3)

/-- The class invariant with the two scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The offsets of a whole-buffer store or load are zero. -/
theorem off2_zero : (![0, 0] : Fin 2 → ℕ) = fun _ => 0 := by funext a; fin_cases a <;> rfl
theorem off3_zero : (![0, 0, 0] : Fin 3 → ℕ) = fun _ => 0 := by funext a; fin_cases a <;> rfl

end Cert.Kernel.Hand

end
-- ==== Proof.RunABits.lean ====
import proofs.«125762_j22883585753583_2_alg».proof.Proof.RunsBits
import proofs.«125762_j22883585753583_2_alg».proof.Proof.LibWholeStore
import proofs.«125762_j22883585753583_2_alg».proof.Proof.LibReadCovWhole

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- The body run on whole staging and scratch memrefs at given contents, at a point of the first key tile: both running sums are cleared, then this tile is added. -/
theorem runA (c : Dev nD) (i : grid0.Coords) (arg3 : Memref sig .tc .vmem S1x1024x128 .bf16) (harg3 : arg3.IsWhole) (arg4 : Memref sig .tc .vmem S1x128x512 .bf16) (harg4 : arg4.IsWhole) (arg5 : Memref sig .tc .vmem S1x512x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x128 .f32) (harg8 : arg8.IsWhole)
    (hc0 : cond0_0 i) (hc1 : cond0_1 i) (hc2 : ¬cond0_2 i)
    (x0 : Vec F S1x1024x128 .bf16) (x1 : Vec F S1x128x512 .bf16) (x2 : Vec F S1x512x128 .bf16)
    (xo : Vec F S1x1024x128 .f32) (xs0 : Vec F S1024x1 .f32) (xs1 : Vec F S1024x128 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xo ∗ owns (c : Thread nD τ) arg7 fullShare xs0 ∗ owns (c : Thread nD τ) arg8 fullShare xs1
        ∗ (iprop(owns (c : Thread nD τ) arg3 fullShare x0 ∗ owns (c : Thread nD τ) arg4 fullShare x1 ∗ owns (c : Thread nD τ) arg5 fullShare x2
            ∗ owns (c : Thread nD τ) arg6 fullShare (xo)
            ∗ owns (c : Thread nD τ) arg7 fullShare (k0_pay7 (BitVec.ofNat 32 (i 1).val) (BitVec.ofNat 32 (i 2).val) x0 x1 (k0_pay1 (F := F)))
            ∗ owns (c : Thread nD τ) arg8 fullShare (k0_pay3 (k0_pay5 x2) (k0_pay2 (F := F)) (k0_pay8 (BitVec.ofNat 32 (i 1).val) (BitVec.ofNat 32 (i 2).val) x0 x1) (constant S1024x128 .f32 0x00000000#32))) -∗ K ⟨⟩))
      ⊢ wp frame (wpE (defs₀ (F := F)) Variants.none c none) E (cc0__attn_kernel i arg3 harg3 arg4 harg4 arg5 harg5 arg6 harg6 arg7 harg7 arg8 harg8) K := by
  simp only [cc0__attn_kernel_eq_skeleton]; unfold cc0__attn_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg3.eq_unread hf0; obtain rfl := harg4.eq_unread hf1; obtain rfl := harg5.eq_unread hf2
  obtain rfl := harg6.eq_unread hf3; obtain rfl := harg7.eq_unread hfs0; obtain rfl := harg8.eq_unread hfs1
  sl_exec (disch := first | exact hc0 | exact hc1 | exact hc2)
  sl_step
  iapply Hk
  isplitl [H0]
  · iexists _; isplitr
    · ipureintro; exact harg3.read_unread _
    iexact H0
  isplitl [H1]
  · iexists _; isplitr
    · ipureintro; exact harg4.read_unread _
    iexact H1
  isplitl [H2]
  · iexists _; isplitr
    · ipureintro; exact harg5.read_unread _
    iexact H2
  isplitl [H3]
  · iexists _; isplitr
    · ipureintro; exact harg6.read_unread _
    iexact H3
  isplitl [HS0]
  · iexists _; isplitr
    swap; · iexact HS0
    ipureintro
    refine (Cert.LibWholeStore.read_writes_cons_whole _ _ off2_zero _ _ _).trans ?_
    sl_unfold_run_names
    simp only [Cert.LibReadCovWhole.readCov_cons_unit_zero arg7.view off2_zero, Cert.LibReadCovWhole.readCov_cons_unit_zero arg8.view off2_zero,
      View.readAt_eq_ld, harg3.read_unread, harg4.read_unread, harg5.read_unread, harg6.read_unread, harg7.read_unread, harg8.read_unread,
      View.ld_unit_zero (S := S1x1024x128) off3_zero, View.ld_unit_zero (S := S1x128x512) off3_zero, View.ld_unit_zero (S := S1x512x128) off3_zero,
      View.ld_unit_zero (S := S1024x1) off2_zero, View.ld_unit_zero (S := S1024x128) off2_zero]
  iexists _; isplitr
  swap; · iexact HS1
  ipureintro
  refine (Cert.LibWholeStore.read_writes_cons_whole _ _ off2_zero _ _ _).trans ?_
  sl_unfold_run_names
  simp only [Cert.LibReadCovWhole.readCov_cons_unit_zero arg7.view off2_zero, Cert.LibReadCovWhole.readCov_cons_unit_zero arg8.view off2_zero,
      View.readAt_eq_ld, harg3.read_unread, harg4.read_unread, harg5.read_unread, harg6.read_unread, harg7.read_unread, harg8.read_unread,
      View.ld_unit_zero (S := S1x1024x128) off3_zero, View.ld_unit_zero (S := S1x128x512) off3_zero, View.ld_unit_zero (S := S1x512x128) off3_zero,
      View.ld_unit_zero (S := S1024x1) off2_zero, View.ld_unit_zero (S := S1024x128) off2_zero]

end Cert.Kernel.Hand

end
-- ==== Proof.RunBBits.lean ====
import proofs.«125762_j22883585753583_2_alg».proof.Proof.RunsBits
import proofs.«125762_j22883585753583_2_alg».proof.Proof.LibWholeStore
import proofs.«125762_j22883585753583_2_alg».proof.Proof.LibReadCovWhole

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- The body run on whole staging and scratch memrefs at given contents, at a point of a middle key tile that is visited: this tile is added to both running sums. -/
theorem runB (c : Dev nD) (i : grid0.Coords) (arg3 : Memref sig .tc .vmem S1x1024x128 .bf16) (harg3 : arg3.IsWhole) (arg4 : Memref sig .tc .vmem S1x128x512 .bf16) (harg4 : arg4.IsWhole) (arg5 : Memref sig .tc .vmem S1x512x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x128 .f32) (harg8 : arg8.IsWhole)
    (hc0 : ¬cond0_0 i) (hc1 : cond0_1 i) (hc2 : ¬cond0_2 i)
    (x0 : Vec F S1x1024x128 .bf16) (x1 : Vec F S1x128x512 .bf16) (x2 : Vec F S1x512x128 .bf16)
    (xo : Vec F S1x1024x128 .f32) (xs0 : Vec F S1024x1 .f32) (xs1 : Vec F S1024x128 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xo ∗ owns (c : Thread nD τ) arg7 fullShare xs0 ∗ owns (c : Thread nD τ) arg8 fullShare xs1
        ∗ (iprop(owns (c : Thread nD τ) arg3 fullShare x0 ∗ owns (c : Thread nD τ) arg4 fullShare x1 ∗ owns (c : Thread nD τ) arg5 fullShare x2
            ∗ owns (c : Thread nD τ) arg6 fullShare (xo)
            ∗ owns (c : Thread nD τ) arg7 fullShare (k0_pay7 (BitVec.ofNat 32 (i 1).val) (BitVec.ofNat 32 (i 2).val) x0 x1 (xs0))
            ∗ owns (c : Thread nD τ) arg8 fullShare (k0_pay3 (k0_pay5 x2) (xs1) (k0_pay8 (BitVec.ofNat 32 (i 1).val) (BitVec.ofNat 32 (i 2).val) x0 x1) (constant S1024x128 .f32 0x00000000#32))) -∗ K ⟨⟩))
      ⊢ wp frame (wpE (defs₀ (F := F)) Variants.none c none) E (cc0__attn_kernel i arg3 harg3 arg4 harg4 arg5 harg5 arg6 harg6 arg7 harg7 arg8 harg8) K := by
  simp only [cc0__attn_kernel_eq_skeleton]; unfold cc0__attn_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg3.eq_unread hf0; obtain rfl := harg4.eq_unread hf1; obtain rfl := harg5.eq_unread hf2
  obtain rfl := harg6.eq_unread hf3; obtain rfl := harg7.eq_unread hfs0; obtain rfl := harg8.eq_unread hfs1
  sl_exec (disch := first | exact hc0 | exact hc1 | exact hc2)
  sl_step
  iapply Hk
  isplitl [H0]
  · iexists _; isplitr
    · ipureintro; exact harg3.read_unread _
    iexact H0
  isplitl [H1]
  · iexists _; isplitr
    · ipureintro; exact harg4.read_unread _
    iexact H1
  isplitl [H2]
  · iexists _; isplitr
    · ipureintro; exact harg5.read_unread _
    iexact H2
  isplitl [H3]
  · iexists _; isplitr
    · ipureintro; exact harg6.read_unread _
    iexact H3
  isplitl [HS0]
  · iexists _; isplitr
    swap; · iexact HS0
    ipureintro
    refine (Cert.LibWholeStore.read_writes_cons_whole _ _ off2_zero _ _ _).trans ?_
    sl_unfold_run_names
    simp only [View.readAt_eq_ld, harg3.read_unread, harg4.read_unread, harg5.read_unread, harg6.read_unread, harg7.read_unread, harg8.read_unread,
      View.ld_unit_zero (S := S1x1024x128) off3_zero, View.ld_unit_zero (S := S1x128x512) off3_zero, View.ld_unit_zero (S := S1x512x128) off3_zero,
      View.ld_unit_zero (S := S1024x1) off2_zero, View.ld_unit_zero (S := S1024x128) off2_zero]
  iexists _; isplitr
  swap; · iexact HS1
  ipureintro
  refine (Cert.LibWholeStore.read_writes_cons_whole _ _ off2_zero _ _ _).trans ?_
  sl_unfold_run_names
  simp only [View.readAt_eq_ld, harg3.read_unread, harg4.read_unread, harg5.read_unread, harg6.read_unread, harg7.read_unread, harg8.read_unread,
    View.ld_unit_zero (S := S1x1024x128) off3_zero, View.ld_unit_zero (S := S1x128x512) off3_zero, View.ld_unit_zero (S := S1x512x128) off3_zero,
    View.ld_unit_zero (S := S1024x1) off2_zero, View.ld_unit_zero (S := S1024x128) off2_zero]

end Cert.Kernel.Hand

end
-- ==== Proof.RunCBits.lean ====
import proofs.«125762_j22883585753583_2_alg».proof.Proof.RunsBits
import proofs.«125762_j22883585753583_2_alg».proof.Proof.LibWholeStore
import proofs.«125762_j22883585753583_2_alg».proof.Proof.LibReadCovWhole

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- The body run on whole staging and scratch memrefs at given contents, at a point of a middle key tile wholly above the diagonal: nothing is stored. -/
theorem runC (c : Dev nD) (i : grid0.Coords) (arg3 : Memref sig .tc .vmem S1x1024x128 .bf16) (harg3 : arg3.IsWhole) (arg4 : Memref sig .tc .vmem S1x128x512 .bf16) (harg4 : arg4.IsWhole) (arg5 : Memref sig .tc .vmem S1x512x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x128 .f32) (harg8 : arg8.IsWhole)
    (hc0 : ¬cond0_0 i) (hc1 : ¬cond0_1 i) (hc2 : ¬cond0_2 i)
    (x0 : Vec F S1x1024x128 .bf16) (x1 : Vec F S1x128x512 .bf16) (x2 : Vec F S1x512x128 .bf16)
    (xo : Vec F S1x1024x128 .f32) (xs0 : Vec F S1024x1 .f32) (xs1 : Vec F S1024x128 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xo ∗ owns (c : Thread nD τ) arg7 fullShare xs0 ∗ owns (c : Thread nD τ) arg8 fullShare xs1
        ∗ (iprop(owns (c : Thread nD τ) arg3 fullShare x0 ∗ owns (c : Thread nD τ) arg4 fullShare x1 ∗ owns (c : Thread nD τ) arg5 fullShare x2
            ∗ owns (c : Thread nD τ) arg6 fullShare (xo)
            ∗ owns (c : Thread nD τ) arg7 fullShare (xs0)
            ∗ owns (c : Thread nD τ) arg8 fullShare (xs1)) -∗ K ⟨⟩))
      ⊢ wp frame (wpE (defs₀ (F := F)) Variants.none c none) E (cc0__attn_kernel i arg3 harg3 arg4 harg4 arg5 harg5 arg6 harg6 arg7 harg7 arg8 harg8) K := by
  simp only [cc0__attn_kernel_eq_skeleton]; unfold cc0__attn_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg3.eq_unread hf0; obtain rfl := harg4.eq_unread hf1; obtain rfl := harg5.eq_unread hf2
  obtain rfl := harg6.eq_unread hf3; obtain rfl := harg7.eq_unread hfs0; obtain rfl := harg8.eq_unread hfs1
  sl_exec (disch := first | exact hc0 | exact hc1 | exact hc2)
  sl_step
  iapply Hk
  isplitl [H0]
  · iexists _; isplitr
    · ipureintro; exact harg3.read_unread _
    iexact H0
  isplitl [H1]
  · iexists _; isplitr
    · ipureintro; exact harg4.read_unread _
    iexact H1
  isplitl [H2]
  · iexists _; isplitr
    · ipureintro; exact harg5.read_unread _
    iexact H2
  isplitl [H3]
  · iexists _; isplitr
    · ipureintro; exact harg6.read_unread _
    iexact H3
  isplitl [HS0]
  · iexists _; isplitr
    · ipureintro; exact harg7.read_unread _
    iexact HS0
  iexists _; isplitr
  · ipureintro; exact harg8.read_unread _
  iexact HS1

end Cert.Kernel.Hand

end
-- ==== Proof.RunDBits.lean ====
import proofs.«125762_j22883585753583_2_alg».proof.Proof.RunsBits
import proofs.«125762_j22883585753583_2_alg».proof.Proof.LibWholeStore
import proofs.«125762_j22883585753583_2_alg».proof.Proof.LibReadCovWhole

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- The body run on whole staging and scratch memrefs at given contents, at a point of the last key tile, visited: this tile is added, then the quotient is stored into the output block. -/
theorem runD (c : Dev nD) (i : grid0.Coords) (arg3 : Memref sig .tc .vmem S1x1024x128 .bf16) (harg3 : arg3.IsWhole) (arg4 : Memref sig .tc .vmem S1x128x512 .bf16) (harg4 : arg4.IsWhole) (arg5 : Memref sig .tc .vmem S1x512x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x128 .f32) (harg8 : arg8.IsWhole)
    (hc0 : ¬cond0_0 i) (hc1 : cond0_1 i) (hc2 : cond0_2 i)
    (x0 : Vec F S1x1024x128 .bf16) (x1 : Vec F S1x128x512 .bf16) (x2 : Vec F S1x512x128 .bf16)
    (xo : Vec F S1x1024x128 .f32) (xs0 : Vec F S1024x1 .f32) (xs1 : Vec F S1024x128 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xo ∗ owns (c : Thread nD τ) arg7 fullShare xs0 ∗ owns (c : Thread nD τ) arg8 fullShare xs1
        ∗ (iprop(owns (c : Thread nD τ) arg3 fullShare x0 ∗ owns (c : Thread nD τ) arg4 fullShare x1 ∗ owns (c : Thread nD τ) arg5 fullShare x2
            ∗ owns (c : Thread nD τ) arg6 fullShare (k0_pay4 (k0_pay3 (k0_pay5 x2) (xs1) (k0_pay8 (BitVec.ofNat 32 (i 1).val) (BitVec.ofNat 32 (i 2).val) x0 x1) (constant S1024x128 .f32 0x00000000#32)) (k0_pay7 (BitVec.ofNat 32 (i 1).val) (BitVec.ofNat 32 (i 2).val) x0 x1 (xs0)))
            ∗ owns (c : Thread nD τ) arg7 fullShare (k0_pay7 (BitVec.ofNat 32 (i 1).val) (BitVec.ofNat 32 (i 2).val) x0 x1 (xs0))
            ∗ owns (c : Thread nD τ) arg8 fullShare (k0_pay3 (k0_pay5 x2) (xs1) (k0_pay8 (BitVec.ofNat 32 (i 1).val) (BitVec.ofNat 32 (i 2).val) x0 x1) (constant S1024x128 .f32 0x00000000#32))) -∗ K ⟨⟩))
      ⊢ wp frame (wpE (defs₀ (F := F)) Variants.none c none) E (cc0__attn_kernel i arg3 harg3 arg4 harg4 arg5 harg5 arg6 harg6 arg7 harg7 arg8 harg8) K := by
  simp only [cc0__attn_kernel_eq_skeleton]; unfold cc0__attn_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg3.eq_unread hf0; obtain rfl := harg4.eq_unread hf1; obtain rfl := harg5.eq_unread hf2
  obtain rfl := harg6.eq_unread hf3; obtain rfl := harg7.eq_unread hfs0; obtain rfl := harg8.eq_unread hfs1
  sl_exec (disch := first | exact hc0 | exact hc1 | exact hc2)
  sl_step
  iapply Hk
  isplitl [H0]
  · iexists _; isplitr
    · ipureintro; exact harg3.read_unread _
    iexact H0
  isplitl [H1]
  · iexists _; isplitr
    · ipureintro; exact harg4.read_unread _
    iexact H1
  isplitl [H2]
  · iexists _; isplitr
    · ipureintro; exact harg5.read_unread _
    iexact H2
  isplitl [H3]
  · iexists _; isplitr
    swap; · iexact H3
    ipureintro
    refine (Cert.LibWholeStore.read_writes_cons_whole _ _ off3_zero _ _ _).trans ?_
    sl_unfold_run_names
    simp only [Cert.LibReadCovWhole.readCov_cons_unit_zero arg7.view off2_zero, Cert.LibReadCovWhole.readCov_cons_unit_zero arg8.view off2_zero,
      View.readAt_eq_ld, harg3.read_unread, harg4.read_unread, harg5.read_unread, harg6.read_unread, harg7.read_unread, harg8.read_unread,
      View.ld_unit_zero (S := S1x1024x128) off3_zero, View.ld_unit_zero (S := S1x128x512) off3_zero, View.ld_unit_zero (S := S1x512x128) off3_zero,
      View.ld_unit_zero (S := S1024x1) off2_zero, View.ld_unit_zero (S := S1024x128) off2_zero]
  isplitl [HS0]
  · iexists _; isplitr
    swap; · iexact HS0
    ipureintro
    refine (Cert.LibWholeStore.read_writes_cons_whole _ _ off2_zero _ _ _).trans ?_
    sl_unfold_run_names
    simp only [Cert.LibReadCovWhole.readCov_cons_unit_zero arg7.view off2_zero, Cert.LibReadCovWhole.readCov_cons_unit_zero arg8.view off2_zero,
      View.readAt_eq_ld, harg3.read_unread, harg4.read_unread, harg5.read_unread, harg6.read_unread, harg7.read_unread, harg8.read_unread,
      View.ld_unit_zero (S := S1x1024x128) off3_zero, View.ld_unit_zero (S := S1x128x512) off3_zero, View.ld_unit_zero (S := S1x512x128) off3_zero,
      View.ld_unit_zero (S := S1024x1) off2_zero, View.ld_unit_zero (S := S1024x128) off2_zero]
  iexists _; isplitr
  swap; · iexact HS1
  ipureintro
  refine (Cert.LibWholeStore.read_writes_cons_whole _ _ off2_zero _ _ _).trans ?_
  sl_unfold_run_names
  simp only [Cert.LibReadCovWhole.readCov_cons_unit_zero arg7.view off2_zero, Cert.LibReadCovWhole.readCov_cons_unit_zero arg8.view off2_zero,
      View.readAt_eq_ld, harg3.read_unread, harg4.read_unread, harg5.read_unread, harg6.read_unread, harg7.read_unread, harg8.read_unread,
      View.ld_unit_zero (S := S1x1024x128) off3_zero, View.ld_unit_zero (S := S1x128x512) off3_zero, View.ld_unit_zero (S := S1x512x128) off3_zero,
      View.ld_unit_zero (S := S1024x1) off2_zero, View.ld_unit_zero (S := S1024x128) off2_zero]

end Cert.Kernel.Hand

end
-- ==== Proof.RunEBits.lean ====
import proofs.«125762_j22883585753583_2_alg».proof.Proof.RunsBits
import proofs.«125762_j22883585753583_2_alg».proof.Proof.LibWholeStore
import proofs.«125762_j22883585753583_2_alg».proof.Proof.LibReadCovWhole

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- The body run on whole staging and scratch memrefs at given contents, at a point of the last key tile, wholly above the diagonal: only the quotient is stored. -/
theorem runE (c : Dev nD) (i : grid0.Coords) (arg3 : Memref sig .tc .vmem S1x1024x128 .bf16) (harg3 : arg3.IsWhole) (arg4 : Memref sig .tc .vmem S1x128x512 .bf16) (harg4 : arg4.IsWhole) (arg5 : Memref sig .tc .vmem S1x512x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x128 .f32) (harg8 : arg8.IsWhole)
    (hc0 : ¬cond0_0 i) (hc1 : ¬cond0_1 i) (hc2 : cond0_2 i)
    (x0 : Vec F S1x1024x128 .bf16) (x1 : Vec F S1x128x512 .bf16) (x2 : Vec F S1x512x128 .bf16)
    (xo : Vec F S1x1024x128 .f32) (xs0 : Vec F S1024x1 .f32) (xs1 : Vec F S1024x128 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xo ∗ owns (c : Thread nD τ) arg7 fullShare xs0 ∗ owns (c : Thread nD τ) arg8 fullShare xs1
        ∗ (iprop(owns (c : Thread nD τ) arg3 fullShare x0 ∗ owns (c : Thread nD τ) arg4 fullShare x1 ∗ owns (c : Thread nD τ) arg5 fullShare x2
            ∗ owns (c : Thread nD τ) arg6 fullShare (k0_pay4 xs1 xs0)
            ∗ owns (c : Thread nD τ) arg7 fullShare (xs0)
            ∗ owns (c : Thread nD τ) arg8 fullShare (xs1)) -∗ K ⟨⟩))
      ⊢ wp frame (wpE (defs₀ (F := F)) Variants.none c none) E (cc0__attn_kernel i arg3 harg3 arg4 harg4 arg5 harg5 arg6 harg6 arg7 harg7 arg8 harg8) K := by
  simp only [cc0__attn_kernel_eq_skeleton]; unfold cc0__attn_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg3.eq_unread hf0; obtain rfl := harg4.eq_unread hf1; obtain rfl := harg5.eq_unread hf2
  obtain rfl := harg6.eq_unread hf3; obtain rfl := harg7.eq_unread hfs0; obtain rfl := harg8.eq_unread hfs1
  sl_exec (disch := first | exact hc0 | exact hc1 | exact hc2)
  sl_step
  iapply Hk
  isplitl [H0]
  · iexists _; isplitr
    · ipureintro; exact harg3.read_unread _
    iexact H0
  isplitl [H1]
  · iexists _; isplitr
    · ipureintro; exact harg4.read_unread _
    iexact H1
  isplitl [H2]
  · iexists _; isplitr
    · ipureintro; exact harg5.read_unread _
    iexact H2
  isplitl [H3]
  · iexists _; isplitr
    swap; · iexact H3
    ipureintro
    refine (Cert.LibWholeStore.read_writes_cons_whole _ _ off3_zero _ _ _).trans ?_
    sl_unfold_run_names
    simp only [View.readAt_eq_ld, harg3.read_unread, harg4.read_unread, harg5.read_unread, harg6.read_unread, harg7.read_unread, harg8.read_unread,
      View.ld_unit_zero (S := S1x1024x128) off3_zero, View.ld_unit_zero (S := S1x128x512) off3_zero, View.ld_unit_zero (S := S1x512x128) off3_zero,
      View.ld_unit_zero (S := S1024x1) off2_zero, View.ld_unit_zero (S := S1024x128) off2_zero]
  isplitl [HS0]
  · iexists _; isplitr
    · ipureintro; exact harg7.read_unread _
    iexact HS0
  iexists _; isplitr
  · ipureintro; exact harg8.read_unread _
  iexact HS1

end Cert.Kernel.Hand

end
-- ==== Proof.FrameBits.lean ====
/-
  The frame of the attention kernel: every weakly fair execution of @main terminates without fault and
  leaves the argument arrays unchanged.

  The body is run at every grid point on the pipeline's staging buffers and the two scratch buffers.
  Which of its three branches a point takes is decided by its coordinates (first key tile, visited key
  tile, last key tile), five combinations occur, and for each the body's run hands every buffer back at
  a stated value.  Those values are the components of the transition `step` from the state the point
  before left, so the region invariant — both scratch buffers at the running sums after the previous
  point — is re-established at every point, and the output window holds the quotient exactly where the
  pipeline writes it back.
-/
import proofs.«125762_j22883585753583_2_alg».proof.Proof.RunABits
import proofs.«125762_j22883585753583_2_alg».proof.Proof.RunBBits
import proofs.«125762_j22883585753583_2_alg».proof.Proof.RunCBits
import proofs.«125762_j22883585753583_2_alg».proof.Proof.RunDBits
import proofs.«125762_j22883585753583_2_alg».proof.Proof.RunEBits

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The inputs' staging buffers hold their blocks -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The state after the first point: the transition from a state nothing reads. -/
theorem outsAt0_at_zero (c : Dev nD) (t : Fin cfg0.N) (hz : t.val = 0) :
    outsAt0 m c t.val t.isLt = step (grid0.coords t) (iblk m c 0 t) (iblk m c 1 t) (iblk m c 2 t) junk := by
  obtain ⟨n, hn⟩ := t
  cases n with
  | zero => rfl
  | succ n => exact absurd hz (Nat.succ_ne_zero n)

/-! ## The body obligation, at a generic point -/

/-- What the body is called with at point `t`: the invariant, nothing owed, the four windows' current buffers. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point.  The inputs' buffers hold their blocks; the coordinates say which branches the
    point takes; the invariant hands the body both scratch buffers at what the point before left (at
    anything at the first point, where the body clears them); the matching run applies, and what it
    leaves in the scratch buffers and the output buffer are the components of `step`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  by_cases h0 : isFirst (grid0.coords t)
  · -- the first key tile: visited, and not the last; both sums are cleared, then this tile is added
    obtain ⟨h1, h2⟩ := first_valid t h0
    rw [Dat.leavesExact_idle (dats m 0 c) 3 t (idleAt0_3 t fun h => h2 ((hcond0_2 t).mp h)) (noFlush0_3 t fun h => h2 ((hcond0_2 t).mp h))]
    by_cases hz : t.val = 0
    · -- the grid's first point: the scratch buffers hold anything
      rw [PhiS_castSucc m c t, PhiS_zero m c _ _ hz, PhiA0_eq, outsAt0_at_zero m c t hz]
      simp only [step, lNext, aNext, oNext, lCleared, aCleared, if_pos h0, if_pos h1, if_neg h2]
      iintro ⟨⟨⟨⟨%xs0, HS0⟩, ⟨%xs1, HS1⟩⟩, Hg⟩, Ho, ⟨%d0, H0⟩, ⟨%d1, H1⟩, ⟨%d2, H2⟩, ⟨%d3, H3⟩⟩
      iapply (runA c (grid0.coords t) (ms0_0 t) (hs0_0 t) (ms0_1 t) (hs0_1 t) (ms0_2 t) (hs0_2 t) (ms0_3 t) (hs0_3 t)
        scM0_0 (Memref.isWhole_whole _) scM0_1 (Memref.isWhole_whole _)
        ((hcond0_0 t).mpr h0) ((hcond0_1 t).mpr h1) (fun h => h2 ((hcond0_2 t).mp h))
        (iblk m c 0 t) (iblk m c 1 t) (iblk m c 2 t) _ _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      iexists _; iexact H3
    · -- a later query tile's first point: the scratch buffers hold the previous query tile's sums, which are cleared
      rw [PhiS_castSucc m c t, PhiS_pos m c _ _ hz, outsAt0_pos m c t hz]
      simp only [step, lNext, aNext, oNext, lCleared, aCleared, if_pos h0, if_pos h1, if_neg h2]
      iintro ⟨⟨⟨HS0, HS1⟩, Hg⟩, Ho, ⟨%d0, H0⟩, ⟨%d1, H1⟩, ⟨%d2, H2⟩, ⟨%d3, H3⟩⟩
      iapply (runA c (grid0.coords t) (ms0_0 t) (hs0_0 t) (ms0_1 t) (hs0_1 t) (ms0_2 t) (hs0_2 t) (ms0_3 t) (hs0_3 t)
        scM0_0 (Memref.isWhole_whole _) scM0_1 (Memref.isWhole_whole _)
        ((hcond0_0 t).mpr h0) ((hcond0_1 t).mpr h1) (fun h => h2 ((hcond0_2 t).mp h))
        (iblk m c 0 t) (iblk m c 1 t) (iblk m c 2 t) _ _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      iexists _; iexact H3
  · have hz : t.val ≠ 0 := fun hz => h0 ((first_iff t).mpr (by rw [hz]))
    by_cases h1 : isValid (grid0.coords t)
    · by_cases h2 : isLast (grid0.coords t)
      · -- the last key tile, visited: this tile is added and the quotient is stored
        rw [show (dats m 0 c).leavesExact 3 t = owns (c : Thread nD τ) (ms0_3 t) fullShare ((dats m 0 c).after 3 t) from by
          unfold Dat.leavesExact; rw [liveAt0_3 t ((hcond0_2 t).mpr h2)], after0_3]
        rw [PhiS_castSucc m c t, PhiS_pos m c _ _ hz, outsAt0_pos m c t hz]
        simp only [step, lNext, aNext, oNext, lCleared, aCleared, if_neg h0, if_pos h1, if_pos h2]
        iintro ⟨⟨⟨HS0, HS1⟩, Hg⟩, Ho, ⟨%d0, H0⟩, ⟨%d1, H1⟩, ⟨%d2, H2⟩, ⟨%d3, H3⟩⟩
        iapply (runD c (grid0.coords t) (ms0_0 t) (hs0_0 t) (ms0_1 t) (hs0_1 t) (ms0_2 t) (hs0_2 t) (ms0_3 t) (hs0_3 t)
          scM0_0 (Memref.isWhole_whole _) scM0_1 (Memref.isWhole_whole _)
          (fun h => h0 ((hcond0_0 t).mp h)) ((hcond0_1 t).mpr h1) ((hcond0_2 t).mpr h2)
          (iblk m c 0 t) (iblk m c 1 t) (iblk m c 2 t) _ _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, HS0, HS1⟩
        isplitl [HS0 HS1 Hg]
        · isplitl [HS0 HS1]
          · isplitl [HS0]; · iexact HS0
            iexact HS1
          iexact Hg
        isplitl [Ho]; · iexact Ho
        isplitl [H0]; · iexact H0
        isplitl [H1]; · iexact H1
        isplitl [H2]; · iexact H2
        iexact H3
      · -- a middle key tile, visited: this tile is added
        rw [Dat.leavesExact_idle (dats m 0 c) 3 t (idleAt0_3 t fun h => h2 ((hcond0_2 t).mp h)) (noFlush0_3 t fun h => h2 ((hcond0_2 t).mp h))]
        rw [PhiS_castSucc m c t, PhiS_pos m c _ _ hz, outsAt0_pos m c t hz]
        simp only [step, lNext, aNext, oNext, lCleared, aCleared, if_neg h0, if_pos h1, if_neg h2]
        iintro ⟨⟨⟨HS0, HS1⟩, Hg⟩, Ho, ⟨%d0, H0⟩, ⟨%d1, H1⟩, ⟨%d2, H2⟩, ⟨%d3, H3⟩⟩
        iapply (runB c (grid0.coords t) (ms0_0 t) (hs0_0 t) (ms0_1 t) (hs0_1 t) (ms0_2 t) (hs0_2 t) (ms0_3 t) (hs0_3 t)
          scM0_0 (Memref.isWhole_whole _) scM0_1 (Memref.isWhole_whole _)
          (fun h => h0 ((hcond0_0 t).mp h)) ((hcond0_1 t).mpr h1) (fun h => h2 ((hcond0_2 t).mp h))
          (iblk m c 0 t) (iblk m c 1 t) (iblk m c 2 t) _ _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, HS0, HS1⟩
        isplitl [HS0 HS1 Hg]
        · isplitl [HS0 HS1]
          · isplitl [HS0]; · iexact HS0
            iexact HS1
          iexact Hg
        isplitl [Ho]; · iexact Ho
        isplitl [H0]; · iexact H0
        isplitl [H1]; · iexact H1
        isplitl [H2]; · iexact H2
        iexists _; iexact H3
    · by_cases h2 : isLast (grid0.coords t)
      · -- the last key tile, not visited: the quotient of the sums as they stand is stored
        rw [show (dats m 0 c).leavesExact 3 t = owns (c : Thread nD τ) (ms0_3 t) fullShare ((dats m 0 c).after 3 t) from by
          unfold Dat.leavesExact; rw [liveAt0_3 t ((hcond0_2 t).mpr h2)], after0_3]
        rw [PhiS_castSucc m c t, PhiS_pos m c _ _ hz, outsAt0_pos m c t hz]
        simp only [step, lNext, aNext, oNext, lCleared, aCleared, if_neg h0, if_neg h1, if_pos h2]
        iintro ⟨⟨⟨HS0, HS1⟩, Hg⟩, Ho, ⟨%d0, H0⟩, ⟨%d1, H1⟩, ⟨%d2, H2⟩, ⟨%d3, H3⟩⟩
        iapply (runE c (grid0.coords t) (ms0_0 t) (hs0_0 t) (ms0_1 t) (hs0_1 t) (ms0_2 t) (hs0_2 t) (ms0_3 t) (hs0_3 t)
          scM0_0 (Memref.isWhole_whole _) scM0_1 (Memref.isWhole_whole _)
          (fun h => h0 ((hcond0_0 t).mp h)) (fun h => h1 ((hcond0_1 t).mp h)) ((hcond0_2 t).mpr h2)
          (iblk m c 0 t) (iblk m c 1 t) (iblk m c 2 t) _ _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, HS0, HS1⟩
        isplitl [HS0 HS1 Hg]
        · isplitl [HS0 HS1]
          · isplitl [HS0]; · iexact HS0
            iexact HS1
          iexact Hg
        isplitl [Ho]; · iexact Ho
        isplitl [H0]; · iexact H0
        isplitl [H1]; · iexact H1
        isplitl [H2]; · iexact H2
        iexact H3
      · -- a middle key tile, not visited: nothing changes
        rw [Dat.leavesExact_idle (dats m 0 c) 3 t (idleAt0_3 t fun h => h2 ((hcond0_2 t).mp h)) (noFlush0_3 t fun h => h2 ((hcond0_2 t).mp h))]
        rw [PhiS_castSucc m c t, PhiS_pos m c _ _ hz, outsAt0_pos m c t hz]
        simp only [step, lNext, aNext, oNext, lCleared, aCleared, if_neg h0, if_neg h1, if_neg h2]
        iintro ⟨⟨⟨HS0, HS1⟩, Hg⟩, Ho, ⟨%d0, H0⟩, ⟨%d1, H1⟩, ⟨%d2, H2⟩, ⟨%d3, H3⟩⟩
        iapply (runC c (grid0.coords t) (ms0_0 t) (hs0_0 t) (ms0_1 t) (hs0_1 t) (ms0_2 t) (hs0_2 t) (ms0_3 t) (hs0_3 t)
          scM0_0 (Memref.isWhole_whole _) scM0_1 (Memref.isWhole_whole _)
          (fun h => h0 ((hcond0_0 t).mp h)) (fun h => h1 ((hcond0_1 t).mp h)) (fun h => h2 ((hcond0_2 t).mp h))
          (iblk m c 0 t) (iblk m c 1 t) (iblk m c 2 t) _ _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, HS0, HS1⟩
        isplitl [HS0 HS1 Hg]
        · isplitl [HS0 HS1]
          · isplitl [HS0]; · iexact HS0
            iexact HS1
          iexact Hg
        isplitl [Ho]; · iexact Ho
        isplitl [H0]; · iexact H0
        isplitl [H1]; · iexact H1
        isplitl [H2]; · iexact H2
        iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but none the invariant gives the class's back: what the scratch buffers hold is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 256 := N_0; omega)

/-! ## The run and the frame -/

set_option backward.isDefEq.respectTransparency.types false in
/-- From any memory with zero counters every weakly fair execution of @main on the TensorCores terminates, and
    every final state has every array of the pipeline at what the proof data gives and every other unscoped
    buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: @main runs, terminates without fault, and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Hand

end
-- ==== Proof.AttnSpec.lean ====
/-
  Causal attention with tanh soft-capping, one query row at a time, in the two arrangements the
  certificate compares.

  For a query position `s` the capped logit of key `t` is `50 · tanh(score · c / 50)`; keys above the
  diagonal (`t > s`) are masked.  One arrangement exponentiates the masked logits with NO shift,
  sums the weights and the weighted values tile by tile (tiles of 512 keys, only the tiles that can
  hold an unmasked key: two for the first 1024 queries, four for the others), and divides once at the
  end.  The other adds `-∞` above the diagonal, subtracts the row maximum, exponentiates, normalizes
  each weight by the row sum, and then takes the weighted sum of the values.  Both are
  `Σ_{t ≤ s} exp(y t) v t / Σ_{t ≤ s} exp(y t)` when the logits and the values are real numbers.
-/
import Idealize.ShloMosaic.PureOps.Ideal
import Idealize.ShloMosaic.Lib.ValueIdx

noncomputable section

namespace Cert.Attn

open Idealize.ShloMosaic Idealize.ShloMosaic.ValueIdx

/-- Queries, values and the result: batch × head × position × feature. -/
abbrev SQ : Shape := ⟨4, ![2, 16, 2048, 128]⟩
/-- Keys, stored transposed: batch × head × feature × position. -/
abbrev SK : Shape := ⟨4, ![2, 16, 128, 2048]⟩

/-- A finite family read at a natural position, `0` outside its range. -/
def ext {n : ℕ} (f : Fin n → EReal) (t : ℕ) : EReal := if h : t < n then f ⟨t, h⟩ else 0

theorem ext_of_lt {n : ℕ} (f : Fin n → EReal) {t : ℕ} (h : t < n) : ext f t = f ⟨t, h⟩ := dif_pos h
theorem ext_val {n : ℕ} (f : Fin n → EReal) (t : Fin n) : ext f t.val = f t := dif_pos t.isLt

/-- The soft-capped logit where the scaled score is MULTIPLIED by the exact `1/50`. -/
def capK (x : EReal) : EReal :=
  Ideal.tanh ((x * Ideal.ofBits .f32 0x3DB504F3#32) * ((1 / 50 : ℝ) : EReal)) * Ideal.ofBits .f32 0x42480000#32
/-- The soft-capped logit where the scaled score is DIVIDED by the word for `50`. -/
def capR (x : EReal) : EReal :=
  Ideal.tanh (Ideal.div (x * Ideal.ofBits .f32 0x3DB504F3#32) (Ideal.ofBits .f32 0x42480000#32)) * Ideal.ofBits .f32 0x42480000#32

/-- The score of query `(b, h, s)` against key `t`: the inner product over the 128 features. -/
def score (Q : SQ.Idx → EReal) (K : SK.Idx → EReal) (b : Fin 2) (h : Fin 16) (s t : Fin 2048) : EReal :=
  ∑ d : Fin 128, Q (ix4 b h s d) * K (ix4 b h d t)

/-! ## The unshifted, tiled arrangement -/

/-- The weight of key `t` for query `s`: the exponential of its logit, of `-∞` above the diagonal. -/
def wK (s : ℕ) (y : ℕ → EReal) (t : ℕ) : EReal := Ideal.exp (if t ≤ s then y t else ⊥)
/-- The weights of key tile `ki` (keys `512·ki … 512·ki + 511`) summed. -/
def tileL (s : ℕ) (y : ℕ → EReal) (ki : ℕ) : EReal := ∑ j : Fin 512, wK s y (512 * ki + j.val)
/-- The values of key tile `ki` weighted and summed. -/
def tileA (s : ℕ) (y v : ℕ → EReal) (ki : ℕ) : EReal := ∑ j : Fin 512, wK s y (512 * ki + j.val) * v (512 * ki + j.val)
/-- A running sum from `0`: the first `n` terms added one at a time, newest last. -/
def accum (f : ℕ → EReal) : ℕ → EReal
  | 0 => 0
  | n + 1 => accum f n + f n
/-- How many key tiles a query position visits. -/
def ntiles (s : ℕ) : ℕ := if s < 1024 then 2 else 4
/-- One entry of the result: the accumulated weighted values over the accumulated weights. -/
def kerRow (s : ℕ) (y v : ℕ → EReal) : EReal :=
  Ideal.div (accum (tileA s y v) (ntiles s)) (accum (tileL s y) (ntiles s))

/-! ## The max-shifted, normalized arrangement -/

/-- The masked logit: `-∞` added above the diagonal, `0` elsewhere. -/
def wR (s : ℕ) (y : ℕ → EReal) (t : ℕ) : EReal := y t + (if s < t then ⊥ else 0)
/-- The row maximum, folded from `-∞` and once more joined with `-∞`. -/
def rowMax (s : ℕ) (y : ℕ → EReal) : EReal :=
  max ⊥ (Finset.univ.fold max ⊥ fun t : Fin 2048 => wR s y t.val)
/-- The shifted weight. -/
def uR (s : ℕ) (y : ℕ → EReal) (t : ℕ) : EReal := Ideal.exp (wR s y t - rowMax s y)
/-- One entry of the result: each shifted weight over the row sum (from `0`), times the value, summed. -/
def refRow (s : ℕ) (y v : ℕ → EReal) : EReal :=
  ∑ t : Fin 2048, Ideal.div (uR s y t.val) (0 + ∑ t' : Fin 2048, uR s y t'.val) * v t.val

/-! ## Whole arrays -/

def kerOut (Q : SQ.Idx → EReal) (K : SK.Idx → EReal) (V : SQ.Idx → EReal) (b : Fin 2) (h : Fin 16) (s : Fin 2048) (d : Fin 128) : EReal :=
  kerRow s.val (ext fun t : Fin 2048 => capK (score Q K b h s t)) (ext fun t : Fin 2048 => V (ix4 b h t d))

def refOut (Q : SQ.Idx → EReal) (K : SK.Idx → EReal) (V : SQ.Idx → EReal) (b : Fin 2) (h : Fin 16) (s : Fin 2048) (d : Fin 128) : EReal :=
  refRow s.val (ext fun t : Fin 2048 => capR (score Q K b h s t)) (ext fun t : Fin 2048 => V (ix4 b h t d))

end Cert.Attn

end
-- ==== Proof.LibPlainMatmul.lean ====
/-
  A matrix product read at an index given by coordinates, at the ideal values, for any extents and element formats:
  for the plain dimension numbers — an `M × K` left operand and a `K × N` right operand contracted over the left's
  columns and the right's rows, no batch axis — the product accumulated into zero is, at `(i, j)`,
  the sum over `k` of `l (i, k) · r (k, j)`. The sum over the contraction shape's one-coordinate indices is
  re-indexed over `Fin K`.
-/
import Idealize.ShloMosaic.Lib.ValueIdx
import Idealize.ShloMosaic.PureOps.Ideal.Laws

namespace Cert.LibPlainMatmul

open Idealize.ShloMosaic Idealize.ShloMosaic.ValueIdx

/-- The product of an `M × K` and a `K × N` matrix into a zero accumulator, read at `(i, j)`. -/
theorem matmul_zero_apply {M K N : ℕ} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (i : Fin M) (j : Fin N) :
    FloatOps.matmul D prec l r (constant ⟨2, ![M, N]⟩ .f32 0x00000000#32) (ix2 i j)
      = ∑ k : Fin K, l (ix2 i k) * r (ix2 k j) := by
  obtain ⟨lc, rc, ln, rn, lb, rb, wf⟩ := D
  dsimp only at hlc hrc hln hrn hlb hrb
  subst hlc hrc hln hrn hlb hrb
  rw [Ideal.matmul_constant_zero_apply]
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 i j)
      ((contrEquiv1 (⟨[1], [0], [0], [1], [], [], wf⟩ : DotDims ⟨2, ![M, K]⟩ ⟨2, ![K, N]⟩ ⟨2, ![M, N]⟩) K rfl rfl).symm k) = ix2 i k :=
    funext fun a => Fin.ext (by
      match a with
      | ⟨0, _⟩ =>
        unfold DotDims.lhsIdx
        split
        · exact absurd ‹_› List.not_mem_nil
        · split
          · rfl
          · exact absurd (List.mem_singleton.mpr rfl) ‹_›
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 i j)
      ((contrEquiv1 (⟨[1], [0], [0], [1], [], [], wf⟩ : DotDims ⟨2, ![M, K]⟩ ⟨2, ![K, N]⟩ ⟨2, ![M, N]⟩) K rfl rfl).symm k) = ix2 k j :=
    funext fun a => Fin.ext (by
      match a with
      | ⟨0, _⟩ => exact (DotDims.rhsIdx_val_of_single _ rfl _ _).trans hk
      | ⟨1, _⟩ =>
        unfold DotDims.rhsIdx
        split
        · exact absurd ‹_› List.not_mem_nil
        · split
          · rfl
          · exact absurd (List.mem_singleton.mpr rfl) ‹_›)
  rw [el, er]

end Cert.LibPlainMatmul
-- ==== Proof.LibRowStats.lean ====
/-
  General reading lemmas for a row statistic of a rank-2 array at the ideal values: the sum and the maximum of an
  f32 array [a, b] over its LAST axis, read at a row, for any extents; and the 32-bit test "row offset + row = column"
  as an equation between natural numbers when nothing overflows.
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.LibRowStats

/-- The reduced index (p) of a rank-2 shape [a, b] reduced over its last axis, with the coordinate `k` put back on that
    axis, is (p, k). -/
theorem lift_last {a b : ℕ} (h : Shape.Reduces ⟨2, ![a, b]⟩ [1] ⟨1, ![a]⟩) (p : Fin a) (k : Fin b) :
    h.lift (ix1 p) k = ix2 p k :=
  funext fun ax => Fin.ext (by match ax with | ⟨0, _⟩ => rfl | ⟨1, _⟩ => rfl)

/-- A `vector.multi_reduction <add>` of an f32 array [a, b] over its last axis with accumulator 0, read at row `p` at the
    ideal values, is the sum over `k : Fin b` of the array at (p, k) — for any extents. -/
theorem add_last_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src _ h hφ hacc (ix1 p)).trans ?_
  show ∑ k : Fin b, src (h.lift (ix1 p) k) = _
  exact Finset.sum_congr rfl fun k _ => congrArg src (lift_last h p k)

/-- A `vector.multi_reduction <maximumf>` of an f32 array [a, b] over its last axis with the accumulator word of −∞, read
    at row `p` at the ideal values, is the running maximum from that word's value over `k : Fin b` of the array at (p, k)
    — for any extents. The word is left as it is printed. -/
theorem max_last_apply {a b : ℕ} (src : FVec Ideal ⟨2, ![a, b]⟩ .f32)
    (h : Shape.Reduces ⟨2, ![a, b]⟩ [1] ⟨1, ![a]⟩) (hφ : FKind.Formats .f32)
    (hacc : (0xFF800000#32 : BitVec 32) = FKind.maximumf.neutral .f32 hφ) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) := by
  refine (Ideal.multiReduction_maximumf_single src _ h hφ hacc (ix1 p)).trans ?_
  show (Finset.univ : Finset (Fin b)).fold max (Ideal.ofBits .f32 0xFF800000#32) (fun k => src (h.lift (ix1 p) k)) = _
  exact Finset.fold_congr fun k _ => congrArg src (lift_last h p k)

/-- The 32-bit words of `t · 128 + p` and of `j` are equal exactly when the numbers are, for a block number below 64, a
    row below 128 and a column below 8192: nothing wraps. -/
theorem diag_word (t p j : ℕ) (ht : t < 64) (hp : p < 128) (hj : j < 8192) :
    IntOp.cmpi .eq (IntOp.addi (Scalar.muli (BitVec.ofNat 32 t) 128#32) (BitVec.ofNat 32 p)) (BitVec.ofNat 32 j)
      = if t * 128 + p = j then 1#1 else 0#1 := by
  have e : IntOp.addi (Scalar.muli (BitVec.ofNat 32 t) 128#32) (BitVec.ofNat 32 p) = BitVec.ofNat 32 (t * 128 + p) := by
    apply BitVec.eq_of_toNat_eq
    simp only [IntOp.addi, Scalar.muli, IntOp.muli, BitVec.toNat_add, BitVec.toNat_mul, BitVec.toNat_ofNat]
    omega
  rw [e]
  by_cases hd : t * 128 + p = j
  · rw [if_pos hd, hd]; simp [IntOp.cmpi]
  · rw [if_neg hd]
    have hne : BitVec.ofNat 32 (t * 128 + p) ≠ BitVec.ofNat 32 j := by
      intro hh
      have := congrArg BitVec.toNat hh
      simp only [BitVec.toNat_ofNat] at this
      omega
    have hb : (BitVec.ofNat 32 (t * 128 + p) == BitVec.ofNat 32 j) = false := beq_eq_false_iff_ne.mpr hne
    show BitVec.ofBool (BitVec.ofNat 32 (t * 128 + p) == BitVec.ofNat 32 j) = 0#1
    rw [hb]; rfl

end Cert.LibRowStats

end
-- ==== Proof.LibKeepdimsCol.lean ====
/-
  Two layout operations read at an index given by coordinates, for any element type and any extents:
  the shape cast that appends a unit axis to a vector, and the broadcast of a one-column matrix along its rows.
  Together they are what a row statistic kept as a column (a sum over the last axis with the axis kept)
  looks like when it is spread back over a matrix.
-/
import Idealize.ShloMosaic.Lib.ValueLayout

namespace Cert.LibKeepdimsCol

open Idealize.ShloMosaic Idealize.ShloMosaic.ValueIdx

variable {α : Type}

/-- A vector of length `a` cast to an `a × 1` column reads, at `(i, u)`, the vector at `i`: both sit at
    row-major position `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdimsCol
-- ==== Proof.PayIdeal.lean ====
/-
  The body's payloads read at an index, at the ideal instance: the tile's softmax weights, the two
  running sums after a tile, and the final quotient.
-/
import proofs.«125762_j22883585753583_2_alg».proof.Proof.Gen.KernelIdeal.Skeleton
import proofs.«125762_j22883585753583_2_alg».proof.Proof.AttnSpec
import proofs.«125762_j22883585753583_2_alg».proof.Proof.LibPlainMatmul
import proofs.«125762_j22883585753583_2_alg».proof.Proof.LibRowStats
import proofs.«125762_j22883585753583_2_alg».proof.Proof.LibKeepdimsCol
import Idealize.ShloMosaic.PureOps.Ideal.Laws
import Idealize.ShloMosaic.PureOps.IdealRules
import Idealize.ShloMosaic.Lib.ValueIdx
import Idealize.ShloMosaic.Lib.ValueLayout
import Idealize.ShloMosaic.Lib.Pipeline.Value

noncomputable section

namespace Cert.KernelIdeal.Pay

open Idealize.ShloMosaic Idealize.ShloMosaic.ValueIdx Cert.KernelIdeal Cert.KernelIdeal.Gen

/-- The two 32-bit positions `qi · 1024 + r` and `ki · 512 + j` (tile numbers below 2 and 4, offsets below the tile
    sizes) do not wrap and are below `2^31`, so the signed test "row ≥ column" is the test on the natural numbers. -/
theorem sge_iff (qi ki r j : ℕ) (hqi : qi < 2) (hki : ki < 4) (hr : r < 1024) (hj : j < 512) :
    IntOp.cmpi .sge (IntOp.addi (Scalar.muli (BitVec.ofNat 32 qi) 1024#32) (BitVec.ofNat 32 r))
        (IntOp.addi (Scalar.muli (BitVec.ofNat 32 ki) 512#32) (BitVec.ofNat 32 j))
      = if 512 * ki + j ≤ 1024 * qi + r then 1#1 else 0#1 := by
  have ex : IntOp.addi (Scalar.muli (BitVec.ofNat 32 qi) 1024#32) (BitVec.ofNat 32 r) = BitVec.ofNat 32 (1024 * qi + r) := by
    apply BitVec.eq_of_toNat_eq
    simp only [IntOp.addi, Scalar.muli, IntOp.muli, BitVec.toNat_add, BitVec.toNat_mul, BitVec.toNat_ofNat]
    omega
  have ey : IntOp.addi (Scalar.muli (BitVec.ofNat 32 ki) 512#32) (BitVec.ofNat 32 j) = BitVec.ofNat 32 (512 * ki + j) := by
    apply BitVec.eq_of_toNat_eq
    simp only [IntOp.addi, Scalar.muli, IntOp.muli, BitVec.toNat_add, BitVec.toNat_mul, BitVec.toNat_ofNat]
    omega
  rw [ex, ey]
  have hx : (BitVec.ofNat 32 (1024 * qi + r)).toInt = ((1024 * qi + r : ℕ) : ℤ) := by
    rw [BitVec.toInt_eq_toNat_of_lt (by rw [BitVec.toNat_ofNat]; omega), BitVec.toNat_ofNat]
    congr 1; omega
  have hy : (BitVec.ofNat 32 (512 * ki + j)).toInt = ((512 * ki + j : ℕ) : ℤ) := by
    rw [BitVec.toInt_eq_toNat_of_lt (by rw [BitVec.toNat_ofNat]; omega), BitVec.toNat_ofNat]
    congr 1; omega
  show BitVec.ofBool ((BitVec.ofNat 32 (512 * ki + j)).sle (BitVec.ofNat 32 (1024 * qi + r))) = _
  have hs : (BitVec.ofNat 32 (512 * ki + j)).sle (BitVec.ofNat 32 (1024 * qi + r)) = decide (512 * ki + j ≤ 1024 * qi + r) := by
    show decide ((BitVec.ofNat 32 (512 * ki + j)).toInt ≤ (BitVec.ofNat 32 (1024 * qi + r)).toInt) = _
    rw [hx, hy]
    exact decide_eq_decide.mpr Int.ofNat_le
  rw [hs]
  by_cases h : 512 * ki + j ≤ 1024 * qi + r
  · rw [if_pos h, decide_eq_true h]; rfl
  · rw [if_neg h, decide_eq_false h]; rfl

/-- The weight as a function of the words it is made of: the selected value under the exponential, with the
    condition, the score and the two named constants replaced by what they are. -/
theorem weight_eq (c : BitVec 1) (P : Prop) [Decidable P] (hc : c = if P then 1#1 else 0#1) (M S inv neg : EReal)
    (hM : M = S) (hinv : inv = ((1 / 50 : ℝ) : EReal)) (hneg : neg = ⊥) :
    Ideal.exp (Scalar.select c
        (Ideal.tanh ((M * Ideal.ofBits .f32 0x3DB504F3#32) * inv) * Ideal.ofBits .f32 0x42480000#32) neg)
      = Ideal.exp (if P then Cert.Attn.capK S else ⊥) := by
  subst hM hinv hneg
  refine congrArg Ideal.exp ?_
  by_cases h : P
  · rw [if_pos h] at hc; rw [if_pos h, hc]; exact select_one _ _
  · rw [if_neg h] at hc; rw [if_neg h, hc]; exact select_zero _ _

/-- The tile's score at `(r, j)`: the product of the query block and the key block, their unit axes dropped, into
    the zero accumulator is the inner product over the 128 features. -/
theorem score_apply (x0 : FVec Ideal S1x1024x128 .bf16) (x1 : FVec Ideal S1x128x512 .bf16) (r : Fin 1024) (j : Fin 512) :
    FloatOps.matmul dot_S1024x128_S128x512_S1024x512_1_0_0_1_n_n none
        (shapeCast S1024x128 x0 Facts₀.shapeCasts_S1x1024x128_S1024x128) (shapeCast S128x512 x1 Facts₀.shapeCasts_S1x128x512_S128x512)
        (constant S1024x512 .f32 0x00000000#32) (ix2 r j)
      = ∑ d : Fin 128, x0 (ix3 (0 : Fin 1) r d) * x1 (ix3 (0 : Fin 1) d j) := by
  refine (Cert.LibPlainMatmul.matmul_zero_apply dot_S1024x128_S128x512_S1024x512_1_0_0_1_n_n rfl rfl rfl rfl rfl rfl none
    (shapeCast S1024x128 x0 Facts₀.shapeCasts_S1x1024x128_S1024x128) (shapeCast S128x512 x1 Facts₀.shapeCasts_S1x128x512_S128x512) r j).trans ?_
  refine Finset.sum_congr rfl fun d _ => ?_
  rw [shapeCast_1ab_ab_apply x0 _ r d, shapeCast_1ab_ab_apply x1 _ d j]

/-- The weight of key `512·ki + j` for query `1024·qi + r`: the exponential of the capped logit of the
    tile's score at or below the diagonal, of `-∞` above it. -/
theorem pay6_apply (qi : Fin 2) (ki : Fin 4) (x0 : Vec Ideal S1x1024x128 .bf16) (x1 : Vec Ideal S1x128x512 .bf16)
    (r : Fin 1024) (j : Fin 512) :
    k0_pay6 (F := Ideal) (BitVec.ofNat 32 qi.val) (BitVec.ofNat 32 ki.val) x0 x1 (ix2 r j)
      = Ideal.exp (if 512 * ki.val + j.val ≤ 1024 * qi.val + r.val
          then Cert.Attn.capK (∑ d : Fin 128, x0 (ix3 (0 : Fin 1) r d) * x1 (ix3 (0 : Fin 1) d j)) else ⊥) := by
  unfold k0_pay6
  -- the two iotas read their coordinates
  have hi0 : iota .tc S1024x512 32 [0] Facts₀.iota_S1024x512_d0_w32 (ix2 r j) = BitVec.ofNat 32 r.val :=
    iota_single_apply .tc S1024x512 32 (0 : Fin 2) _ (ix2 r j)
  have hi1 : iota .tc S1024x512 32 [1] Facts₀.iota_S1024x512_d1_w32 (ix2 r j) = BitVec.ofNat 32 j.val :=
    iota_single_apply .tc S1024x512 32 (1 : Fin 2) _ (ix2 r j)
  -- the mask bit at (r, j)
  have hc : IntOp.cmpi .sge
        (IntOp.addi (Scalar.muli (BitVec.ofNat 32 qi.val) 1024#32) (iota .tc S1024x512 32 [0] Facts₀.iota_S1024x512_d0_w32 (ix2 r j)))
        (IntOp.addi (Scalar.muli (BitVec.ofNat 32 ki.val) 512#32) (iota .tc S1024x512 32 [1] Facts₀.iota_S1024x512_d1_w32 (ix2 r j)))
      = if 512 * ki.val + j.val ≤ 1024 * qi.val + r.val then 1#1 else 0#1 := by
    rw [hi0, hi1]
    exact sge_iff qi.val ki.val r.val j.val qi.isLt ki.isLt r.isLt j.isLt
  -- the two named constants
  have hinv : Named.named (F := Ideal) κ "inv_50" (φ := .f32) 0x3CA3D70A#32 = ((1 / 50 : ℝ) : EReal) :=
    IdealRules.named_const.ideal_named_scalar _ _ _ _ rfl
  have hneg : Named.named (F := Ideal) κ "neg_big" (φ := .f32) 0xF149F2CA#32 = (⊥ : EReal) :=
    IdealRules.named_const.ideal_named_scalar _ _ _ _ rfl
  exact weight_eq _ _ hc _ _ _ _ (score_apply x0 x1 r j) hinv hneg

/-- The running weight sum of row `r` after a tile: what it was plus the tile's weights. -/
theorem pay7_apply (qi : Fin 2) (ki : Fin 4) (x0 : Vec Ideal S1x1024x128 .bf16) (x1 : Vec Ideal S1x128x512 .bf16)
    (l : Vec Ideal S1024x1 .f32) (r : Fin 1024) :
    k0_pay7 (F := Ideal) (BitVec.ofNat 32 qi.val) (BitVec.ofNat 32 ki.val) x0 x1 l (ix2 r (0 : Fin 1))
      = l (ix2 r (0 : Fin 1)) + ∑ j : Fin 512, k0_pay6 (F := Ideal) (BitVec.ofNat 32 qi.val) (BitVec.ofNat 32 ki.val) x0 x1 (ix2 r j) := by
  unfold k0_pay7
  -- the cast to the same shape is the identity; the sum is pointwise
  refine (congrFun (shapeCast_self _ _) _).trans ?_
  refine (addf_apply _ _ _).trans ?_
  refine congrArg (fun t => l (ix2 r (0 : Fin 1)) + t) ?_
  -- the column (r, 0) of the kept axis is entry r of the lane sums, the sum over the 512 lanes of row r
  refine (Cert.LibKeepdimsCol.shapeCast_a_a1_apply _ _ r (0 : Fin 1)).trans ?_
  exact Cert.LibRowStats.add_last_apply _ _ _ _ r

/-- The running weighted values of row `r`, feature `d`, after a tile: what they were plus the tile's
    weights times the tile's values. -/
theorem pay3_apply (qi : Fin 2) (ki : Fin 4) (x0 : Vec Ideal S1x1024x128 .bf16) (x1 : Vec Ideal S1x128x512 .bf16)
    (x2 : Vec Ideal S1x512x128 .bf16) (a : Vec Ideal S1024x128 .f32) (r : Fin 1024) (d : Fin 128) :
    k0_pay3 (F := Ideal) (k0_pay5 x2) a (k0_pay8 (BitVec.ofNat 32 qi.val) (BitVec.ofNat 32 ki.val) x0 x1)
        (constant S1024x128 .f32 0x00000000#32) (ix2 r d)
      = a (ix2 r d) + ∑ j : Fin 512, k0_pay6 (F := Ideal) (BitVec.ofNat 32 qi.val) (BitVec.ofNat 32 ki.val) x0 x1 (ix2 r j)
          * x2 (ix3 (0 : Fin 1) j d) := by
  unfold k0_pay3
  refine (congrFun (shapeCast_self _ _) _).trans ?_
  refine (addf_apply _ _ _).trans ?_
  refine congrArg (fun t => a (ix2 r d) + t) ?_
  -- the product into the zero accumulator at (r, d) is the sum over the 512 keys of weight times value
  refine (Cert.LibPlainMatmul.matmul_zero_apply dot_S1024x512_S512x128_S1024x128_1_0_0_1_n_n rfl rfl rfl rfl rfl rfl none
    (k0_pay8 (F := Ideal) (BitVec.ofNat 32 qi.val) (BitVec.ofNat 32 ki.val) x0 x1) (k0_pay5 (F := Ideal) x2) r d).trans ?_
  refine Finset.sum_congr rfl fun j _ => ?_
  -- the value block with its unit axis dropped
  have e5 : k0_pay5 (F := Ideal) x2 (ix2 j d) = x2 (ix3 (0 : Fin 1) j d) := by
    unfold k0_pay5
    exact shapeCast_1ab_ab_apply x2 _ j d
  -- the narrowing of the weights is the identity on extended reals
  have e8 : k0_pay8 (F := Ideal) (BitVec.ofNat 32 qi.val) (BitVec.ofNat 32 ki.val) x0 x1 (ix2 r j)
      = k0_pay6 (F := Ideal) (BitVec.ofNat 32 qi.val) (BitVec.ofNat 32 ki.val) x0 x1 (ix2 r j) := by
    unfold k0_pay8
    exact truncf_apply _ _ _
  rw [e5, e8]

/-- The quotient stored into the output block. -/
theorem pay4_apply (a : Vec Ideal S1024x128 .f32) (l : Vec Ideal S1024x1 .f32) (r : Fin 1024) (d : Fin 128) :
    k0_pay4 (F := Ideal) a l (ix3 (0 : Fin 1) r d) = Ideal.div (a (ix2 r d)) (l (ix2 r (0 : Fin 1))) := by
  unfold k0_pay4
  -- the added unit axis reads (r, d); the quotient is pointwise; the column spread over the row reads (r, 0)
  refine (shapeCast_ab_1ab_apply _ _ (0 : Fin 1) r d).trans ?_
  refine (divf_apply _ _ _).trans ?_
  exact congrArg (Ideal.div (a (ix2 r d))) (Cert.LibKeepdimsCol.broadcastTo_a1_ab_apply l _ r d)

/-- The cleared sums are zero. -/
theorem pay1_apply (j : S1024x1.Idx) : k0_pay1 (F := Ideal) j = 0 := by
  unfold k0_pay1
  refine (congrFun (shapeCast_self _ _) j).trans ?_
  exact Ideal.ofBits_zero_f32
theorem pay2_apply (j : S1024x128.Idx) : k0_pay2 (F := Ideal) j = 0 := by
  unfold k0_pay2
  refine (congrFun (shapeCast_self _ _) j).trans ?_
  exact Ideal.ofBits_zero_f32

end Cert.KernelIdeal.Pay

end
-- ==== Proof.KerValue1.lean ====
/-
  The three arrays the grid reads, as the region finds them, at an index: the host reshapes each argument
  from batch × head × … to (batch·head) × … and converts it to bf16, which at the ideal instance changes
  nothing, so slab `16·b + h` of the reshaped array is the argument's slab `(b, h)`.
-/
import proofs.«125762_j22883585753583_2_alg».proof.Proof.Gen.KernelIdeal.Frame
import Idealize.ShloMosaic.Lib.ValueIdx
import Idealize.ShloMosaic.Lib.Pipeline.Value
import Idealize.ShloMosaic.Lib.Tactic

noncomputable section

namespace Cert.KernelIdeal.HandValue

open Idealize.ShloMosaic Idealize.ShloMosaic.ValueIdx Idealize.ShloMosaic.TcCoe Idealize.ShloMosaic.Tactic
open Idealize.SL.Sem
open Cert.KernelIdeal Cert.KernelIdeal.Gen

variable (m : (ℓ : Loc nD τ sig) → Buf (Elt Ideal) ℓ)

/-- The queries as the grid reads them: slab `16·b + h`, row `s`, feature `d` is the argument at `(b, h, s, d)`. -/
theorem V_queries (c : Dev nD) (b : Fin 2) (h : Fin 16) (s : Fin 2048) (d : Fin 128) (bh : Fin 32)
    (hbh : bh.val = 16 * b.val + h.val) :
    (V m c main_v1 : S32x2048x128.Idx → EReal) (ix3 bh s d)
      = (m ((c.tc : Thread nD τ).loc main_arg0) : S2x16x2048x128.Idx → EReal) (ix4 b h s d) := by
  have e : (V m c main_v1 : S32x2048x128.Idx → EReal)
      = (truncf (F := Ideal) .bf16 (shapeCast S32x2048x128 (m ((c.tc : Thread nD τ).loc main_arg0) : S2x16x2048x128.Idx → Ideal .f32)
          shapeCasts_S2x16x2048x128_S32x2048x128 : FVec Ideal S32x2048x128 .f32) bitsLt_bf16_f32 : FVec Ideal S32x2048x128 .bf16) := by
    show StableHlo.after hostOps0 (fun b => m (c, b)) (Proc.devRef .tc main_v1) = _
    after_results
    rfl
  rw [e, truncf_apply]
  refine shapeCast_apply _ _ _ (ix4 b h s d) ?_
  rw [Shape.rowMajor_val_four, Shape.rowMajor_val_three]
  show ((b.val * 16 + h.val) * 2048 + s.val) * 128 + d.val = (bh.val * 2048 + s.val) * 128 + d.val
  rw [hbh]; ring

/-- The keys, stored transposed: slab `16·b + h`, feature `d`, position `t` is the argument at `(b, h, d, t)`. -/
theorem V_keys (c : Dev nD) (b : Fin 2) (h : Fin 16) (d : Fin 128) (t : Fin 2048) (bh : Fin 32)
    (hbh : bh.val = 16 * b.val + h.val) :
    (V m c main_v3 : S32x128x2048.Idx → EReal) (ix3 bh d t)
      = (m ((c.tc : Thread nD τ).loc main_arg1) : S2x16x128x2048.Idx → EReal) (ix4 b h d t) := by
  have e : (V m c main_v3 : S32x128x2048.Idx → EReal)
      = (truncf (F := Ideal) .bf16 (shapeCast S32x128x2048 (m ((c.tc : Thread nD τ).loc main_arg1) : S2x16x128x2048.Idx → Ideal .f32)
          shapeCasts_S2x16x128x2048_S32x128x2048 : FVec Ideal S32x128x2048 .f32) bitsLt_bf16_f32 : FVec Ideal S32x128x2048 .bf16) := by
    show StableHlo.after hostOps0 (fun b => m (c, b)) (Proc.devRef .tc main_v3) = _
    after_results
    rfl
  rw [e, truncf_apply]
  refine shapeCast_apply _ _ _ (ix4 b h d t) ?_
  rw [Shape.rowMajor_val_four, Shape.rowMajor_val_three]
  show ((b.val * 16 + h.val) * 128 + d.val) * 2048 + t.val = (bh.val * 128 + d.val) * 2048 + t.val
  rw [hbh]; ring

/-- The values: slab `16·b + h`, position `t`, feature `d` is the argument at `(b, h, t, d)`. -/
theorem V_values (c : Dev nD) (b : Fin 2) (h : Fin 16) (t : Fin 2048) (d : Fin 128) (bh : Fin 32)
    (hbh : bh.val = 16 * b.val + h.val) :
    (V m c main_v5 : S32x2048x128.Idx → EReal) (ix3 bh t d)
      = (m ((c.tc : Thread nD τ).loc main_arg2) : S2x16x2048x128.Idx → EReal) (ix4 b h t d) := by
  have e : (V m c main_v5 : S32x2048x128.Idx → EReal)
      = (truncf (F := Ideal) .bf16 (shapeCast S32x2048x128 (m ((c.tc : Thread nD τ).loc main_arg2) : S2x16x2048x128.Idx → Ideal .f32)
          shapeCasts_S2x16x2048x128_S32x2048x128 : FVec Ideal S32x2048x128 .f32) bitsLt_bf16_f32 : FVec Ideal S32x2048x128 .bf16) := by
    show StableHlo.after hostOps0 (fun b => m (c, b)) (Proc.devRef .tc main_v5) = _
    after_results
    rfl
  rw [e, truncf_apply]
  refine shapeCast_apply _ _ _ (ix4 b h t d) ?_
  rw [Shape.rowMajor_val_four, Shape.rowMajor_val_three]
  show ((b.val * 16 + h.val) * 2048 + t.val) * 128 + d.val = (bh.val * 2048 + t.val) * 128 + d.val
  rw [hbh]; ring

end Cert.KernelIdeal.HandValue

end
-- ==== Proof.KerValue2.lean ====
/-
  The grid in closed form.  Point number `t` is batch·head `t / 8`, query tile `t / 4 % 2`, key tile `t % 4`;
  the query window's block follows (batch·head, query tile); the key and value windows' blocks follow
  (batch·head, key tile), the key tile clamped to the last one that can hold a key at or below the
  diagonal of the query tile.
-/
import proofs.«125762_j22883585753583_2_alg».proof.Proof.Gen.KernelIdeal.Frame
import Idealize.ShloMosaic.Lib.Decide

noncomputable section

namespace Cert.KernelIdeal.HandValue

open Idealize.ShloMosaic Idealize.ShloMosaic.TcCoe
open Cert.KernelIdeal Cert.KernelIdeal.Gen

/-- The coordinates of point `t`. -/
theorem pt_coords : ∀ t : Fin cfg0.N, ((grid0.coords t) 0).val = t.val / 8 ∧ ((grid0.coords t) 1).val = t.val / 4 % 2
    ∧ ((grid0.coords t) 2).val = t.val % 4 :=
  (by decide +kernel : ∀ t : Fin grid0.N, ((grid0.coords t) 0).val = t.val / 8 ∧ ((grid0.coords t) 1).val = t.val / 4 % 2
    ∧ ((grid0.coords t) 2).val = t.val % 4)

/-- The query window's block index at point `t`. -/
theorem qblk_index : ∀ t : Fin cfg0.N, win0_0.index t (0 : Fin 3) = t.val / 8 ∧ win0_0.index t (1 : Fin 3) = t.val / 4 % 2
    ∧ win0_0.index t (2 : Fin 3) = 0 :=
  (by decide +kernel : ∀ t : Fin grid0.N, _)

/-- The key window's block index at point `t`. -/
theorem kblk_index : ∀ t : Fin cfg0.N, win0_1.index t (0 : Fin 3) = t.val / 8 ∧ win0_1.index t (1 : Fin 3) = 0
    ∧ win0_1.index t (2 : Fin 3) = min (t.val % 4) (2 * (t.val / 4 % 2) + 1) :=
  (by decide +kernel : ∀ t : Fin grid0.N, _)

/-- The value window's block index at point `t`. -/
theorem vblk_index : ∀ t : Fin cfg0.N, win0_2.index t (0 : Fin 3) = t.val / 8
    ∧ win0_2.index t (1 : Fin 3) = min (t.val % 4) (2 * (t.val / 4 % 2) + 1) ∧ win0_2.index t (2 : Fin 3) = 0 :=
  (by decide +kernel : ∀ t : Fin grid0.N, _)

end Cert.KernelIdeal.HandValue

end
-- ==== Proof.KerValue3.lean ====
/-
  The three input blocks of a grid point at an index, read off the arguments.  The query block of point
  (batch·head, query tile, key tile) is rows `1024·(query tile) …` of slab batch·head of the queries; the
  key block is columns `512·κ …` of the slab of the transposed keys and the value block rows `512·κ …` of
  the slab of the values, `κ` the key tile clamped to the last one at or below the query tile's diagonal.
-/
import proofs.«125762_j22883585753583_2_alg».proof.Proof.KerValue1
import proofs.«125762_j22883585753583_2_alg».proof.Proof.KerValue2

noncomputable section

namespace Cert.KernelIdeal.HandValue

open Idealize.ShloMosaic Idealize.ShloMosaic.ValueIdx Idealize.ShloMosaic.TcCoe
open Idealize.SL.Sem
open Cert.KernelIdeal Cert.KernelIdeal.Gen

variable (m : (ℓ : Loc nD τ sig) → Buf (Elt Ideal) ℓ)

/-- The query block at point `t`, entry `x`, is the reshaped queries at slab `t / 8`, row `1024·(t / 4 % 2) + x₁`. -/
theorem qblk_apply (c : Dev nD) (t : Fin cfg0.N) (x : S1x1024x128.Idx) (k : S32x2048x128.Idx)
    (hk0 : (k 0).val = t.val / 8) (hk1 : (k 1).val = 1024 * (t.val / 4 % 2) + (x 1).val) (hk2 : (k 2).val = (x 2).val) :
    (iblk m c 0 t : Vec Ideal S1x1024x128 .bf16) x = (V m c main_v1 : S32x2048x128.Idx → EReal) k := by
  obtain ⟨e0, e1, e2⟩ := qblk_index t
  have hx0 : (x 0).val < 1 := (x 0).isLt
  unfold iblk
  rw [View.read_apply]
  show V m c main_v1 _ = V m c main_v1 _
  congr 1
  funext a
  apply Fin.ext
  match a with
  | ⟨0, _⟩ => show win0_0.index t 0 * 1 + 1 * (x 0).val = (k 0).val; rw [e0, hk0]; omega
  | ⟨1, _⟩ => show win0_0.index t 1 * 1024 + 1 * (x 1).val = (k 1).val; rw [e1, hk1]; omega
  | ⟨2, _⟩ => show win0_0.index t 2 * 128 + 1 * (x 2).val = (k 2).val; rw [e2, hk2]; omega

/-- The key block at point `t`, entry `x`, is the reshaped keys at slab `t / 8`, column `512·κ + x₂`. -/
theorem kblk_apply (c : Dev nD) (t : Fin cfg0.N) (x : S1x128x512.Idx) (k : S32x128x2048.Idx)
    (hk0 : (k 0).val = t.val / 8) (hk1 : (k 1).val = (x 1).val)
    (hk2 : (k 2).val = 512 * min (t.val % 4) (2 * (t.val / 4 % 2) + 1) + (x 2).val) :
    (iblk m c 1 t : Vec Ideal S1x128x512 .bf16) x = (V m c main_v3 : S32x128x2048.Idx → EReal) k := by
  obtain ⟨e0, e1, e2⟩ := kblk_index t
  have hx0 : (x 0).val < 1 := (x 0).isLt
  unfold iblk
  rw [View.read_apply]
  show V m c main_v3 _ = V m c main_v3 _
  congr 1
  funext a
  apply Fin.ext
  match a with
  | ⟨0, _⟩ => show win0_1.index t 0 * 1 + 1 * (x 0).val = (k 0).val; rw [e0, hk0]; omega
  | ⟨1, _⟩ => show win0_1.index t 1 * 128 + 1 * (x 1).val = (k 1).val; rw [e1, hk1]; omega
  | ⟨2, _⟩ => show win0_1.index t 2 * 512 + 1 * (x 2).val = (k 2).val; rw [e2, hk2]; omega

/-- The value block at point `t`, entry `x`, is the reshaped values at slab `t / 8`, row `512·κ + x₁`. -/
theorem vblk_apply (c : Dev nD) (t : Fin cfg0.N) (x : S1x512x128.Idx) (k : S32x2048x128.Idx)
    (hk0 : (k 0).val = t.val / 8) (hk1 : (k 1).val = 512 * min (t.val % 4) (2 * (t.val / 4 % 2) + 1) + (x 1).val)
    (hk2 : (k 2).val = (x 2).val) :
    (iblk m c 2 t : Vec Ideal S1x512x128 .bf16) x = (V m c main_v5 : S32x2048x128.Idx → EReal) k := by
  obtain ⟨e0, e1, e2⟩ := vblk_index t
  have hx0 : (x 0).val < 1 := (x 0).isLt
  unfold iblk
  rw [View.read_apply]
  show V m c main_v5 _ = V m c main_v5 _
  congr 1
  funext a
  apply Fin.ext
  match a with
  | ⟨0, _⟩ => show win0_2.index t 0 * 1 + 1 * (x 0).val = (k 0).val; rw [e0, hk0]; omega
  | ⟨1, _⟩ => show win0_2.index t 1 * 512 + 1 * (x 1).val = (k 1).val; rw [e1, hk1]; omega
  | ⟨2, _⟩ => show win0_2.index t 2 * 128 + 1 * (x 2).val = (k 2).val; rw [e2, hk2]; omega

/-! ## The blocks of the point of batch `b`, head `h`, query tile `qi`, key tile `ki`, off the arguments -/

/-- Row `r` of the query block is query `1024·qi + r` of `(b, h)`. -/
theorem qblk_arg (c : Dev nD) (t : Fin cfg0.N) (b : Fin 2) (h : Fin 16) (qi ki : ℕ) (hqi : qi < 2) (hki : ki < 4)
    (ht : t.val = 8 * (16 * b.val + h.val) + 4 * qi + ki) (r : Fin 1024) (d : Fin 128) (s : Fin 2048)
    (hs : s.val = 1024 * qi + r.val) :
    (iblk m c 0 t : Vec Ideal S1x1024x128 .bf16) (ix3 (0 : Fin 1) r d)
      = (m ((c.tc : Thread nD τ).loc main_arg0) : S2x16x2048x128.Idx → EReal) (ix4 b h s d) := by
  have hbh : 16 * b.val + h.val < 32 := by have := b.isLt; have := h.isLt; omega
  rw [qblk_apply m c t (ix3 (0 : Fin 1) r d) (ix3 (⟨16 * b.val + h.val, hbh⟩ : Fin 32) s d)
    (by show 16 * b.val + h.val = t.val / 8; omega) (by show s.val = 1024 * (t.val / 4 % 2) + r.val; rw [hs]; omega) rfl]
  exact V_queries m c b h s d ⟨16 * b.val + h.val, hbh⟩ rfl

/-- At a key tile at or below the diagonal, column `j` of the key block is key `512·ki + j` of `(b, h)`. -/
theorem kblk_arg (c : Dev nD) (t : Fin cfg0.N) (b : Fin 2) (h : Fin 16) (qi ki : ℕ) (hqi : qi < 2) (hki : ki < 4)
    (ht : t.val = 8 * (16 * b.val + h.val) + 4 * qi + ki) (hv : ki < 2 * (qi + 1)) (d : Fin 128) (j : Fin 512) (t' : Fin 2048)
    (ht' : t'.val = 512 * ki + j.val) :
    (iblk m c 1 t : Vec Ideal S1x128x512 .bf16) (ix3 (0 : Fin 1) d j)
      = (m ((c.tc : Thread nD τ).loc main_arg1) : S2x16x128x2048.Idx → EReal) (ix4 b h d t') := by
  have hbh : 16 * b.val + h.val < 32 := by have := b.isLt; have := h.isLt; omega
  rw [kblk_apply m c t (ix3 (0 : Fin 1) d j) (ix3 (⟨16 * b.val + h.val, hbh⟩ : Fin 32) d t')
    (by show 16 * b.val + h.val = t.val / 8; omega) rfl
    (by show t'.val = 512 * min (t.val % 4) (2 * (t.val / 4 % 2) + 1) + j.val; rw [ht']; omega)]
  exact V_keys m c b h d t' ⟨16 * b.val + h.val, hbh⟩ rfl

/-- At a key tile at or below the diagonal, row `j` of the value block is value `512·ki + j` of `(b, h)`. -/
theorem vblk_arg (c : Dev nD) (t : Fin cfg0.N) (b : Fin 2) (h : Fin 16) (qi ki : ℕ) (hqi : qi < 2) (hki : ki < 4)
    (ht : t.val = 8 * (16 * b.val + h.val) + 4 * qi + ki) (hv : ki < 2 * (qi + 1)) (j : Fin 512) (d : Fin 128) (t' : Fin 2048)
    (ht' : t'.val = 512 * ki + j.val) :
    (iblk m c 2 t : Vec Ideal S1x512x128 .bf16) (ix3 (0 : Fin 1) j d)
      = (m ((c.tc : Thread nD τ).loc main_arg2) : S2x16x2048x128.Idx → EReal) (ix4 b h t' d) := by
  have hbh : 16 * b.val + h.val < 32 := by have := b.isLt; have := h.isLt; omega
  rw [vblk_apply m c t (ix3 (0 : Fin 1) j d) (ix3 (⟨16 * b.val + h.val, hbh⟩ : Fin 32) t' d)
    (by show 16 * b.val + h.val = t.val / 8; omega)
    (by show t'.val = 512 * min (t.val % 4) (2 * (t.val / 4 % 2) + 1) + j.val; rw [ht']; omega) rfl]
  exact V_values m c b h t' d ⟨16 * b.val + h.val, hbh⟩ rfl

end Cert.KernelIdeal.HandValue

end
-- ==== Proof.KerValue4.lean ====
/-
  One query row through one grid point.  With `y` the row's capped logits against every key and `v` one
  feature of every value, the tile's weights are `exp (y t)` at or below the diagonal and `exp (-∞)` above
  it; a key tile at or below the diagonal adds its weights to the running weight sum and its weighted values
  to the running weighted sum, the first key tile after clearing both, and a key tile wholly above the
  diagonal leaves both alone.  So after key tile `ki` the sums are the first `min (ki + 1) (number of tiles)`
  terms of the row's tile sums, and after the last tile their quotient is the row's attention.
-/
import proofs.«125762_j22883585753583_2_alg».proof.Proof.StepIdeal
import proofs.«125762_j22883585753583_2_alg».proof.Proof.PayIdeal
import proofs.«125762_j22883585753583_2_alg».proof.Proof.AttnSpec

noncomputable section

namespace Cert.KernelIdeal.HandValue

open Idealize.ShloMosaic Idealize.ShloMosaic.ValueIdx Idealize.ShloMosaic.TcCoe Idealize.SL.Sem
open Cert.KernelIdeal Cert.KernelIdeal.Gen Cert.KernelIdeal.Hand

/-- The capped logits of query `(b, h, s)` against every key position. -/
def yRow (Q : Cert.Attn.SQ.Idx → EReal) (K : Cert.Attn.SK.Idx → EReal) (b : Fin 2) (h : Fin 16) (s : Fin 2048) : ℕ → EReal :=
  Cert.Attn.ext fun t : Fin 2048 => Cert.Attn.capK (Cert.Attn.score Q K b h s t)

/-- Feature `d` of the value at every position of `(b, h)`. -/
def vCol (V : Cert.Attn.SQ.Idx → EReal) (b : Fin 2) (h : Fin 16) (d : Fin 128) : ℕ → EReal :=
  Cert.Attn.ext fun t : Fin 2048 => V (ix4 b h t d)

theorem kerOut_eq (Q : Cert.Attn.SQ.Idx → EReal) (K : Cert.Attn.SK.Idx → EReal) (V : Cert.Attn.SQ.Idx → EReal)
    (b : Fin 2) (h : Fin 16) (s : Fin 2048) (d : Fin 128) :
    Cert.Attn.kerOut Q K V b h s d = Cert.Attn.kerRow s.val (yRow Q K b h s) (vCol V b h d) := rfl

section Row

variable (Q : Cert.Attn.SQ.Idx → EReal) (K : Cert.Attn.SK.Idx → EReal) (V : Cert.Attn.SQ.Idx → EReal)
  (b : Fin 2) (h : Fin 16) (s : Fin 2048) (qi : Fin 2) (ki : Fin 4) (r : Fin 1024)
  (x0 : Vec Ideal S1x1024x128 .bf16) (x1 : Vec Ideal S1x128x512 .bf16) (x2 : Vec Ideal S1x512x128 .bf16)

/-- The tile's weight of key `512·ki + j` for row `r` is the row's weight of that key. -/
theorem tile_weight (hs : s.val = 1024 * qi.val + r.val)
    (hx0 : ∀ d : Fin 128, x0 (ix3 (0 : Fin 1) r d) = Q (ix4 b h s d))
    (hx1 : ∀ (d : Fin 128) (j : Fin 512) (t' : Fin 2048), t'.val = 512 * ki.val + j.val → x1 (ix3 (0 : Fin 1) d j) = K (ix4 b h d t'))
    (j : Fin 512) :
    k0_pay6 (F := Ideal) (BitVec.ofNat 32 qi.val) (BitVec.ofNat 32 ki.val) x0 x1 (ix2 r j)
      = Cert.Attn.wK s.val (yRow Q K b h s) (512 * ki.val + j.val) := by
  have hlt : 512 * ki.val + j.val < 2048 := by have := ki.isLt; have := j.isLt; omega
  refine (Pay.pay6_apply qi ki x0 x1 r j).trans ?_
  unfold Cert.Attn.wK
  rw [hs]
  refine congrArg Ideal.exp (if_congr Iff.rfl ?_ rfl)
  unfold yRow
  rw [Cert.Attn.ext_of_lt _ hlt]
  unfold Cert.Attn.score
  refine congrArg Cert.Attn.capK (Finset.sum_congr rfl fun d _ => ?_)
  rw [hx0 d, hx1 d j ⟨512 * ki.val + j.val, hlt⟩ rfl]

/-- The tile's weights of row `r` summed are the row's tile sum of weights. -/
theorem tile_sumL (hs : s.val = 1024 * qi.val + r.val)
    (hx0 : ∀ d : Fin 128, x0 (ix3 (0 : Fin 1) r d) = Q (ix4 b h s d))
    (hx1 : ∀ (d : Fin 128) (j : Fin 512) (t' : Fin 2048), t'.val = 512 * ki.val + j.val → x1 (ix3 (0 : Fin 1) d j) = K (ix4 b h d t')) :
    ∑ j : Fin 512, k0_pay6 (F := Ideal) (BitVec.ofNat 32 qi.val) (BitVec.ofNat 32 ki.val) x0 x1 (ix2 r j)
      = Cert.Attn.tileL s.val (yRow Q K b h s) ki.val := by
  unfold Cert.Attn.tileL
  exact Finset.sum_congr rfl fun j _ => tile_weight Q K b h s qi ki r x0 x1 hs hx0 hx1 j

/-- The tile's weights of row `r` times feature `d` of the tile's values, summed, are the row's tile sum of weighted values. -/
theorem tile_sumA (d : Fin 128) (hs : s.val = 1024 * qi.val + r.val)
    (hx0 : ∀ d : Fin 128, x0 (ix3 (0 : Fin 1) r d) = Q (ix4 b h s d))
    (hx1 : ∀ (d : Fin 128) (j : Fin 512) (t' : Fin 2048), t'.val = 512 * ki.val + j.val → x1 (ix3 (0 : Fin 1) d j) = K (ix4 b h d t'))
    (hx2 : ∀ (j : Fin 512) (t' : Fin 2048), t'.val = 512 * ki.val + j.val → x2 (ix3 (0 : Fin 1) j d) = V (ix4 b h t' d)) :
    ∑ j : Fin 512, k0_pay6 (F := Ideal) (BitVec.ofNat 32 qi.val) (BitVec.ofNat 32 ki.val) x0 x1 (ix2 r j) * x2 (ix3 (0 : Fin 1) j d)
      = Cert.Attn.tileA s.val (yRow Q K b h s) (vCol V b h d) ki.val := by
  unfold Cert.Attn.tileA
  refine Finset.sum_congr rfl fun j _ => ?_
  have hlt : 512 * ki.val + j.val < 2048 := by have := ki.isLt; have := j.isLt; omega
  rw [tile_weight Q K b h s qi ki r x0 x1 hs hx0 hx1 j, hx2 j ⟨512 * ki.val + j.val, hlt⟩ rfl]
  unfold vCol
  rw [Cert.Attn.ext_of_lt _ hlt]

/-- Row `r`'s two running sums hold the first `n` terms of the row's tile sums. -/
def RowInv (n : ℕ) (l : Vec Ideal S1024x1 .f32) (a : Vec Ideal S1024x128 .f32) : Prop :=
  l (ix2 r (0 : Fin 1)) = Cert.Attn.accum (Cert.Attn.tileL s.val (yRow Q K b h s)) n
  ∧ ∀ d : Fin 128, a (ix2 r d) = Cert.Attn.accum (Cert.Attn.tileA s.val (yRow Q K b h s) (vCol V b h d)) n

/-- One point: from the first `min ki (tiles)` terms (nothing asked of the state at the first key tile) to the first
    `min (ki + 1) (tiles)`. -/
theorem step_row (i : grid0.Coords) (h1 : (i 1).val = qi.val) (h2 : (i 2).val = ki.val)
    (hs : s.val = 1024 * qi.val + r.val)
    (hx0 : ∀ d : Fin 128, x0 (ix3 (0 : Fin 1) r d) = Q (ix4 b h s d))
    (hx1 : ki.val < 2 * (qi.val + 1) → ∀ (d : Fin 128) (j : Fin 512) (t' : Fin 2048), t'.val = 512 * ki.val + j.val →
      x1 (ix3 (0 : Fin 1) d j) = K (ix4 b h d t'))
    (hx2 : ki.val < 2 * (qi.val + 1) → ∀ (d : Fin 128) (j : Fin 512) (t' : Fin 2048), t'.val = 512 * ki.val + j.val →
      x2 (ix3 (0 : Fin 1) j d) = V (ix4 b h t' d))
    (p : St Ideal) (hp : ki.val ≠ 0 → RowInv Q K V b h s r (min ki.val (2 * (qi.val + 1))) p.2.1 p.2.2) :
    RowInv Q K V b h s r (min (ki.val + 1) (2 * (qi.val + 1))) (lNext i x0 x1 p) (aNext i x0 x1 x2 p) := by
  have hqi := qi.isLt
  have hki := ki.isLt
  by_cases hv : ki.val < 2 * (qi.val + 1)
  · have hV : isValid i := by show 512 * (i 2).val < 1024 * ((i 1).val + 1); rw [h1, h2]; omega
    have hcl : RowInv Q K V b h s r ki.val (lCleared i p) (aCleared i p) := by
      by_cases hz : ki.val = 0
      · have hf : isFirst i := by show (i 2).val = 0; rw [h2]; exact hz
        unfold lCleared aCleared
        rw [if_pos hf, if_pos hf, hz]
        exact ⟨Pay.pay1_apply _, fun d => Pay.pay2_apply _⟩
      · have hf : ¬ isFirst i := by show ¬ (i 2).val = 0; rw [h2]; exact hz
        unfold lCleared aCleared
        rw [if_neg hf, if_neg hf]
        have hprev := hp hz
        rwa [Nat.min_eq_left (by omega)] at hprev
    obtain ⟨hl, ha⟩ := hcl
    rw [Nat.min_eq_left (by omega)]
    unfold lNext aNext
    rw [if_pos hV, if_pos hV, h1, h2]
    refine ⟨?_, fun d => ?_⟩
    · refine (Pay.pay7_apply qi ki x0 x1 (lCleared i p) r).trans ?_
      rw [hl, tile_sumL Q K b h s qi ki r x0 x1 hs hx0 (hx1 hv)]
      rfl
    · refine (Pay.pay3_apply qi ki x0 x1 x2 (aCleared i p) r d).trans ?_
      rw [ha d, tile_sumA Q K V b h s qi ki r x0 x1 x2 d hs hx0 (hx1 hv) (hx2 hv d)]
      rfl
  · have hV : ¬ isValid i := by show ¬ 512 * (i 2).val < 1024 * ((i 1).val + 1); rw [h1, h2]; omega
    have hz : ki.val ≠ 0 := by omega
    have hf : ¬ isFirst i := by show ¬ (i 2).val = 0; rw [h2]; exact hz
    unfold lNext aNext lCleared aCleared
    rw [if_neg hV, if_neg hV, if_neg hf, if_neg hf]
    have hprev := hp hz
    rwa [show min ki.val (2 * (qi.val + 1)) = min (ki.val + 1) (2 * (qi.val + 1)) by omega] at hprev

/-- The last key tile: the output block's entry of row `r`, feature `d`, is the row's attention. -/
theorem out_row (i : grid0.Coords) (h1 : (i 1).val = qi.val) (h2 : (i 2).val = ki.val) (hlast : ki.val = 3)
    (hs : s.val = 1024 * qi.val + r.val)
    (hx0 : ∀ d : Fin 128, x0 (ix3 (0 : Fin 1) r d) = Q (ix4 b h s d))
    (hx1 : ki.val < 2 * (qi.val + 1) → ∀ (d : Fin 128) (j : Fin 512) (t' : Fin 2048), t'.val = 512 * ki.val + j.val →
      x1 (ix3 (0 : Fin 1) d j) = K (ix4 b h d t'))
    (hx2 : ki.val < 2 * (qi.val + 1) → ∀ (d : Fin 128) (j : Fin 512) (t' : Fin 2048), t'.val = 512 * ki.val + j.val →
      x2 (ix3 (0 : Fin 1) j d) = V (ix4 b h t' d))
    (p : St Ideal) (hp : ki.val ≠ 0 → RowInv Q K V b h s r (min ki.val (2 * (qi.val + 1))) p.2.1 p.2.2) (d : Fin 128) :
    oNext i x0 x1 x2 p (ix3 (0 : Fin 1) r d) = Cert.Attn.kerOut Q K V b h s d := by
  have hqi := qi.isLt
  have hr := r.isLt
  have hL : isLast i := by show (i 2).val = 3; rw [h2]; exact hlast
  obtain ⟨hl, ha⟩ := step_row Q K V b h s qi ki r x0 x1 x2 i h1 h2 hs hx0 hx1 hx2 p hp
  unfold oNext
  rw [if_pos hL]
  refine (Pay.pay4_apply (aNext i x0 x1 x2 p) (lNext i x0 x1 p) r d).trans ?_
  rw [hl, ha d, kerOut_eq]
  unfold Cert.Attn.kerRow
  have hn : min (ki.val + 1) (2 * (qi.val + 1)) = Cert.Attn.ntiles s.val := by
    unfold Cert.Attn.ntiles
    rw [hs]
    split_ifs <;> omega
  rw [hn]

end Row

end Cert.KernelIdeal.HandValue

end
-- ==== Proof.KerValue5.lean ====
/-
  The induction along the key tiles of one query tile.  The point of batch `b`, head `h`, query tile `qi`
  and key tile `k` is number `8·(16·b + h) + 4·qi + k`; the first key tile clears the sums, so nothing is
  asked of the state it starts from, and each later key tile starts from what the one before it left.
-/
import proofs.«125762_j22883585753583_2_alg».proof.Proof.KerValue3
import proofs.«125762_j22883585753583_2_alg».proof.Proof.KerValue4

noncomputable section

namespace Cert.KernelIdeal.HandValue

open Idealize.ShloMosaic Idealize.ShloMosaic.ValueIdx Idealize.ShloMosaic.TcCoe Idealize.SL.Sem
open Cert.KernelIdeal Cert.KernelIdeal.Gen Cert.KernelIdeal.Hand

variable (m : (ℓ : Loc nD τ sig) → Buf (Elt Ideal) ℓ) (c : Dev nD)

/-- Every point's state is one transition from some state: the one the point before left, when there is one. -/
theorem outsAt0_step (n : ℕ) (hn : n < cfg0.N) :
    ∃ p : St Ideal, outsAt0 m c n hn
        = step (grid0.coords ⟨n, hn⟩) (iblk m c 0 ⟨n, hn⟩) (iblk m c 1 ⟨n, hn⟩) (iblk m c 2 ⟨n, hn⟩) p
      ∧ ∀ hz : n ≠ 0, p = outsAt0 m c (n - 1) (Nat.lt_of_le_of_lt (Nat.sub_le _ _) hn) := by
  cases n with
  | zero => exact ⟨junk, rfl, fun hz => absurd rfl hz⟩
  | succ n => exact ⟨outsAt0 m c n (Nat.lt_of_succ_lt hn), rfl, fun _ => rfl⟩

section Tile

variable (b : Fin 2) (h : Fin 16) (qi : Fin 2) (r : Fin 1024) (s : Fin 2048)

/-- After key tile `k` of query tile `qi` of `(b, h)`, row `r`'s sums hold the first `min (k + 1) (tiles)` terms. -/
theorem sums_after (hs : s.val = 1024 * qi.val + r.val) :
    ∀ (k : ℕ) (hk : k < 4) (n : ℕ) (hn : n < cfg0.N), n = 8 * (16 * b.val + h.val) + 4 * qi.val + k →
      RowInv (m ((c.tc : Thread nD τ).loc main_arg0)) (m ((c.tc : Thread nD τ).loc main_arg1)) (m ((c.tc : Thread nD τ).loc main_arg2))
        b h s r (min (k + 1) (2 * (qi.val + 1))) (outsAt0 m c n hn).2.1 (outsAt0 m c n hn).2.2 := by
  have hqi := qi.isLt
  intro k
  induction k with
  | zero =>
    intro hk n hn hnk
    obtain ⟨e0, e1, e2⟩ := pt_coords ⟨n, hn⟩
    obtain ⟨p, he, -⟩ := outsAt0_step m c n hn
    have key := step_row (m ((c.tc : Thread nD τ).loc main_arg0)) (m ((c.tc : Thread nD τ).loc main_arg1)) (m ((c.tc : Thread nD τ).loc main_arg2))
      b h s qi (⟨0, hk⟩ : Fin 4) r (iblk m c 0 ⟨n, hn⟩) (iblk m c 1 ⟨n, hn⟩) (iblk m c 2 ⟨n, hn⟩) (grid0.coords ⟨n, hn⟩)
      (by rw [e1]; show n / 4 % 2 = qi.val; omega) (by rw [e2]; show n % 4 = 0; omega) hs
      (fun d => qblk_arg m c ⟨n, hn⟩ b h qi.val 0 hqi hk hnk r d s hs)
      (fun hv d j t' ht' => kblk_arg m c ⟨n, hn⟩ b h qi.val 0 hqi hk hnk hv d j t' ht')
      (fun hv d j t' ht' => vblk_arg m c ⟨n, hn⟩ b h qi.val 0 hqi hk hnk hv j d t' ht')
      p (fun hz => absurd rfl hz)
    rw [he]
    exact key
  | succ k ih =>
    intro hk n hn hnk
    obtain ⟨e0, e1, e2⟩ := pt_coords ⟨n, hn⟩
    obtain ⟨p, he, hp⟩ := outsAt0_step m c n hn
    have hz : n ≠ 0 := by omega
    have key := step_row (m ((c.tc : Thread nD τ).loc main_arg0)) (m ((c.tc : Thread nD τ).loc main_arg1)) (m ((c.tc : Thread nD τ).loc main_arg2))
      b h s qi (⟨k + 1, hk⟩ : Fin 4) r (iblk m c 0 ⟨n, hn⟩) (iblk m c 1 ⟨n, hn⟩) (iblk m c 2 ⟨n, hn⟩) (grid0.coords ⟨n, hn⟩)
      (by rw [e1]; show n / 4 % 2 = qi.val; omega) (by rw [e2]; show n % 4 = k + 1; omega) hs
      (fun d => qblk_arg m c ⟨n, hn⟩ b h qi.val (k + 1) hqi hk hnk r d s hs)
      (fun hv d j t' ht' => kblk_arg m c ⟨n, hn⟩ b h qi.val (k + 1) hqi hk hnk hv d j t' ht')
      (fun hv d j t' ht' => vblk_arg m c ⟨n, hn⟩ b h qi.val (k + 1) hqi hk hnk hv j d t' ht')
      p (fun _ => by rw [hp hz]; exact ih (by omega) (n - 1) _ (by omega))
    rw [he]
    exact key

end Tile

end Cert.KernelIdeal.HandValue

end
-- ==== Proof.KerBlock.lean ====
/-
  What the output block's buffer holds after the last key tile of a query tile: every entry is the
  attention of its query row, in the unshifted tiled arrangement.
-/
import proofs.«125762_j22883585753583_2_alg».proof.Proof.StepIdeal
import proofs.«125762_j22883585753583_2_alg».proof.Proof.PayIdeal
import proofs.«125762_j22883585753583_2_alg».proof.Proof.AttnSpec
import proofs.«125762_j22883585753583_2_alg».proof.Proof.KerValue5

noncomputable section

namespace Cert.KernelIdeal.HandValue

open Idealize.ShloMosaic Idealize.ShloMosaic.TcCoe Idealize.ShloMosaic.ValueIdx Idealize.SL.Sem
open Cert.KernelIdeal Cert.KernelIdeal.Gen Cert.KernelIdeal.Hand

/-- At the point of batch `b`, head `h`, query tile `qi` and the LAST key tile, the output block's buffer at
    row `r`, feature `d` holds the attention of query `1024·qi + r`. -/
theorem out_block (m : (ℓ : Loc nD τ sig) → Buf (Elt Ideal) ℓ) (c : Dev nD) (b : Fin 2) (h : Fin 16) (qi : Fin 2)
    (t : Fin cfg0.N) (ht : t.val = 8 * (16 * b.val + h.val) + 4 * qi.val + 3) (r : Fin 1024) (d : Fin 128) :
    (Hand.outsAt0 m c t.val t.isLt).1 (ix3 (0 : Fin 1) r d)
      = Cert.Attn.kerOut (m ((c.tc : Thread nD τ).loc main_arg0)) (m ((c.tc : Thread nD τ).loc main_arg1))
          (m ((c.tc : Thread nD τ).loc main_arg2)) b h ⟨1024 * qi.val + r.val, by omega⟩ d := by
  have hqi := qi.isLt
  have hr := r.isLt
  have hsl : 1024 * qi.val + r.val < 2048 := by omega
  obtain ⟨e0, e1, e2⟩ := pt_coords t
  have hz : t.val ≠ 0 := by omega
  have he := outsAt0_pos m c t hz
  have key := out_row (m ((c.tc : Thread nD τ).loc main_arg0)) (m ((c.tc : Thread nD τ).loc main_arg1))
    (m ((c.tc : Thread nD τ).loc main_arg2)) b h (⟨1024 * qi.val + r.val, hsl⟩ : Fin 2048) qi (⟨3, by omega⟩ : Fin 4) r
    (iblk m c 0 t) (iblk m c 1 t) (iblk m c 2 t) (grid0.coords t)
    (by rw [e1]; show t.val / 4 % 2 = qi.val; omega) (by rw [e2]; show t.val % 4 = 3; omega) rfl rfl
    (fun d => qblk_arg m c t b h qi.val 3 hqi (by omega) ht r d (⟨1024 * qi.val + r.val, hsl⟩ : Fin 2048) rfl)
    (fun hv d j t' ht' => kblk_arg m c t b h qi.val 3 hqi (by omega) ht hv d j t' ht')
    (fun hv d j t' ht' => vblk_arg m c t b h qi.val 3 hqi (by omega) ht hv j d t' ht')
    (outsAt0 m c (t.val - 1) (Nat.lt_of_le_of_lt (Nat.sub_le _ _) t.isLt))
    (fun _ => sums_after m c b h qi r (⟨1024 * qi.val + r.val, hsl⟩ : Fin 2048) rfl 2 (by omega) (t.val - 1)
      (Nat.lt_of_le_of_lt (Nat.sub_le _ _) t.isLt) (by omega)) d
  rw [he]
  exact key

end Cert.KernelIdeal.HandValue

end
-- ==== Proof.KerValue.lean ====
/-
  The output array after the grid has run, and the result after the final reshape, at an index.

  The output window's block at grid point `t` is slab `t / 8`, query tile `t / 4 mod 2`, all 128 features,
  and it is written back at the points of the last key tile (`t mod 4 = 3`).  There the block's buffer holds
  the attention of the tile's 1024 query rows, so every write-back is its block of ONE array — entry
  `(bh, row, d)` is the attention of batch `bh / 16`, head `bh mod 16`, query `row`, feature `d` — and the
  write-backs cover the array: entry `(bh, row, d)` lies in the block of point `8·bh + 4·(row / 1024) + 3`.
  The reshape to batch × head × query × feature keeps the row-major position, so entry `(b, h, s, d)` of the
  result is entry `(16·b + h, s, d)` of that array.
-/
import proofs.«125762_j22883585753583_2_alg».proof.Proof.KerBlock
import proofs.«125762_j22883585753583_2_alg».proof.Proof.Gen.KernelIdeal.Points
import Idealize.ShloMosaic.Lib.Pipeline.Value
import Idealize.ShloMosaic.Lib.Tactic

noncomputable section

namespace Cert.KernelIdeal.HandValue

open Idealize.ShloMosaic Idealize.ShloMosaic.TcCoe Idealize.ShloMosaic.ValueIdx Idealize.ShloMosaic.Tactic Idealize.SL.Sem
open Idealize.ShloMosaic.Pipeline (Dat)
open Cert.KernelIdeal Cert.KernelIdeal.Gen Cert.KernelIdeal.Hand

variable (m : (ℓ : Loc nD τ sig) → Buf (Elt Ideal) ℓ)

/-- The attention of slab `bh = 16·b + h`, query row `row`, feature `d`. -/
def outAt (c : Dev nD) (bh : Fin 32) (row : Fin 2048) (d : Fin 128) : EReal :=
  Cert.Attn.kerOut (m ((c.tc : Thread nD τ).loc main_arg0)) (m ((c.tc : Thread nD τ).loc main_arg1))
    (m ((c.tc : Thread nD τ).loc main_arg2)) ⟨bh.val / 16, by omega⟩ ⟨bh.val % 16, by omega⟩ row d

/-- The whole output array: slab × query row × feature. -/
def outArr (c : Dev nD) : S32x2048x128.Idx → EReal := fun i => outAt m c (i 0) (i 1) (i 2)

theorem outArr_ix (c : Dev nD) (bh : Fin 32) (row : Fin 2048) (d : Fin 128) :
    outArr m c (ix3 bh row d) = outAt m c bh row d := rfl

/-- The output window's block index at point `t`: slab `t / 8`, query tile `t / 4 mod 2`, all features. -/
theorem idx_facts : ∀ t : Fin cfg0.N, win0_3.index t (0 : Fin 3) = t.val / 8 ∧ win0_3.index t (1 : Fin 3) = t.val / 4 % 2
    ∧ win0_3.index t (2 : Fin 3) = 0 :=
  (by decide +kernel : ∀ t : Fin grid0.N, win0_3.index t (0 : Fin 3) = t.val / 8 ∧ win0_3.index t (1 : Fin 3) = t.val / 4 % 2
    ∧ win0_3.index t (2 : Fin 3) = 0)

/-- At a point of the last key tile the output block's buffer holds the attention of its slab's query tile. -/
theorem blk_point (c : Dev nD) (t : Fin cfg0.N) (h3 : t.val % 4 = 3) (r : Fin 1024) (d : Fin 128)
    (bh : Fin 32) (row : Fin 2048) (hbh : bh.val = t.val / 8) (hrow : row.val = 1024 * (t.val / 4 % 2) + r.val) :
    (Hand.outsAt0 m c t.val t.isLt).1 (ix3 (0 : Fin 1) r d) = outAt m c bh row d := by
  have hN : cfg0.N = 256 := N_0
  have ht : t.val < 256 := hN ▸ t.isLt
  unfold outAt
  rw [out_block m c ⟨bh.val / 16, by omega⟩ ⟨bh.val % 16, by omega⟩ ⟨t.val / 4 % 2, by omega⟩ t (by simp only; omega) r d]
  congr 1
  exact Fin.ext (by simp only; omega)

/-- What a point of the last key tile writes back is its block of the output array. -/
theorem flushed_eq (c : Dev nD) (t : Fin cfg0.N) (hf : (cfg0.win 3).flush t = true) :
    (dats m 0 c).flushed 3 t = ((cfg0.win 3).blk t).view.read (Elt Ideal) (outArr m c) := by
  have h3 : t.val % 4 = 3 := (flush0_3 t).mp hf
  have hN : cfg0.N = 256 := N_0
  have ht : t.val < 256 := hN ▸ t.isLt
  obtain ⟨e0, e1, e2⟩ := idx_facts t
  show (cfg0.win 3).cut (grid0.coords t) ((dats m 0 c).after 3 t) = _
  rw [after0_3]
  funext y
  have y0 : (y 0).val < 1 := (y 0).isLt
  have y1 : (y 1).val < 1024 := (y 1).isLt
  have y2 : (y 2).val < 128 := (y 2).isLt
  show (Hand.outsAt0 m c t.val t.isLt).1 ((cfg0.win 3).xinj (grid0.coords t) y) = outArr m c (((cfg0.win 3).blk t).view.emb y)
  have ey : (cfg0.win 3).xinj (grid0.coords t) y = ix3 (0 : Fin 1) (⟨(y 1).val, y1⟩ : Fin 1024) (⟨(y 2).val, y2⟩ : Fin 128) := by
    funext a; apply Fin.ext
    match a with
    | ⟨0, _⟩ => show (y 0).val = 0; omega
    | ⟨1, _⟩ => rfl
    | ⟨2, _⟩ => rfl
  have ee : ((cfg0.win 3).blk t).view.emb y
      = ix3 (⟨t.val / 8, by omega⟩ : Fin 32) (⟨1024 * (t.val / 4 % 2) + (y 1).val, by omega⟩ : Fin 2048) (⟨(y 2).val, y2⟩ : Fin 128) := by
    funext a; apply Fin.ext
    match a with
    | ⟨0, _⟩ => show win0_3.index t (0 : Fin 3) * 1 + 1 * (y 0).val = t.val / 8; omega
    | ⟨1, _⟩ => show win0_3.index t (1 : Fin 3) * 1024 + 1 * (y 1).val = 1024 * (t.val / 4 % 2) + (y 1).val; omega
    | ⟨2, _⟩ => show win0_3.index t (2 : Fin 3) * 128 + 1 * (y 2).val = (y 2).val; omega
  rw [ey, ee, outArr_ix]
  exact blk_point m c t h3 _ _ _ _ rfl rfl

/-- An index of the array is in point `t`'s block iff each coordinate is in the block's range on its axis. -/
theorem mem_blk (t : Fin cfg0.N) (i : S32x2048x128.Idx) :
    i ∈ ((cfg0.win 3).blk t).view.set ↔ ∀ a : Fin 3, win0_3.index t a * S1x1024x128.size a ≤ (i a).val
      ∧ (i a).val < win0_3.index t a * S1x1024x128.size a + S1x1024x128.size a := by
  show i ∈ ((View.whole main_v6).slice (win0_3.rect t)).set ↔ _
  rw [View.set_slice_whole, Rect.mem_set_unit]
  exact Iff.rfl

/-- Every entry `(bh, row, d)` of the array lies in the block written back at the last key tile of query tile `row / 1024`. -/
theorem cover (i : S32x2048x128.Idx) :
    ∃ t : Fin cfg0.N, (cfg0.win 3).flush t = true ∧ i ∈ ((cfg0.win 3).blk t).view.set := by
  have hN : cfg0.N = 256 := N_0
  have i0 : (i 0).val < 32 := (i 0).isLt
  have i1 : (i 1).val < 2048 := (i 1).isLt
  have i2 : (i 2).val < 128 := (i 2).isLt
  obtain ⟨t, tv⟩ : ∃ t : Fin cfg0.N, t.val = 8 * (i 0).val + 4 * ((i 1).val / 1024) + 3 :=
    ⟨⟨8 * (i 0).val + 4 * ((i 1).val / 1024) + 3, by omega⟩, rfl⟩
  obtain ⟨e0, e1, e2⟩ := idx_facts t
  refine ⟨t, (flush0_3 t).mpr (by omega), ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 128 ≤ (i 2).val ∧ (i 2).val < win0_3.index t (2 : Fin 3) * 128 + 128; omega

/-- The output array after the run: the attention of every slab, query row and feature. -/
theorem final (c : Dev nD) : (dats m 0 c).arrAt 3 cfg0.N = outArr m c :=
  (dats m 0 c).arrAt_eq_of_cover 3 (outArr m c) (flushed_eq m c) cover

/-- The result array: the reshape of the output array. -/
theorem tail_arr (c : Dev nD) :
    (Pipeline.afterTail₀ cfgs (Hand.dats m) 0 (Gen.V0 m) [Gen.hostOps1] c main_v7 : S2x16x2048x128.Idx → EReal)
      = shapeCast S2x16x2048x128 (outArr m c) shapeCasts_S32x2048x128_S2x16x2048x128 := by
  unfold Pipeline.afterTail₀
  show StableHlo.after hostOps1 _ (Proc.devRef .tc main_v7) = _
  after_results
  have hw : Pipeline.withArrays (cfgs 0).spec c (V0 m c) (fun w => (dats m 0 c).arrAt w (cfgs 0).N) (Proc.devRef .tc main_v6)
      = outArr m c :=
    (Pipeline.withArrays_arr spec0 launch0.win.arr_inj c _ _ 3).trans (final m c)
  rw [hw]
  rfl

/-- The kernel program's result at `(b, h, s, d)` is the unshifted, tiled arrangement of the spec. -/
theorem tail_value (m : (ℓ : Loc nD τ sig) → Buf (Elt Ideal) ℓ) (c : Dev nD) (b : Fin 2) (h : Fin 16) (s : Fin 2048) (d : Fin 128) :
    Pipeline.afterTail₀ cfgs (Hand.dats m) 0 (Gen.V0 m) [Gen.hostOps1] c main_v7 (Idealize.ShloMosaic.ValueIdx.ix4 b h s d)
      = Cert.Attn.kerOut (m ((c.tc : Thread nD τ).loc main_arg0)) (m ((c.tc : Thread nD τ).loc main_arg1)) (m ((c.tc : Thread nD τ).loc main_arg2)) b h s d := by
  have e := congrFun (tail_arr m c) (ix4 b h s d)
  refine e.trans ?_
  refine (shapeCast_apply _ _ _ (ix3 (⟨16 * b.val + h.val, by omega⟩ : Fin 32) s d) ?_).trans ?_
  · rw [Shape.rowMajor_val_four, Shape.rowMajor_val_three]
    show ((16 * b.val + h.val) * 2048 + s.val) * 128 + d.val = ((b.val * 16 + h.val) * 2048 + s.val) * 128 + d.val
    ring
  · rw [outArr_ix]
    unfold outAt
    congr 1 <;> exact Fin.ext (by simp only; omega)

end Cert.KernelIdeal.HandValue
end
-- ==== Proof.RefValue.lean ====
/-
  The max-shifted, normalized arrangement read off the reference program, one stage at a time at
  explicit coordinates `(b, h, s, t)`: the causal mask, the capped and masked logit, the row maximum,
  the shifted weight, the row sum, the normalized weight, and the contraction with the values.
-/
import proofs.«125762_j22883585753583_2_alg».proof.Proof.Gen.ReferenceIdeal.Read
import proofs.«125762_j22883585753583_2_alg».proof.Proof.AttnSpec

noncomputable section

namespace Cert.ReferenceIdeal.RefValue

open Cert.ReferenceIdeal Cert.ReferenceIdeal.Gen Cert.ReferenceIdeal.Read Idealize.ShloMosaic Idealize.ShloMosaic.ValueIdx Idealize.ShloMosaic.StableHlo Cert.Attn

theorem toInt_ofNat_small (t : ℕ) (ht : t < 2048) : (BitVec.ofNat 32 t).toInt = (t : ℤ) := by
  rw [BitVec.toInt_eq_toNat_cond, BitVec.toNat_ofNat]
  have : t % 2 ^ 32 = t := Nat.mod_eq_of_lt (by omega)
  rw [this, if_pos (by omega)]

theorem sle_ofNat (s t : ℕ) (hs : s < 2048) (ht : t < 2048) :
    (BitVec.ofNat 32 t).sle (BitVec.ofNat 32 s + 0#32) = decide (t ≤ s) := by
  rw [BitVec.add_zero]
  simp only [BitVec.sle, toInt_ofNat_small s hs, toInt_ofNat_small t ht, Nat.cast_le]

theorem mask_apply (s t : Fin 2048) :
    val_main_v2 (F := Ideal) (ix2 s t) = if s.val < t.val then (⊥ : EReal) else 0 := by
  rw [val_main_v2_apply, val_main_v1_apply, val_main_call0_v4_apply, val_main_call0_v2_apply, val_main_call0_v0_apply,
    val_main_call0_v1_apply, val_main_call0_c_apply, val_main_call0_v3_apply, val_main_call0_v5_apply, val_main_call0_c_0_apply,
    val_main_v0_apply, val_main_c_apply, val_main_call1_v0_apply, val_main_cst_apply, val_main_call1_v1_apply, val_main_cst_0_apply]
  show Scalar.select (Scalar.select (IntOp.cmpi CmpIPredicate.sge (IntOp.addi (BitVec.ofNat 32 s.val) 0#32) (BitVec.ofNat 32 t.val)) 0#1 1#1)
      (Ideal.ofBits FTy.f32 0xFF800000#32) (Ideal.ofBits FTy.f32 0#32) = _
  have e1 : Ideal.ofBits FTy.f32 0xFF800000#32 = (⊥ : EReal) := by simp [Ideal.ofBits, Ideal.ieee]
  have e2 : Ideal.ofBits FTy.f32 0#32 = (0 : EReal) := by simp [Ideal.ofBits, Ideal.ieee]
  rw [e1, e2]
  unfold IntOp.cmpi IntOp.addi
  simp only [sle_ofNat s.val t.val s.isLt t.isLt]
  unfold Scalar.select
  by_cases hst : s.val < t.val
  · rw [if_pos hst, decide_eq_false (by omega)]; rfl
  · rw [if_neg hst, decide_eq_true (by omega)]; rfl

theorem lidx3_ix (b : Fin 2) (h : Fin 16) (s t : Fin 2048) (k : Fin 128) :
    lidx_main_v3 (ix4 b h s t) k = ix4 b h s k :=
  funext fun a => Fin.ext (by match a with | ⟨0, _⟩ => rfl | ⟨1, _⟩ => rfl | ⟨2, _⟩ => rfl | ⟨3, _⟩ => rfl)

theorem ridx3_ix (b : Fin 2) (h : Fin 16) (s t : Fin 2048) (k : Fin 128) :
    ridx_main_v3 (ix4 b h s t) k = ix4 b h k t :=
  funext fun a => Fin.ext (by match a with | ⟨0, _⟩ => rfl | ⟨1, _⟩ => rfl | ⟨2, _⟩ => rfl | ⟨3, _⟩ => rfl)

theorem idx11_12_ix (b : Fin 2) (h : Fin 16) (s t : Fin 2048) :
    idx_main_v11 (idx_main_v12 (ix4 b h s t)) = ix2 s t :=
  funext fun a => Fin.ext (by match a with | ⟨0, _⟩ => rfl | ⟨1, _⟩ => rfl)

/-- The capped logit of query `(b, h, s)` against key `t`. -/
theorem logit_apply (Q : (⟨S2x16x2048x128, .f32⟩ : BufTy).Contents (Elt Ideal)) (K : (⟨S2x16x128x2048, .f32⟩ : BufTy).Contents (Elt Ideal))
    (b : Fin 2) (h : Fin 16) (s t : Fin 2048) :
    val_main_v10 (F := Ideal) Q K (ix4 b h s t) = capR (score Q K b h s t) := by
  rw [val_main_v10_apply, val_main_v8_apply, val_main_v7_apply, val_main_v5_apply, val_main_v3_apply, val_main_v4_apply,
    val_main_cst_1_apply, val_main_v6_apply, val_main_cst_2_apply, val_main_v9_apply, val_main_cst_3_apply]
  simp only [lidx3_ix, ridx3_ix, Ideal.mulf_def, Ideal.hostDivf_def, Ideal.hostUnary_tanh_def, Ideal.ofBits_def]
  rfl

/-- The masked logit. -/
theorem masked_apply (Q : (⟨S2x16x2048x128, .f32⟩ : BufTy).Contents (Elt Ideal)) (K : (⟨S2x16x128x2048, .f32⟩ : BufTy).Contents (Elt Ideal))
    (b : Fin 2) (h : Fin 16) (s t : Fin 2048) :
    val_main_v13 (F := Ideal) Q K (ix4 b h s t) = wR s.val (ext fun t : Fin 2048 => capR (score Q K b h s t)) t.val := by
  rw [val_main_v13_apply, logit_apply, val_main_v12_apply, val_main_v11_apply, idx11_12_ix, mask_apply]
  unfold wR
  rw [ext_val, Ideal.addf_def]

/-- The reduced index `(b, h, s)` with key `k` put back on the last axis is `(b, h, s, k)`. -/
theorem lift_ix3 (hR : S2x16x2048x2048.Reduces [3] S2x16x2048) (b : Fin 2) (h : Fin 16) (s : Fin 2048)
    (k : Fin (S2x16x2048x2048.size 3)) :
    hR.lift (ix3 b h s) k = ix4 b h s (⟨k.val, k.isLt⟩ : Fin 2048) := by
  funext c; apply Fin.ext
  fin_cases c <;> rfl

/-- The row maximum: the fold of `max` from `-∞` over the keys. -/
theorem rowfold_apply (Q : (⟨S2x16x2048x128, .f32⟩ : BufTy).Contents (Elt Ideal)) (K : (⟨S2x16x128x2048, .f32⟩ : BufTy).Contents (Elt Ideal))
    (b : Fin 2) (h : Fin 16) (s : Fin 2048) :
    val_main_v14 (F := Ideal) Q K (ix3 b h s)
      = Finset.univ.fold max (⊥ : EReal) (fun t : Fin 2048 => val_main_v13 (F := Ideal) Q K (ix4 b h s t)) := by
  unfold val_main_v14
  generalize val_main_v13 (F := Ideal) Q K = y
  have hR : S2x16x2048x2048.Reduces [3] S2x16x2048 := by decide
  refine (Host.reduce_eq_fold_single (FloatOps.maximumf (F := Ideal) (φ := .f32)) y _ reducesTo_S2x16x2048x2048_S2x16x2048_d3 hR h_S_ (ix3 b h s)).trans ?_
  have hf : (y ∘ hR.lift (ix3 b h s)) = fun k : Fin 2048 => y (ix4 b h s k) :=
    funext fun k => congrArg y (lift_ix3 hR b h s k)
  have e0 : val_main_cst_4 (F := Ideal) (Shape.Idx.first h_S_) = (⊥ : EReal) := by
    rw [val_main_cst_4_apply]; simp [Ideal.ofBits, Ideal.ieee]
  rw [e0]
  exact congrArg (fun f => Finset.fold max (⊥ : EReal) f (Finset.univ : Finset (Fin 2048))) hf

/-- The row maximum, joined once more with `-∞`. -/
theorem rowmax_apply (Q : (⟨S2x16x2048x128, .f32⟩ : BufTy).Contents (Elt Ideal)) (K : (⟨S2x16x128x2048, .f32⟩ : BufTy).Contents (Elt Ideal))
    (b : Fin 2) (h : Fin 16) (s : Fin 2048) :
    val_main_v16 (F := Ideal) Q K (ix3 b h s) = rowMax s.val (ext fun t : Fin 2048 => capR (score Q K b h s t)) := by
  rw [val_main_v16_apply, val_main_v15_apply, val_main_cst_5_apply, rowfold_apply]
  unfold rowMax
  simp only [masked_apply, Ideal.maximumf_def, Ideal.ofBits_def]
  have e0 : Ideal.ofBits .f32 0xFF800000#32 = (⊥ : EReal) := by simp [Ideal.ofBits, Ideal.ieee]
  rw [e0]

theorem idx17_18_ix (b : Fin 2) (h : Fin 16) (s t : Fin 2048) :
    idx_main_v17 (idx_main_v18 (ix4 b h s t)) = ix3 b h s :=
  funext fun a => Fin.ext (by match a with | ⟨0, _⟩ => rfl | ⟨1, _⟩ => rfl | ⟨2, _⟩ => rfl)

/-- The shifted weight. -/
theorem weight_apply (Q : (⟨S2x16x2048x128, .f32⟩ : BufTy).Contents (Elt Ideal)) (K : (⟨S2x16x128x2048, .f32⟩ : BufTy).Contents (Elt Ideal))
    (b : Fin 2) (h : Fin 16) (s t : Fin 2048) :
    val_main_v20 (F := Ideal) Q K (ix4 b h s t) = uR s.val (ext fun t : Fin 2048 => capR (score Q K b h s t)) t.val := by
  rw [val_main_v20_apply, val_main_v19_apply, val_main_v18_apply, val_main_v17_apply, idx17_18_ix, rowmax_apply, masked_apply]
  rfl

theorem idx21_ix (b : Fin 2) (h : Fin 16) (s : Fin 2048) (k : Fin 2048) :
    idx_main_v21 (ix3 b h s) k = ix4 b h s k :=
  funext fun a => Fin.ext (by match a with | ⟨0, _⟩ => rfl | ⟨1, _⟩ => rfl | ⟨2, _⟩ => rfl | ⟨3, _⟩ => rfl)

/-- The row sum, from `0`. -/
theorem rowsum_apply (Q : (⟨S2x16x2048x128, .f32⟩ : BufTy).Contents (Elt Ideal)) (K : (⟨S2x16x128x2048, .f32⟩ : BufTy).Contents (Elt Ideal))
    (b : Fin 2) (h : Fin 16) (s : Fin 2048) :
    val_main_v21 (F := Ideal) Q K (ix3 b h s)
      = 0 + ∑ t' : Fin 2048, uR s.val (ext fun t : Fin 2048 => capR (score Q K b h s t)) t'.val := by
  rw [val_main_v21_apply, val_main_cst_6_apply]
  simp only [idx21_ix, weight_apply, Ideal.ofBits_def]
  have e0 : Ideal.ofBits .f32 0x00000000#32 = (0 : EReal) := by simp [Ideal.ofBits, Ideal.ieee]
  rw [e0]

theorem idx22_23_ix (b : Fin 2) (h : Fin 16) (s t : Fin 2048) :
    idx_main_v22 (idx_main_v23 (ix4 b h s t)) = ix3 b h s :=
  funext fun a => Fin.ext (by match a with | ⟨0, _⟩ => rfl | ⟨1, _⟩ => rfl | ⟨2, _⟩ => rfl)

/-- The normalized weight. -/
theorem prob_apply (Q : (⟨S2x16x2048x128, .f32⟩ : BufTy).Contents (Elt Ideal)) (K : (⟨S2x16x128x2048, .f32⟩ : BufTy).Contents (Elt Ideal))
    (b : Fin 2) (h : Fin 16) (s t : Fin 2048) :
    val_main_v24 (F := Ideal) Q K (ix4 b h s t)
      = Ideal.div (uR s.val (ext fun t : Fin 2048 => capR (score Q K b h s t)) t.val)
          (0 + ∑ t' : Fin 2048, uR s.val (ext fun t : Fin 2048 => capR (score Q K b h s t)) t'.val) := by
  rw [val_main_v24_apply, weight_apply, val_main_v23_apply, val_main_v22_apply, idx22_23_ix, rowsum_apply, Ideal.hostDivf_def]

theorem lidx25_ix (b : Fin 2) (h : Fin 16) (s : Fin 2048) (d : Fin 128) (k : Fin 2048) :
    lidx_main_v25 (ix4 b h s d) k = ix4 b h s k :=
  funext fun a => Fin.ext (by match a with | ⟨0, _⟩ => rfl | ⟨1, _⟩ => rfl | ⟨2, _⟩ => rfl | ⟨3, _⟩ => rfl)

theorem ridx25_ix (b : Fin 2) (h : Fin 16) (s : Fin 2048) (d : Fin 128) (k : Fin 2048) :
    ridx_main_v25 (ix4 b h s d) k = ix4 b h k d :=
  funext fun a => Fin.ext (by match a with | ⟨0, _⟩ => rfl | ⟨1, _⟩ => rfl | ⟨2, _⟩ => rfl | ⟨3, _⟩ => rfl)

/-- The reference's result at `(b, h, s, d)` is the max-shifted, normalized arrangement of the spec. -/
theorem ref_value (Q : (⟨Cert.ReferenceIdeal.S2x16x2048x128, .f32⟩ : BufTy).Contents (Elt Ideal)) (K : (⟨Cert.ReferenceIdeal.S2x16x128x2048, .f32⟩ : BufTy).Contents (Elt Ideal)) (V : (⟨Cert.ReferenceIdeal.S2x16x2048x128, .f32⟩ : BufTy).Contents (Elt Ideal)) (b : Fin 2) (h : Fin 16) (s : Fin 2048) (d : Fin 128) :
    Cert.ReferenceIdeal.Read.val_main_v25 (F := Ideal) Q K V (Idealize.ShloMosaic.ValueIdx.ix4 b h s d) = Cert.Attn.refOut Q K V b h s d := by
  rw [val_main_v25_apply]
  unfold refOut refRow
  refine Finset.sum_congr rfl fun t _ => ?_
  rw [lidx25_ix, ridx25_ix, prob_apply, ext_val]

end Cert.ReferenceIdeal.RefValue
end
-- ==== Proof.AttnMath.lean ====
/-
  The two arrangements of soft-capped causal attention agree on real inputs.

  For a query position `s` with real logits `y t` and real values `v t`, write `e t = exp (y t)`.
  The tiled arrangement sums `e t` and `e t · v t` over the visited keys; a key above the diagonal
  contributes `exp (-∞) = 0`, and the visited tiles hold every key `t ≤ s`, so its result is
  `(Σ_{t ≤ s} e t v t) / (Σ_{t ≤ s} e t)`.  The shifted arrangement subtracts a real number `M`
  (the row maximum; only its being real matters), so each weight is `e t · exp (-M)`, and the
  positive factor `exp (-M)` cancels between a weight and the row sum.
-/
import proofs.«125762_j22883585753583_2_alg».proof.Proof.AttnSpec

noncomputable section

namespace Cert.Attn

open Idealize.ShloMosaic Idealize.ShloMosaic.ValueIdx Finset

/-! ## The cap -/

/-- The word `0x42480000` denotes the real `50`. -/
theorem ofBits_50 : Ideal.ofBits .f32 0x42480000#32 = ((50 : ℝ) : EReal) := by
  simp [Ideal.ofBits, Ideal.ieee, -EReal.coe_mul]; norm_num

/-- Dividing by `50` is multiplying by `1/50`. -/
theorem capK_eq_capR (x : EReal) : capK x = capR x := by
  unfold capK capR
  rw [ofBits_50, Ideal.div_coe (by norm_num : (50 : ℝ) ≠ 0)]

/-- The hyperbolic tangent of an extended real is a real. -/
theorem tanh_real (x : EReal) : ∃ r : ℝ, Ideal.tanh x = (r : EReal) := by
  induction x using EReal.rec with
  | bot => exact ⟨-1, by simp⟩
  | coe r => exact ⟨Real.tanh r, rfl⟩
  | top => exact ⟨1, by simp⟩

/-- The capped logit is a real: a hyperbolic tangent times `50`. -/
theorem capK_real (x : EReal) : ∃ r : ℝ, capK x = (r : EReal) := by
  unfold capK
  obtain ⟨r, hr⟩ := tanh_real ((x * Ideal.ofBits .f32 0x3DB504F3#32) * ((1 / 50 : ℝ) : EReal))
  rw [hr, ofBits_50]
  exact ⟨r * 50, by rw [EReal.coe_mul]⟩

/-! ## Finite sums -/

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The running sum is the sum of the first `n` terms. -/
theorem accum_eq_sum (f : ℕ → EReal) (n : ℕ) : accum f n = ∑ i ∈ range n, f i := by
  induction n with
  | zero => simp [accum]
  | succ n ih => rw [accum, ih, Finset.sum_range_succ]

/-- A sum over `n` consecutive blocks of `m` terms is the sum of the first `m · n` terms. -/
theorem sum_blocks (m : ℕ) (f : ℕ → ℝ) (n : ℕ) :
    ∑ i ∈ range n, ∑ j ∈ range m, f (m * i + j) = ∑ t ∈ range (m * n), f t := by
  induction n with
  | zero => simp
  | succ n ih => rw [Finset.sum_range_succ, ih, Nat.mul_succ, Finset.sum_range_add]

/-- A sum of terms that vanish above `s`, over a range that reaches `s`, is the sum up to `s`. -/
theorem sum_mask (s N : ℕ) (h : s + 1 ≤ N) (f : ℕ → ℝ) :
    ∑ t ∈ range N, (if t ≤ s then f t else 0) = ∑ t ∈ range (s + 1), f t := by
  rw [← Finset.sum_filter]
  congr 1
  ext t
  simp only [Finset.mem_filter, Finset.mem_range]
  omega

/-- A sum of exponentials over a nonempty range is positive. -/
theorem sum_exp_pos (s : ℕ) (z : ℕ → ℝ) : 0 < ∑ t ∈ range (s + 1), Real.exp (z t) :=
  Finset.sum_pos (fun t _ => Real.exp_pos _) ⟨0, by simp⟩

/-! ## The unshifted, tiled arrangement -/

/-- The unshifted weight of a real logit. -/
theorem wK_coe (s : ℕ) (yr : ℕ → ℝ) (t : ℕ) :
    wK s (fun t => (yr t : EReal)) t = ((if t ≤ s then Real.exp (yr t) else 0 : ℝ) : EReal) := by
  unfold wK
  by_cases h : t ≤ s
  · rw [if_pos h, if_pos h]; rfl
  · rw [if_neg h, if_neg h]; rfl

/-- The visited tiles reach the diagonal. -/
theorem ntiles_reach (s : ℕ) (hs : s < 2048) : s + 1 ≤ 512 * ntiles s := by
  unfold ntiles
  split_ifs <;> omega

/-- The accumulated weights are the sum of the exponentials up to the diagonal. -/
theorem accL_coe (s : ℕ) (hs : s < 2048) (yr : ℕ → ℝ) :
    accum (tileL s (fun t => (yr t : EReal))) (ntiles s)
      = ((∑ t ∈ range (s + 1), Real.exp (yr t) : ℝ) : EReal) := by
  rw [accum_eq_sum, ← sum_mask s (512 * ntiles s) (ntiles_reach s hs), ← sum_blocks, coe_sum]
  refine Finset.sum_congr rfl fun i _ => ?_
  unfold tileL
  rw [coe_sum, ← Fin.sum_univ_eq_sum_range
    (fun j => ((if 512 * i + j ≤ s then Real.exp (yr (512 * i + j)) else 0 : ℝ) : EReal)) 512]
  exact Finset.sum_congr rfl fun j _ => wK_coe s yr _

/-- The accumulated weighted values are the weighted sum up to the diagonal. -/
theorem accA_coe (s : ℕ) (hs : s < 2048) (yr vr : ℕ → ℝ) :
    accum (tileA s (fun t => (yr t : EReal)) (fun t => (vr t : EReal))) (ntiles s)
      = ((∑ t ∈ range (s + 1), Real.exp (yr t) * vr t : ℝ) : EReal) := by
  rw [accum_eq_sum, ← sum_mask s (512 * ntiles s) (ntiles_reach s hs), ← sum_blocks, coe_sum]
  refine Finset.sum_congr rfl fun i _ => ?_
  unfold tileA
  rw [coe_sum, ← Fin.sum_univ_eq_sum_range
    (fun j => ((if 512 * i + j ≤ s then Real.exp (yr (512 * i + j)) * vr (512 * i + j) else 0 : ℝ) : EReal)) 512]
  refine Finset.sum_congr rfl fun j _ => ?_
  rw [wK_coe, ← EReal.coe_mul, ite_mul, zero_mul]

/-- The tiled arrangement on real inputs. -/
theorem kerRow_coe (s : ℕ) (hs : s < 2048) (yr vr : ℕ → ℝ) :
    kerRow s (fun t => (yr t : EReal)) (fun t => (vr t : EReal))
      = (((∑ t ∈ range (s + 1), Real.exp (yr t) * vr t)
          / (∑ t ∈ range (s + 1), Real.exp (yr t)) : ℝ) : EReal) := by
  unfold kerRow
  rw [accL_coe s hs, accA_coe s hs, Ideal.div_coe (sum_exp_pos s yr).ne', ← EReal.coe_mul, mul_one_div]

/-! ## The max-shifted, normalized arrangement -/

/-- The masked logit on and below the diagonal. -/
theorem wR_le (s : ℕ) (yr : ℕ → ℝ) {t : ℕ} (h : t ≤ s) :
    wR s (fun t => (yr t : EReal)) t = (yr t : EReal) := by
  unfold wR
  rw [if_neg (by omega), add_zero]

/-- The masked logit above the diagonal. -/
theorem wR_gt (s : ℕ) (yr : ℕ → ℝ) {t : ℕ} (h : s < t) :
    wR s (fun t => (yr t : EReal)) t = ⊥ := by
  unfold wR
  rw [if_pos h, EReal.add_bot]

/-- The row maximum of real logits is a real. -/
theorem rowMax_real (s : ℕ) (hs : s < 2048) (yr : ℕ → ℝ) :
    ∃ M : ℝ, rowMax s (fun t => (yr t : EReal)) = (M : EReal) := by
  unfold rowMax
  rw [max_eq_right bot_le]
  have hlt : Finset.univ.fold max ⊥ (fun t : Fin 2048 => wR s (fun t => (yr t : EReal)) t.val) < ⊤ := by
    rw [Finset.fold_max_lt]
    refine ⟨bot_lt_top, fun t _ => ?_⟩
    by_cases h : t.val ≤ s
    · rw [wR_le s yr h]; exact EReal.coe_lt_top _
    · rw [wR_gt s yr (by omega)]; exact bot_lt_top
  have hgt : ⊥ < Finset.univ.fold max ⊥ (fun t : Fin 2048 => wR s (fun t => (yr t : EReal)) t.val) := by
    rw [Finset.lt_fold_max]
    refine Or.inr ⟨⟨s, hs⟩, Finset.mem_univ _, ?_⟩
    rw [wR_le s yr (le_refl _)]; exact EReal.bot_lt_coe _
  exact ⟨_, (EReal.coe_toReal hlt.ne hgt.ne').symm⟩

/-- The shifted weight of a real logit, for a real shift. -/
theorem uR_coe (s : ℕ) (yr : ℕ → ℝ) (M : ℝ) (hM : rowMax s (fun t => (yr t : EReal)) = (M : EReal)) (t : ℕ) :
    uR s (fun t => (yr t : EReal)) t = ((if t ≤ s then Real.exp (yr t - M) else 0 : ℝ) : EReal) := by
  unfold uR
  rw [hM]
  by_cases h : t ≤ s
  · rw [wR_le s yr h, if_pos h, ← EReal.coe_sub]; rfl
  · rw [wR_gt s yr (by omega), if_neg h, EReal.bot_sub]; rfl

/-- The shifted arrangement on real inputs, for a real shift. -/
theorem refRow_coe (s : ℕ) (hs : s < 2048) (yr vr : ℕ → ℝ) (M : ℝ)
    (hM : rowMax s (fun t => (yr t : EReal)) = (M : EReal)) :
    refRow s (fun t => (yr t : EReal)) (fun t => (vr t : EReal))
      = ((∑ t ∈ range (s + 1),
            Real.exp (yr t - M) / (∑ t' ∈ range (s + 1), Real.exp (yr t' - M)) * vr t : ℝ) : EReal) := by
  have hD : (0 : EReal) + ∑ t' : Fin 2048, uR s (fun t => (yr t : EReal)) t'.val
      = ((∑ t' ∈ range (s + 1), Real.exp (yr t' - M) : ℝ) : EReal) := by
    rw [zero_add, ← sum_mask s 2048 (by omega), coe_sum, ← Fin.sum_univ_eq_sum_range
      (fun j => ((if j ≤ s then Real.exp (yr j - M) else 0 : ℝ) : EReal)) 2048]
    exact Finset.sum_congr rfl fun j _ => uR_coe s yr M hM _
  have hD0 : (∑ t' ∈ range (s + 1), Real.exp (yr t' - M)) ≠ 0 := (sum_exp_pos s fun t => yr t - M).ne'
  unfold refRow
  rw [hD]
  generalize (∑ t' ∈ range (s + 1), Real.exp (yr t' - M)) = D at hD0 ⊢
  rw [← sum_mask s 2048 (by omega) (fun t => Real.exp (yr t - M) / D * vr t), coe_sum,
    ← Fin.sum_univ_eq_sum_range
      (fun j => ((if j ≤ s then Real.exp (yr j - M) / D * vr j else 0 : ℝ) : EReal)) 2048]
  refine Finset.sum_congr rfl fun j _ => ?_
  rw [uR_coe s yr M hM, Ideal.div_coe hD0, ← EReal.coe_mul,
    ← EReal.coe_mul, mul_one_div, ite_div, zero_div, ite_mul, zero_mul]

/-! ## The two arrangements agree -/

/-- The real identity: a common positive factor cancels between each weight and the row sum. -/
theorem row_real (s : ℕ) (yr vr : ℕ → ℝ) (M : ℝ) :
    (∑ t ∈ range (s + 1), Real.exp (yr t) * vr t) / (∑ t ∈ range (s + 1), Real.exp (yr t))
      = ∑ t ∈ range (s + 1),
          Real.exp (yr t - M) / (∑ t' ∈ range (s + 1), Real.exp (yr t' - M)) * vr t := by
  have hL : 0 < ∑ t ∈ range (s + 1), Real.exp (yr t) := sum_exp_pos s yr
  have hc : 0 < Real.exp (-M) := Real.exp_pos _
  have he : ∀ t, Real.exp (yr t - M) = Real.exp (yr t) * Real.exp (-M) := fun t => by
    rw [sub_eq_add_neg, Real.exp_add]
  simp_rw [he]
  rw [← Finset.sum_mul, Finset.sum_div]
  refine Finset.sum_congr rfl fun t _ => ?_
  field_simp

theorem row_eq (s : ℕ) (hs : s < 2048) (y v : ℕ → EReal) (hy : ∀ t, ∃ r : ℝ, y t = (r : EReal)) (hv : ∀ t, ∃ r : ℝ, v t = (r : EReal)) : kerRow s y v = refRow s y v := by
  choose yr hyr using hy
  choose vr hvr using hv
  obtain rfl : y = fun t => (yr t : EReal) := funext hyr
  obtain rfl : v = fun t => (vr t : EReal) := funext hvr
  obtain ⟨M, hM⟩ := rowMax_real s hs yr
  rw [kerRow_coe s hs yr vr, refRow_coe s hs yr vr M hM, row_real s yr vr M]

/-- A finite family of reals, read at a natural position, is a real. -/
theorem ext_real {n : ℕ} (f : Fin n → EReal) (hf : ∀ j, ∃ r : ℝ, f j = (r : EReal)) (t : ℕ) :
    ∃ r : ℝ, ext f t = (r : EReal) := by
  unfold ext
  split_ifs with h
  · exact hf ⟨t, h⟩
  · exact ⟨0, rfl⟩

theorem out_eq (Q : SQ.Idx → EReal) (K : SK.Idx → EReal) (V : SQ.Idx → EReal) (hV : ∀ j, ∃ r : ℝ, V j = (r : EReal)) (b : Fin 2) (h : Fin 16) (s : Fin 2048) (d : Fin 128) : kerOut Q K V b h s d = refOut Q K V b h s d := by
  unfold kerOut refOut
  have hc : (fun t : Fin 2048 => capK (score Q K b h s t)) = fun t : Fin 2048 => capR (score Q K b h s t) :=
    funext fun t => capK_eq_capR _
  rw [← hc]
  exact row_eq s.val s.isLt _ _
    (ext_real _ fun t => capK_real _) (ext_real _ fun t => hV _)

end Cert.Attn

end
-- ==== Proof.PreFinite.lean ====
/-
  The value array is finite under the precondition.

  The precondition is the conjunction, over the three argument arrays, of "every element `x` has
  `|x| < +∞`", each conjunct a reduction by `and` over all four axes.  The last conjunct is about the
  value array: at every index, `max x (-x) < ⊤`, where `⊤` is what the word `0x7F800000` denotes.  An
  extended real with `max x (-x) < ⊤` is neither `⊤` (then `max ⊤ ⊥ = ⊤`) nor `⊥` (then
  `max ⊥ ⊤ = ⊤`), so it is a real number.
-/
import proofs.«125762_j22883585753583_2_alg».proof.Defs
import proofs.«125762_j22883585753583_2_alg».proof.Proof.Gen.Pre_finite_inputs
import Idealize.ShloMosaic.Lib.ReduceAll

noncomputable section

namespace Cert.KernelIdeal.PreFinite

open Idealize.ShloMosaic Idealize.SL.Sem

/-- The rank-0 shape has one index. -/
instance : Subsingleton Cert.Pre_finite_inputs.S_.Idx := ⟨fun a b => funext fun d => d.elim0⟩

/-- The word `0x7F800000` denotes `+∞`. -/
theorem inf_word : Ideal.ofBits .f32 0x7F800000#32 = (⊤ : EReal) := by
  simp [Ideal.ofBits, Ideal.ieee]

/-- An extended real whose absolute value is below `+∞` is a real. -/
theorem real_of_abs_lt (x : EReal) (h : Ideal.cmp .olt (max x (-x)) (Ideal.ofBits .f32 0x7F800000#32) = 1#1) : ∃ r : ℝ, x = (r : EReal) := by
  rw [inf_word] at h
  induction x using EReal.rec with
  | bot => simp [Ideal.cmp] at h
  | coe r => exact ⟨r, rfl⟩
  | top => simp [Ideal.cmp] at h

/-- Under the precondition every element of the value array is a real. -/
theorem v_real (m : (ℓ : Loc Cert.KernelIdeal.nD Cert.KernelIdeal.τ Cert.KernelIdeal.sig) → Buf (Elt Ideal) ℓ) [hP : Cert.Pre_finite_inputs.Facts] (hpre : Cert.Pre_KernelIdeal m) (c : Dev Cert.KernelIdeal.nD) : ∀ j, ∃ r : ℝ, m ((c.tc : Thread Cert.KernelIdeal.nD Cert.KernelIdeal.τ).loc Cert.KernelIdeal.main_arg2) j = (r : EReal) := by
  intro j
  -- the precondition at its one index: a conjunction of three reductions by `and`
  have e := congrFun (hpre c) (fun a => a.elim0 : Cert.Pre_finite_inputs.S_.Idx)
  dsimp only [Cert.Pre_finite_inputs.fn] at e
  -- the last conjunct is the value array's; a reduction by `and` that is 1 met only 1s
  obtain ⟨-, e2⟩ := IntOp.andi_eq_one.1 e
  exact real_of_abs_lt (m ((c.tc : Thread Cert.KernelIdeal.nD Cert.KernelIdeal.τ).loc Cert.KernelIdeal.main_arg2) j)
    (Host.reduce_andi_all _ _ _ _ _ e2 j)

end Cert.KernelIdeal.PreFinite

end
-- ==== Proof.lean ====
/-
  Causal attention with tanh soft-capping: a tiled kernel that accumulates unshifted softmax weights and
  weighted values over the key tiles at or below the diagonal and divides once at the end, against the
  reference that masks with -∞, shifts by the row maximum, normalizes and contracts with the values.

  The three frames: each program runs to the end, faults nowhere and leaves its arguments as they were —
  the kernel's two readings by running the body symbolically at each of the five combinations of its three
  branch conditions that the grid meets and carrying the two running sums from point to point; the
  reference's by its straight-line run.  The named constants: 1/50 for the word that rounds it, -∞ for the
  finite mask fill whose only use is under the exponential.  The value claim: the kernel's result array is
  the tiled quotient (Σ_{t ≤ s} e^{y t} v t) / (Σ_{t ≤ s} e^{y t}) per query row, the reference's is the
  normalized form Σ_t (e^{y t − M} / Σ e^{y − M}) v t; the capped logits y are real numbers (a hyperbolic
  tangent times fifty), the values are real by the precondition, the diagonal entry keeps the row sum
  positive, and the common factor e^{−M} cancels.
-/
import proofs.«125762_j22883585753583_2_alg».proof.Defs
import proofs.«125762_j22883585753583_2_alg».proof.Proof.Gen.Kernel
import proofs.«125762_j22883585753583_2_alg».proof.Proof.Gen.KernelIdeal
import proofs.«125762_j22883585753583_2_alg».proof.Proof.Gen.ReferenceIdeal
import proofs.«125762_j22883585753583_2_alg».proof.Proof.Gen.Pre_finite_inputs
import proofs.«125762_j22883585753583_2_alg».proof.Proof.Gen.ReferenceIdeal.Run
import proofs.«125762_j22883585753583_2_alg».proof.Proof.Gen.ReferenceIdeal.Read
import proofs.«125762_j22883585753583_2_alg».proof.Proof.FrameIdeal
import proofs.«125762_j22883585753583_2_alg».proof.Proof.FrameBits
import proofs.«125762_j22883585753583_2_alg».proof.Proof.KerValue
import proofs.«125762_j22883585753583_2_alg».proof.Proof.RefValue
import proofs.«125762_j22883585753583_2_alg».proof.Proof.AttnMath
import proofs.«125762_j22883585753583_2_alg».proof.Proof.PreFinite
import Idealize.ShloMosaic.Adequacy
import Idealize.ShloMosaic.Init

noncomputable section

open Idealize.ShloMosaic Idealize.ShloMosaic.TcCoe Idealize.SL.Sem

namespace Cert.Proof

/-- The word-level kernel runs and keeps its arguments. -/
theorem frame_k : Cert.frame_Kernel := fun m ρ _ => Cert.Kernel.Hand.frame m ρ

/-- The idealized kernel runs and keeps its arguments. -/
theorem frame_ki : Cert.frame_KernelIdeal := fun m ρ _ => Cert.KernelIdeal.Hand.frame m ρ

/-- The reference runs and keeps its arguments: its straight-line run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two named constants: the word nearest 1/50 read as 1/50, the finite mask fill read as -∞. -/
theorem preserves : Cert.preserves_Kernel_KernelIdeal :=
  ⟨IdealRules.named_const.statement Cert.KernelIdeal.κ "inv_50" .f32 0x3CA3D70A#32 ((1 / 50 : ℝ) : EReal) rfl,
   IdealRules.named_const.statement Cert.KernelIdeal.κ "neg_big" .f32 0xF149F2CA#32 ⊥ rfl⟩

/-- Both programs end with the same array: entry (b, h, s, d) is the attention of query s over the keys at or
    below it, in the tiled unshifted arrangement on one side and the shifted normalized one on the other. -/
theorem algebraic : Cert.algebraic_KernelIdeal_ReferenceIdeal := by
  intro m ρ m' ρ' hpre hagree
  refine ⟨fun c => Pipeline.afterTail₀ Cert.KernelIdeal.cfgs (Cert.KernelIdeal.Hand.dats m) 0 (Cert.KernelIdeal.Gen.V0 m)
    [Cert.KernelIdeal.Gen.hostOps1] c Cert.KernelIdeal.main_v7, ?_, ?_⟩
  · refine (θ_run Cert.KernelIdeal.defs _ _).mono (fun r h c => ⟨?_, ?_, ?_, ?_⟩) (Cert.KernelIdeal.Hand.run_main (F := Ideal) m ρ)
    · exact (h c).2 Cert.KernelIdeal.main_v7 (Pipeline.mem_restRefs_of Cert.KernelIdeal.main_v7 (by decide) (by decide))
    · exact ((h c).2 Cert.KernelIdeal.main_arg0 (Pipeline.mem_restRefs_of Cert.KernelIdeal.main_arg0 (by decide) (by decide))).trans
        (Cert.KernelIdeal.Gen.W_main_arg0 m (Cert.KernelIdeal.Hand.dats m) c)
    · exact ((h c).2 Cert.KernelIdeal.main_arg1 (Pipeline.mem_restRefs_of Cert.KernelIdeal.main_arg1 (by decide) (by decide))).trans
        (Cert.KernelIdeal.Gen.W_main_arg1 m (Cert.KernelIdeal.Hand.dats m) c)
    · exact ((h c).2 Cert.KernelIdeal.main_arg2 (Pipeline.mem_restRefs_of Cert.KernelIdeal.main_arg2 (by decide) (by decide))).trans
        (Cert.KernelIdeal.Gen.W_main_arg2 m (Cert.KernelIdeal.Hand.dats m) c)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v25_eq, (hagree c).1, (hagree c).2.1, (hagree c).2.2]
    funext i
    obtain ⟨b, h, s, d, rfl⟩ : ∃ (b : Fin 2) (h : Fin 16) (s : Fin 2048) (d : Fin 128), i = ValueIdx.ix4 b h s d :=
      ⟨i 0, i 1, i 2, i 3, ValueIdx.eq_ix4 i⟩
    rw [Cert.ReferenceIdeal.RefValue.ref_value]
    refine Eq.trans ?_ (Cert.KernelIdeal.HandValue.tail_value m c b h s d).symm
    exact (Cert.Attn.out_eq _ _ _ (Cert.KernelIdeal.PreFinite.v_real m hpre c) b h s d).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
